-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x3 : Shape := ⟨3, ![2, 1024, 3]⟩
abbrev S7x64 : Shape := ⟨2, ![7, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩

class Facts : Prop where
  bcast_S_S2x1024x3 : S_.BroadcastsInDim S2x1024x3 (![] : Fin 0 → Fin S2x1024x3.rank)
  reducesTo_S2x1024x3_S_d0_1_2 : S2x1024x3.ReducesTo [0, 1, 2] S_
  h_S_ : 0 < S_.numel
  bcast_S_S7x64 : S_.BroadcastsInDim S7x64 (![] : Fin 0 → Fin S7x64.rank)
  reducesTo_S7x64_S_d0_1 : S7x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S64 .f32) (main_arg5 : FVec F S64x3 .f32) (main_arg6 : FVec F S3 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x3 .f32 := Host.absf main_arg5
  let main_cst_8 : FVec F S_ .f32 := constant S_ .f32 0x7F800000#32
  let main_v25 : FVec F S64x3 .f32 := broadcastInDim S64x3 ![] bcast_S_S64x3 main_cst_8
  let main_v26 : IVec S64x3 1 := cmpf .olt main_v24 main_v25
  let main_c_9 : IVec S_ 1 := constantI S_ 1 1#1
  let main_v27 : IVec S_ 1 := (fun x v => Host.reduce IntOp.andi x v reducesTo_S64x3_S_d0_1 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S2x1024x3 .f32) (main_arg1 : FVec F S7x64 .f32) (main_arg2 : FVec F S64 .f32) (main_arg3 : FVec F S64x64 .f32) (main_arg4 : FVec F S64 .f32) (main_arg5 : FVec F S64x3 .f32) (main_arg6 : FVec F S3 .f32) : IVec S_ 1 :=
  let main_v0 : FVec F S2x1024x3 .f32 := Host.absf main_arg0
  let main_cst : FVec F S_ .f32 := constant S_ .f32 0x7F800000#32
  let main_v1 : FVec F S2x1024x3 .f32 := broadcastInDim S2x1024x3 ![] bcast_S_S2x1024x3 main_cst
  let main_v2 : IVec S2x1024x3 1 := cmpf .olt main_v0 main_v1
  let main_c : IVec S_ 1 := constantI S_ 1 1#1
  let main_v3 : IVec S_ 1 := (fun x v => Host.reduce IntOp.andi x v reducesTo_S2x1024x3_S_d0_1_2 h_S_) main_v2 main_c
  let main_v4 : FVec F S7x64 .f32 := Host.absf main_arg1
  let main_cst_0 : FVec F S_ .f32 := constant S_ .f32 0x7F800000#32
  let main_v5 : FVec F S7x64 .f32 := broadcastInDim S7x64 ![] bcast_S_S7x64 main_cst_0
  let main_v6 : IVec S7x64 1 := cmpf .olt main_v4 main_v5
  let main_c_1 : IVec S_ 1 := constantI S_ 1 1#1
  let main_v7 : IVec S_ 1 := (fun x v => Host.reduce IntOp.andi x v reducesTo_S7x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S2x1024x3 : Shape := ⟨3, ![2, 1024, 3]⟩
abbrev S7x64 : Shape := ⟨2, ![7, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S1x32x3 : Shape := ⟨3, ![1, 32, 3]⟩
abbrev S1x128x3 : Shape := ⟨3, ![1, 128, 3]⟩
abbrev S32x3 : Shape := ⟨2, ![32, 3]⟩
abbrev S128x3 : Shape := ⟨2, ![128, 3]⟩
abbrev S32x1x3 : Shape := ⟨3, ![32, 1, 3]⟩
abbrev S32x128x3 : Shape := ⟨3, ![32, 128, 3]⟩
abbrev S32x128 : Shape := ⟨2, ![32, 128]⟩
abbrev S32x128x1 : Shape := ⟨3, ![32, 128, 1]⟩
abbrev S32x128x7 : Shape := ⟨3, ![32, 128, 7]⟩
abbrev S4096x7 : Shape := ⟨2, ![4096, 7]⟩
abbrev S4096x64 : Shape := ⟨2, ![4096, 64]⟩
abbrev S1x64 : Shape := ⟨2, ![1, 64]⟩
abbrev S4096x3 : Shape := ⟨2, ![4096, 3]⟩
abbrev S1x3 : Shape := ⟨2, ![1, 3]⟩

abbrev nBuf : Space → Nat
  | .hbm => 8
  | .vmem => 13
  | .smem => 0
  | _ => 0

abbrev bufTy : (tb : Table) → Fin (tcTables nBuf tb) → BufTy
  | .hbm, ⟨0, _⟩ => ⟨S2x1024x3, .f32⟩
  | .hbm, ⟨1, _⟩ => ⟨S7x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x3, .f32⟩
  | .hbm, ⟨6, _⟩ => ⟨S3, .f32⟩
  | .hbm, ⟨7, _⟩ => ⟨S2x1024x3, .f32⟩
  | .local _ .vmem, ⟨0, _⟩ => ⟨S1x32x3, .f32⟩
  | .local _ .vmem, ⟨1, _⟩ => ⟨S1x32x3, .f32⟩
  | .local _ .vmem, ⟨2, _⟩ => ⟨S1x128x3, .f32⟩
  | .local _ .vmem, ⟨3, _⟩ => ⟨S1x128x3, .f32⟩
  | .local _ .vmem, ⟨4, _⟩ => ⟨S7x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64x3, .f32⟩
  | .local _ .vmem, ⟨9, _⟩ => ⟨S3, .f32⟩
  | .local _ .vmem, ⟨10, _⟩ => ⟨S1x32x3, .f32⟩
  | .local _ .vmem, ⟨11, _⟩ => ⟨S1x32x3, .f32⟩
  | .local _ .vmem, ⟨12, _⟩ => ⟨S32x3, .f32⟩
  | _, _ => ⟨S2x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨3, ![2, 32, 8], ![false, false, false]⟩

def k0_cond3 (i : grid0.Coords) : BitVec 1 :=
  let arg2 : BitVec 32 := BitVec.ofNat 32 (i 2).val
  let c7_i32 : BitVec 32 := 7#32
  let v85 : BitVec 1 := Scalar.cmpi .eq arg2 c7_i32
  let v86 : BitVec 32 := Scalar.extui v85
  let c0_i32_32 : BitVec 32 := 0#32
  let v87 : BitVec 1 := Scalar.cmpi .ne v86 c0_i32_32
  v87

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x32x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S7x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S64x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x32x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

class Facts₀ : Prop where
  inb_S1x32x3_S1x32x3_0_0_0 : ∀ a, (![0, 0, 0] : Fin 3 → Nat) a + S1x32x3.size a ≤ S1x32x3.size a
  h_S1x32x3 : 0 < S1x32x3.numel
  shapeCasts_S1x32x3_S32x3 : S1x32x3.ShapeCasts S32x3
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  shapeCasts_S128x3_S1x128x3 : S128x3.ShapeCasts S1x128x3
  shapeCasts_S32x3_S32x1x3 : S32x3.ShapeCasts S32x1x3
  broadcasts_S1x128x3_S32x128x3 : S1x128x3.Broadcasts S32x128x3
  broadcasts_S32x1x3_S32x128x3 : S32x1x3.Broadcasts S32x128x3
  reduces_S32x128x3_S32x128 : S32x128x3.Reduces [2] S32x128
  shapeCasts_S32x128_S32x128x1 : S32x128.ShapeCasts S32x128x1
  broadcasts_S32x128x1_S32x128x3 : S32x128x1.Broadcasts S32x128x3
  concatenates_S32x128x3_S32x128x3_S32x128x1_S32x128x7_d2 : Shape.Concatenates [S32x128x3, S32x128x3, S32x128x1] S32x128x7 2
  inb_S7x64_S7x64_0_0 : ∀ a, (![0, 0] : Fin 2 → Nat) a + S7x64.size a ≤ S7x64.size a
  h_S7x64 : 0 < S7x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64x3_S64x3_0_0 : ∀ a, (![0, 0] : Fin 2 → Nat) a + S64x3.size a ≤ S64x3.size a
  h_S64x3 : 0 < S64x3.numel
  inb_S64_S64_0 : ∀ a, (![0] : Fin 1 → Nat) a + S64.size a ≤ S64.size a
  h_S64 : 0 < S64.numel
  inb_S3_S3_0 : ∀ a, (![0] : Fin 1 → Nat) a + S3.size a ≤ S3.size a
  h_S3 : 0 < S3.numel
  shapeCasts_S32x128x7_S4096x7 : S32x128x7.ShapeCasts S4096x7
  shapeCasts_S64_S1x64 : S64.ShapeCasts S1x64
  broadcasts_S1x64_S4096x64 : S1x64.Broadcasts S4096x64
  shapeCasts_S3_S1x3 : S3.ShapeCasts S1x3
  broadcasts_S1x3_S4096x3 : S1x3.Broadcasts S4096x3
  shapeCasts_S4096x3_S32x128x3 : S4096x3.ShapeCasts S32x128x3
  reduces_S32x128x3_S32x3 : S32x128x3.Reduces [1] S32x3
  inb_S32x3_S32x3_0_0 : ∀ a, (![0, 0] : Fin 2 → Nat) a + S32x3.size a ≤ S32x3.size a
  h_S32x3 : 0 < S32x3.numel
  shapeCasts_S32x3_S32x3 : S32x3.ShapeCasts S32x3
  shapeCasts_S32x3_S1x32x3 : S32x3.ShapeCasts S1x32x3
  dot_S4096x7_S7x64_S4096x64_1_0_0_1_n_n_wf : DotDims.WF S4096x7 S7x64 S4096x64 [1] [0] [0] [1] [] []
  dot_S4096x64_S64x64_S4096x64_1_0_0_1_n_n_wf : DotDims.WF S4096x64 S64x64 S4096x64 [1] [0] [0] [1] [] []
  dot_S4096x64_S64x3_S4096x3_1_0_0_1_n_n_wf : DotDims.WF S4096x64 S64x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x3.size a ≤ S2x1024x3.size a
  hwx0_0 : ∀ i : grid0.Coords, EltTy.bits .f32 = 32 ∨ (Rect.block (s := S2x1024x3) S1x32x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x3.size a ≤ S2x1024x3.size a
  hwx0_1 : ∀ i : grid0.Coords, EltTy.bits .f32 = 32 ∨ (Rect.block (s := S2x1024x3) S1x128x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x64.size a ≤ S7x64.size a
  hwx0_2 : ∀ i : grid0.Coords, EltTy.bits .f32 = 32 ∨ (Rect.block (s := S7x64) S7x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x3.size a ≤ S64x3.size a
  hwx0_6 : ∀ i : grid0.Coords, EltTy.bits .f32 = 32 ∨ (Rect.block (s := S64x3) S64x3.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3.size a ≤ S3.size a
  hwx0_7 : ∀ i : grid0.Coords, EltTy.bits .f32 = 32 ∨ (Rect.block (s := S3) S3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x32x3.size a ≤ S2x1024x3.size a
  hwx0_8 : ∀ i : grid0.Coords, EltTy.bits .f32 = 32 ∨ (Rect.block (s := S2x1024x3) S1x32x3.size (cc0_transform_8 i) (hinb0_8 i)).WholeWords (EltTy.packing .f32)

variable [Facts₀]

def dot_S4096x7_S7x64_S4096x64_1_0_0_1_n_n : DotDims S4096x7 S7x64 S4096x64 where
  lhsContracting := [1]
  rhsContracting := [0]
  lhsNonContracting := [0]
  rhsNonContracting := [1]
  lhsBatch := []
  rhsBatch := []
  wf := dot_S4096x7_S7x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x3_S4096x3_1_0_0_1_n_n : DotDims S4096x64 S64x3 S4096x3 where
  lhsContracting := [1]
  rhsContracting := [0]
  lhsNonContracting := [0]
  rhsNonContracting := [1]
  lhsBatch := []
  rhsBatch := []
  wf := dot_S4096x64_S64x3_S4096x3_1_0_0_1_n_n_wf

abbrev win0_0 : Pipeline.Window sig grid0 :=
  Pipeline.Window.ofSpec (Memref.whole main_arg0) S1x32x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S7x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x32x3.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond3 i == 1#1) | ⟨_ + 9, h⟩ => absurd h (Nat.not_lt.2 (Nat.le_add_left _ _))

class Facts : Prop extends Facts₀ where

variable [Facts]
-- ==== ReferenceIdeal.lean ====
abbrev S2x1024x3 : Shape := ⟨3, ![2, 1024, 3]⟩
abbrev S7x64 : Shape := ⟨2, ![7, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S2x1x1024x3 : Shape := ⟨4, ![2, 1, 1024, 3]⟩
abbrev S2x1024x1x3 : Shape := ⟨4, ![2, 1024, 1, 3]⟩
abbrev S2x1024x1024x3 : Shape := ⟨4, ![2, 1024, 1024, 3]⟩
abbrev S_ : Shape := ⟨0, ![]⟩
abbrev S2x1024x1024 : Shape := ⟨3, ![2, 1024, 1024]⟩
abbrev S2x1024x1024x1 : Shape := ⟨4, ![2, 1024, 1024, 1]⟩
abbrev S2x1024x1024x7 : Shape := ⟨4, ![2, 1024, 1024, 7]⟩
abbrev S2x1024x1024x64 : Shape := ⟨4, ![2, 1024, 1024, 64]⟩
abbrev S1x1x1x64 : Shape := ⟨4, ![1, 1, 1, 64]⟩
abbrev S1x1x1x3 : Shape := ⟨4, ![1, 1, 1, 3]⟩
abbrev S1024x1024 : Shape := ⟨2, ![1024, 1024]⟩
abbrev S1x1024x1024x1 : Shape := ⟨4, ![1, 1024, 1024, 1]⟩

abbrev nBuf : Space → Nat
  | .hbm => 62
  | .vmem => 0
  | .smem => 0
  | _ => 0

abbrev bufTy : (tb : Table) → Fin (tcTables nBuf tb) → BufTy
  | .hbm, ⟨0, _⟩ => ⟨S2x1024x3, .f32⟩
  | .hbm, ⟨1, _⟩ => ⟨S7x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x3, .f32⟩
  | .hbm, ⟨6, _⟩ => ⟨S3, .f32⟩
  | .hbm, ⟨7, _⟩ => ⟨S2x1x1024x3, .f32⟩
  | .hbm, ⟨8, _⟩ => ⟨S2x1024x1x3, .f32⟩
  | .hbm, ⟨9, _⟩ => ⟨S2x1024x1024x3, .f32⟩
  | .hbm, ⟨10, _⟩ => ⟨S2x1024x1024x3, .f32⟩
  | .hbm, ⟨11, _⟩ => ⟨S2x1024x1024x3, .f32⟩
  | .hbm, ⟨12, _⟩ => ⟨S2x1024x1024x3, .f32⟩
  | .hbm, ⟨13, _⟩ => ⟨S_, .f32⟩
  | .hbm, ⟨14, _⟩ => ⟨S2x1024x1024, .f32⟩
  | .hbm, ⟨15, _⟩ => ⟨S2x1024x1024x1, .f32⟩
  | .hbm, ⟨16, _⟩ => ⟨S_, .f32⟩
  | .hbm, ⟨17, _⟩ => ⟨S2x1024x1024x1, .f32⟩
  | .hbm, ⟨18, _⟩ => ⟨S2x1024x1024x1, .f32⟩
  | .hbm, ⟨19, _⟩ => ⟨S_, .f32⟩
  | .hbm, ⟨20, _⟩ => ⟨S2x1024x1024x1, .f32⟩
  | .hbm, ⟨21, _⟩ => ⟨S2x1024x1024x1, .f32⟩
  | .hbm, ⟨22, _⟩ => ⟨S2x1024x1024x3, .f32⟩
  | .hbm, ⟨23, _⟩ => ⟨S2x1024x1024x3, .f32⟩
  | .hbm, ⟨24, _⟩ => ⟨S2x1024x1024x7, .f32⟩
  | .hbm, ⟨25, _⟩ => ⟨S2x1024x1024x64, .f32⟩
  | .hbm, ⟨26, _⟩ => ⟨S1x1x1x64, .f32⟩
  | .hbm, ⟨27, _⟩ => ⟨S2x1024x1024x64, .f32⟩
  | .hbm, ⟨28, _⟩ => ⟨S2x1024x1024x64, .f32⟩
  | .hbm, ⟨29, _⟩ => ⟨S_, .f32⟩
  | .hbm, ⟨30, _⟩ => ⟨S2x1024x1024x64, .f32⟩
  | .hbm, ⟨31, _⟩ => ⟨S2x1024x1024x64, .f32⟩
  | .hbm, ⟨32, _⟩ => ⟨S2x1024x1024x64, .f32⟩
  | .hbm, ⟨33, _⟩ => ⟨S1x1x1x64, .f32⟩
  | .hbm, ⟨34, _⟩ => ⟨S2x1024x1024x64, .f32⟩
  | .hbm, ⟨35, _⟩ => ⟨S2x1024x1024x64, .f32⟩
  | .hbm, ⟨36, _⟩ => ⟨S_, .f32⟩
  | .hbm, ⟨37, _⟩ => ⟨S2x1024x1024x64, .f32⟩
  | .hbm, ⟨38, _⟩ => ⟨S2x1024x1024x64, .f32⟩
  | .hbm, ⟨39, _⟩ => ⟨S2x1024x1024x3, .f32⟩
  | .hbm, ⟨40, _⟩ => ⟨S1x1x1x3, .f32⟩
  | .hbm, ⟨41, _⟩ => ⟨S2x1024x1024x3, .f32⟩
  | .hbm, ⟨42, _⟩ => ⟨S2x1024x1024x3, .f32⟩
  | .hbm, ⟨43, _⟩ => ⟨S2x1024x1024x3, .f32⟩
  | .hbm, ⟨44, _⟩ => ⟨S2x1024x1024x3, .f32⟩
  | .hbm, ⟨45, _⟩ => ⟨S_, .f32⟩
  | .hbm, ⟨46, _⟩ => ⟨S2x1024x1024x3, .f32⟩
  | .hbm, ⟨47, _⟩ => ⟨S2x1024x1024x3, .f32⟩
  | .hbm, ⟨48, _⟩ => ⟨S1024x1024, .i32⟩
  | .hbm, ⟨49, _⟩ => ⟨S1024x1024, .i32⟩
  | .hbm, ⟨50, _⟩ => ⟨S_, .i32⟩
  | .hbm, ⟨51, _⟩ => ⟨S1024x1024, .i32⟩
  | .hbm, ⟨52, _⟩ => ⟨S1024x1024, .i32⟩
  | .hbm, ⟨53, _⟩ => ⟨S1024x1024, .i1⟩
  | .hbm, ⟨54, _⟩ => ⟨S1x1024x1024x1, .i1⟩
  | .hbm, ⟨55, _⟩ => ⟨S_, .f32⟩
  | .hbm, ⟨56, _⟩ => ⟨S_, .f32⟩
  | .hbm, ⟨57, _⟩ => ⟨S2x1024x1024x3, .i1⟩
  | .hbm, ⟨58, _⟩ => ⟨S2x1024x1024x3, .f32⟩
  | .hbm, ⟨59, _⟩ => ⟨S2x1024x1024x3, .f32⟩
  | .hbm, ⟨60, _⟩ => ⟨S_, .f32⟩
  | .hbm, ⟨61, _⟩ => ⟨S2x1024x3, .f32⟩
  | _, _ => ⟨S2x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call1_cst : Ref sig .tc := ⟨.hbm, 36, rfl⟩
abbrev main_call1_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩

abbrev nD : Nat := 1
abbrev τ : Topo := Topo.v7x

variable {F : FTy → Type} [FloatOps F]

class Facts₀ : Prop where
  bcast_S2x1024x3_S2x1x1024x3_0_2_3 : S2x1024x3.BroadcastsInDim S2x1x1024x3 (![0, 2, 3] : Fin 3 → Fin S2x1x1024x3.rank)
  bcast_S2x1024x3_S2x1024x1x3_0_1_3 : S2x1024x3.BroadcastsInDim S2x1024x1x3 (![0, 1, 3] : Fin 3 → Fin S2x1024x1x3.rank)
  bcast_S2x1x1024x3_S2x1024x1024x3_0_1_2_3 : S2x1x1024x3.BroadcastsInDim S2x1024x1024x3 (![0, 1, 2, 3] : Fin 4 → Fin S2x1024x1024x3.rank)
  bcast_S2x1024x1x3_S2x1024x1024x3_0_1_2_3 : S2x1024x1x3.BroadcastsInDim S2x1024x1024x3 (![0, 1, 2, 3] : Fin 4 → Fin S2x1024x1024x3.rank)
  reducesTo_S2x1024x1024x3_S2x1024x1024_d3 : S2x1024x1024x3.ReducesTo [3] S2x1024x1024
  h_S_ : 0 < S_.numel
  bcast_S2x1024x1024_S2x1024x1024x1_0_1_2 : S2x1024x1024.BroadcastsInDim S2x1024x1024x1 (![0, 1, 2] : Fin 3 → Fin S2x1024x1024x1.rank)
  bcast_S_S2x1024x1024x1 : S_.BroadcastsInDim S2x1024x1024x1 (![] : Fin 0 → Fin S2x1024x1024x1.rank)
  bcast_S2x1024x1024x1_S2x1024x1024x3_0_1_2_3 : S2x1024x1024x1.BroadcastsInDim S2x1024x1024x3 (![0, 1, 2, 3] : Fin 4 → Fin S2x1024x1024x3.rank)
  concatenates_S2x1024x1024x3_S2x1024x1024x3_S2x1024x1024x1_S2x1024x1024x7_d3 : Shape.Concatenates [S2x1024x1024x3, S2x1024x1024x3, S2x1024x1024x1] S2x1024x1024x7 3
  bcast_S64_S1x1x1x64_3 : S64.BroadcastsInDim S1x1x1x64 (![3] : Fin 1 → Fin S1x1x1x64.rank)
  bcast_S1x1x1x64_S2x1024x1024x64_0_1_2_3 : S1x1x1x64.BroadcastsInDim S2x1024x1024x64 (![0, 1, 2, 3] : Fin 4 → Fin S2x1024x1024x64.rank)
  bcast_S_S2x1024x1024x64 : S_.BroadcastsInDim S2x1024x1024x64 (![] : Fin 0 → Fin S2x1024x1024x64.rank)
  bcast_S3_S1x1x1x3_3 : S3.BroadcastsInDim S1x1x1x3 (![3] : Fin 1 → Fin S1x1x1x3.rank)
  bcast_S1x1x1x3_S2x1024x1024x3_0_1_2_3 : S1x1x1x3.BroadcastsInDim S2x1024x1024x3 (![0, 1, 2, 3] : Fin 4 → Fin S2x1024x1024x3.rank)
  transposes_S2x1024x1024x3_S2x1024x1024x3_0_2_1_3 : S2x1024x1024x3.Transposes [0, 2, 1, 3] S2x1024x1024x3
  bcast_S_S2x1024x1024x3 : S_.BroadcastsInDim S2x1024x1024x3 (![] : Fin 0 → Fin S2x1024x1024x3.rank)
  bcast_S_S1024x1024 : S_.BroadcastsInDim S1024x1024 (![] : Fin 0 → Fin S1024x1024.rank)
  bcast_S1024x1024_S1x1024x1024x1_1_2 : S1024x1024.BroadcastsInDim S1x1024x1024x1 (![1, 2] : Fin 2 → Fin S1x1024x1024x1.rank)
  bcast_S1x1024x1024x1_S2x1024x1024x3_0_1_2_3 : S1x1024x1024x1.BroadcastsInDim S2x1024x1024x3 (![0, 1, 2, 3] : Fin 4 → Fin S2x1024x1024x3.rank)
  reducesTo_S2x1024x1024x3_S2x1024x3_d2 : S2x1024x1024x3.ReducesTo [2] S2x1024x3
  dot_S2x1024x1024x7_S7x64_S2x1024x1024x64_3_0_012_1_n_n_wf : DotDims.WF S2x1024x1024x7 S7x64 S2x1024x1024x64 [3] [0] [0, 1, 2] [1] [] []
  dot_S2x1024x1024x64_S64x64_S2x1024x1024x64_3_0_012_1_n_n_wf : DotDims.WF S2x1024x1024x64 S64x64 S2x1024x1024x64 [3] [0] [0, 1, 2] [1] [] []
  dot_S2x1024x1024x64_S64x3_S2x1024x1024x3_3_0_012_1_n_n_wf : DotDims.WF S2x1024x1024x64 S64x3 S2x1024x1024x3 [3] [0] [0, 1, 2] [1] [] []

variable [Facts₀]

def dot_S2x1024x1024x7_S7x64_S2x1024x1024x64_3_0_012_1_n_n : DotDims S2x1024x1024x7 S7x64 S2x1024x1024x64 where
  lhsContracting := [3]
  rhsContracting := [0]
  lhsNonContracting := [0, 1, 2]
  rhsNonContracting := [1]
  lhsBatch := []
  rhsBatch := []
  wf := dot_S2x1024x1024x7_S7x64_S2x1024x1024x64_3_0_012_1_n_n_wf
def dot_S2x1024x1024x64_S64x64_S2x1024x1024x64_3_0_012_1_n_n : DotDims S2x1024x1024x64 S64x64 S2x1024x1024x64 where
  lhsContracting := [3]
  rhsContracting := [0]
  lhsNonContracting := [0, 1, 2]
  rhsNonContracting := [1]
  lhsBatch := []
  rhsBatch := []
  wf := dot_S2x1024x1024x64_S64x64_S2x1024x1024x64_3_0_012_1_n_n_wf
def dot_S2x1024x1024x64_S64x3_S2x1024x1024x3_3_0_012_1_n_n : DotDims S2x1024x1024x64 S64x3 S2x1024x1024x3 where
  lhsContracting := [3]
  rhsContracting := [0]
  lhsNonContracting := [0, 1, 2]
  rhsNonContracting := [1]
  lhsBatch := []
  rhsBatch := []
  wf := dot_S2x1024x1024x64_S64x3_S2x1024x1024x3_3_0_012_1_n_n_wf

class Facts : Prop extends Facts₀ where

variable [Facts]
-- ==== Proof.FrameK.Base.lean ====
/-
  What the three runs of the kernel body share.

  The grid is 2 × 32 × 8: a batch b, a block i of 32 query points, a block j of 128 partner points; the point
  number is t = (b·32 + i)·8 + j, so j = t mod 8. Windows 0 and 1 are BOTH cut out of the positions array (the
  query block and the partner block), windows 2–7 are the six parameter arrays whole, window 8 is the result's
  block (b, i). A scratch of 32 × 3 numbers is carried from one point to the next: it is overwritten at j = 0,
  added to at j ≠ 0, and copied to the result's block at j = 7 — the only points at which that block is written back.
-/
import proofs.«179601_j54778012893568_2_alg».proof.Proof.Gen.Kernel.Launch
import proofs.«179601_j54778012893568_2_alg».proof.Proof.Gen.Kernel.Skeleton
import proofs.«179601_j54778012893568_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region is all of the program -/

/-- The buffers as the region finds them: as launched (no host operation precedes the region). -/
abbrev V (c : Dev nD) (b : Ref sig .tc) : Buf (Elt F) ((c : Thread nD τ).loc b) := m ((c : Thread nD τ).loc b)

/-- The program is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not: where it is not
    fetched its block index has not moved. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not: where it is not
    fetched its block index has not moved. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not: where it is not
    fetched its block index has not moved. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not: where it is not
    fetched its block index has not moved. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not: where it is not
    fetched its block index has not moved. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not: where it is not
    fetched its block index has not moved. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not: where it is not
    fetched its block index has not moved. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not: where it is not
    fetched its block index has not moved. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The three branch conditions, as functions of the point -/

/-- "j = 0": the scratch is overwritten. -/
abbrev condA (i : grid0.Coords) : Prop := (Scalar.cmpi .ne (Scalar.extui (Scalar.cmpi .eq (BitVec.ofNat 32 (i 2).val) 0#32)) 0#32) = 1#1
/-- "j ≠ 0": the scratch is added to. -/
abbrev condB (i : grid0.Coords) : Prop := (Scalar.cmpi .ne (Scalar.extui (Scalar.cmpi .ne (BitVec.ofNat 32 (i 2).val) 0#32)) 0#32) = 1#1
/-- "j = 7": the scratch is copied to the result's block. -/
abbrev condC (i : grid0.Coords) : Prop := k0_cond3 i = 1#1

theorem hcondA : ∀ t : Fin cfg0.N, condA (grid0.coords t) ↔ t.val % 8 = 0 :=
  (by decide +kernel : ∀ t : Fin grid0.N, condA (grid0.coords t) ↔ t.val % 8 = 0)
theorem hcondB : ∀ t : Fin cfg0.N, condB (grid0.coords t) ↔ ¬ t.val % 8 = 0 :=
  (by decide +kernel : ∀ t : Fin grid0.N, condB (grid0.coords t) ↔ ¬ t.val % 8 = 0)
theorem hcondC : ∀ t : Fin cfg0.N, condC (grid0.coords t) ↔ t.val % 8 = 7 :=
  (by decide +kernel : ∀ t : Fin grid0.N, condC (grid0.coords t) ↔ t.val % 8 = 7)

/-! ## Where the result's window is idle -/

theorem liveAt0 : ∀ t : Fin cfg0.N, cfg0.idle 0 (grid0.coords t) = false := fun _ => rfl
theorem liveAt1 : ∀ t : Fin cfg0.N, cfg0.idle 1 (grid0.coords t) = false := fun _ => rfl
theorem liveAt2 : ∀ t : Fin cfg0.N, cfg0.idle 2 (grid0.coords t) = false := fun _ => rfl
theorem liveAt3 : ∀ t : Fin cfg0.N, cfg0.idle 3 (grid0.coords t) = false := fun _ => rfl
theorem liveAt4 : ∀ t : Fin cfg0.N, cfg0.idle 4 (grid0.coords t) = false := fun _ => rfl
theorem liveAt5 : ∀ t : Fin cfg0.N, cfg0.idle 5 (grid0.coords t) = false := fun _ => rfl
theorem liveAt6 : ∀ t : Fin cfg0.N, cfg0.idle 6 (grid0.coords t) = false := fun _ => rfl
theorem liveAt7 : ∀ t : Fin cfg0.N, cfg0.idle 7 (grid0.coords t) = false := fun _ => rfl
/-- Away from j = 7 nothing is stored into the result's block, -/
theorem idleAt8 : ∀ t : Fin cfg0.N, ¬condC (grid0.coords t) → cfg0.idle 8 (grid0.coords t) = true := by decide +kernel
/-- and it is not written back there. -/
theorem noFlush8 : ∀ t : Fin cfg0.N, ¬condC (grid0.coords t) → (cfg0.win 8).flush t = false := by decide +kernel
/-- At j = 7 it is stored whole. -/
theorem liveAt8 : ∀ t : Fin cfg0.N, condC (grid0.coords t) → cfg0.idle 8 (grid0.coords t) = false := by decide +kernel

/-! ## The memrefs the body is called with -/

abbrev ms0 (t : Fin cfg0.N) : Memref sig .tc .vmem S1x32x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S7x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x3 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S3 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x32x3 .f32 := win0_8.stage (cfg0.slots t 8)
abbrev hs8 (t : Fin cfg0.N) : (ms8 t).IsWhole := hstage0_8 ((cfg0.slots t 8).cast nbuf0_8)
/-- The carried scratch. -/
abbrev scM : Memref sig .tc .vmem S32x3 .f32 := Memref.whole cc0_scratch0
/-- The scratch as a view: its contents are stated through it. -/
abbrev VS : View sig .tc .vmem S32x3 .f32 := scM.view
/-- One staging buffer of the result's window, through which its contents are stated. -/
abbrev VO8 : View sig .tc .vmem S1x32x3 .f32 := (Memref.whole cc0_stg8_0 : Memref sig .tc .vmem S1x32x3 .f32).view

/-- Between points the region keeps the scratch at some contents and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Frm

end
-- ==== Proof.FrameK.RunA.lean ====
/-
  The body at a point with j = 0: the block's partial sums overwrite the scratch, whatever it held; the result's block is not touched.
-/
import proofs.«179601_j54778012893568_2_alg».proof.Proof.FrameK.Base

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a point with j = 0: the block's partial sums overwrite the scratch, whatever it held; the result's block is not touched. The pieces the scratch ends with are found by the run. -/
noncomputable def kernelRunA (c : Dev nD) (i : grid0.Coords) (arg3 : Memref sig .tc .vmem S1x32x3 .f32) (harg3 : arg3.IsWhole) (arg4 : Memref sig .tc .vmem S1x128x3 .f32) (harg4 : arg4.IsWhole) (arg5 : Memref sig .tc .vmem S7x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x3 .f32) (harg9 : arg9.IsWhole) (arg10 : Memref sig .tc .vmem S3 .f32) (harg10 : arg10.IsWhole) (arg11 : Memref sig .tc .vmem S1x32x3 .f32) (harg11 : arg11.IsWhole) (arg12 : Memref sig .tc .vmem S32x3 .f32) (harg12 : arg12.IsWhole) (hcA : condA i) (hcB : ¬condB i) (hcC : ¬condC i)
    (x0 : Vec F S1x32x3 .f32) (x1 : Vec F S1x128x3 .f32) (x2 : Vec F S7x64 .f32) (x3 : Vec F S64 .f32) (x4 : Vec F S64x64 .f32) (x5 : Vec F S64 .f32) (x6 : Vec F S64x3 .f32) (x7 : Vec F S3 .f32) :
    { LS : List (View.Piece (Elt F) S32x3 .f32) //
      ∀ (xi8 : Vec F S1x32x3 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ f, arg12.view.loc (c : Thread nD τ) ↦[arg12.view.set]{fullShare} arg12.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12) K } := by
  refine ⟨?_, fun xi8 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | exact hcA | exact hcB | exact hcC)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact HS

end Cert.Kernel.Frm

end
-- ==== Proof.FrameK.RunB.lean ====
/-
  The body at a point with 0 < j < 7: the block's partial sums are added to the scratch; the result's block is not touched.
-/
import proofs.«179601_j54778012893568_2_alg».proof.Proof.FrameK.RunA

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a point with 0 < j < 7: the block's partial sums are added to the scratch; the result's block is not touched. The pieces the scratch ends with are found by the run. -/
noncomputable def kernelRunB (c : Dev nD) (i : grid0.Coords) (arg3 : Memref sig .tc .vmem S1x32x3 .f32) (harg3 : arg3.IsWhole) (arg4 : Memref sig .tc .vmem S1x128x3 .f32) (harg4 : arg4.IsWhole) (arg5 : Memref sig .tc .vmem S7x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x3 .f32) (harg9 : arg9.IsWhole) (arg10 : Memref sig .tc .vmem S3 .f32) (harg10 : arg10.IsWhole) (arg11 : Memref sig .tc .vmem S1x32x3 .f32) (harg11 : arg11.IsWhole) (arg12 : Memref sig .tc .vmem S32x3 .f32) (harg12 : arg12.IsWhole) (hcA : ¬condA i) (hcB : condB i) (hcC : ¬condC i)
    (x0 : Vec F S1x32x3 .f32) (x1 : Vec F S1x128x3 .f32) (x2 : Vec F S7x64 .f32) (x3 : Vec F S64 .f32) (x4 : Vec F S64x64 .f32) (x5 : Vec F S64 .f32) (x6 : Vec F S64x3 .f32) (x7 : Vec F S3 .f32) (xs : Vec F S32x3 .f32) :
    { LS : List (View.Piece (Elt F) S32x3 .f32) //
      ∀ (xi8 : Vec F S1x32x3 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ f, arg12.view.loc (c : Thread nD τ) ↦[arg12.view.set]{fullShare} arg12.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12) K } := by
  refine ⟨?_, fun xi8 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs
    sl_exec (disch := first | exact hcA | exact hcB | exact hcC)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact HS

end Cert.Kernel.Frm

end
-- ==== Proof.FrameK.RunC.lean ====
/-
  The body at a point with j = 7: the block's partial sums are added to the scratch, and the scratch is then copied to the result's block.
-/
import proofs.«179601_j54778012893568_2_alg».proof.Proof.FrameK.RunB

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a point with j = 7: the block's partial sums are added to the scratch, and the scratch is then copied to the result's block. The pieces the result's block and the scratch end with are found by the run. -/
noncomputable def kernelRunC (c : Dev nD) (i : grid0.Coords) (arg3 : Memref sig .tc .vmem S1x32x3 .f32) (harg3 : arg3.IsWhole) (arg4 : Memref sig .tc .vmem S1x128x3 .f32) (harg4 : arg4.IsWhole) (arg5 : Memref sig .tc .vmem S7x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x3 .f32) (harg9 : arg9.IsWhole) (arg10 : Memref sig .tc .vmem S3 .f32) (harg10 : arg10.IsWhole) (arg11 : Memref sig .tc .vmem S1x32x3 .f32) (harg11 : arg11.IsWhole) (arg12 : Memref sig .tc .vmem S32x3 .f32) (harg12 : arg12.IsWhole) (hcA : ¬condA i) (hcB : condB i) (hcC : condC i)
    (x0 : Vec F S1x32x3 .f32) (x1 : Vec F S1x128x3 .f32) (x2 : Vec F S7x64 .f32) (x3 : Vec F S64 .f32) (x4 : Vec F S64x64 .f32) (x5 : Vec F S64 .f32) (x6 : Vec F S64x3 .f32) (x7 : Vec F S3 .f32) (xs : Vec F S32x3 .f32) :
    Σ' (L8 : List (View.Piece (Elt F) S1x32x3 .f32)), { LS : List (View.Piece (Elt F) S32x3 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hfs
    sl_exec (disch := first | exact hcA | exact hcB | exact hcC)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS

end Cert.Kernel.Frm

end
-- ==== Proof.FrameK.Acc.lean ====
/-
  What the scratch and the result's block hold after each grid point, and the body's obligation to the pipeline.

  After the point t = (b·32 + i)·8 + j the scratch holds the sum, over the partner blocks 0 … j of the row (b, i),
  of the block's partial sums; at j = 7 the result's block receives a copy of it. The invariant between points is
  "the scratch holds exactly that", so that at j = 7 the copied value is the whole row's sum.
-/
import proofs.«179601_j54778012893568_2_alg».proof.Proof.FrameK.RunC

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The case of a point, from its residue modulo 8 -/

theorem hA_of (t : Fin cfg0.N) (h0 : t.val % 8 = 0) : condA (grid0.coords t) := (hcondA t).mpr h0
theorem nA_of (t : Fin cfg0.N) (h0 : ¬ t.val % 8 = 0) : ¬condA (grid0.coords t) := fun h => h0 ((hcondA t).mp h)
theorem hB_of (t : Fin cfg0.N) (h0 : ¬ t.val % 8 = 0) : condB (grid0.coords t) := (hcondB t).mpr h0
theorem nB_of (t : Fin cfg0.N) (h0 : t.val % 8 = 0) : ¬condB (grid0.coords t) := fun h => (hcondB t).mp h h0
theorem hC_of (t : Fin cfg0.N) (h7 : t.val % 8 = 7) : condC (grid0.coords t) := (hcondC t).mpr h7
theorem nC_of (t : Fin cfg0.N) (h7 : ¬ t.val % 8 = 7) : ¬condC (grid0.coords t) := fun h => h7 ((hcondC t).mp h)

/-! ## The three runs at a point's memrefs and input blocks -/

/-- The run at a point with j = 0. -/
abbrev runA (c : Dev nD) (t : Fin cfg0.N) (h0 : t.val % 8 = 0) :=
  kernelRunA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (hA_of t h0) (nB_of t h0) (nC_of t (by omega)) (iblk m c 0 t) (iblk m c 1 t) (iblk m c 2 t) (iblk m c 3 t) (iblk m c 4 t) (iblk m c 5 t) (iblk m c 6 t) (iblk m c 7 t)
/-- The run at a point with 0 < j < 7, the scratch found at `xs`. -/
abbrev runB (c : Dev nD) (t : Fin cfg0.N) (h0 : ¬ t.val % 8 = 0) (h7 : ¬ t.val % 8 = 7) (xs : Vec F S32x3 .f32) :=
  kernelRunB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (nA_of t h0) (hB_of t h0) (nC_of t h7) (iblk m c 0 t) (iblk m c 1 t) (iblk m c 2 t) (iblk m c 3 t) (iblk m c 4 t) (iblk m c 5 t) (iblk m c 6 t) (iblk m c 7 t) xs
/-- The run at a point with j = 7, the scratch found at `xs`. -/
abbrev runC (c : Dev nD) (t : Fin cfg0.N) (h7 : t.val % 8 = 7) (xs : Vec F S32x3 .f32) :=
  kernelRunC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (nA_of t (by omega)) (hB_of t (by omega)) (hC_of t h7) (iblk m c 0 t) (iblk m c 1 t) (iblk m c 2 t) (iblk m c 3 t) (iblk m c 4 t) (iblk m c 5 t) (iblk m c 6 t) (iblk m c 7 t) xs

/-- In each case the stores into the scratch cover it (each is a store of the whole 32 × 3 block). -/
theorem scoverA (c : Dev nD) (t : Fin cfg0.N) (h0 : t.val % 8 = 0) (y : S32x3.Idx) : ∃ pc ∈ (runA m c t h0).1, y ∈ pc.1.set :=
  View.cover_of_tiledL (runA m c t h0).1 S32x3.size (by sl_kernel_rfl) y
theorem scoverB (c : Dev nD) (t : Fin cfg0.N) (h0 : ¬ t.val % 8 = 0) (h7 : ¬ t.val % 8 = 7) (xs : Vec F S32x3 .f32) (y : S32x3.Idx) :
    ∃ pc ∈ (runB m c t h0 h7 xs).1, y ∈ pc.1.set :=
  View.cover_of_tiledL (runB m c t h0 h7 xs).1 S32x3.size (by sl_kernel_rfl) y
theorem scoverC (c : Dev nD) (t : Fin cfg0.N) (h7 : t.val % 8 = 7) (xs : Vec F S32x3 .f32) (y : S32x3.Idx) :
    ∃ pc ∈ (runC m c t h7 xs).2.1, y ∈ pc.1.set :=
  View.cover_of_tiledL (runC m c t h7 xs).2.1 S32x3.size (by sl_kernel_rfl) y
/-- At j = 7 the store into the result's block covers it. -/
theorem ocoverC (c : Dev nD) (t : Fin cfg0.N) (h7 : t.val % 8 = 7) (xs : Vec F S32x3 .f32) (y : S1x32x3.Idx) :
    ∃ pc ∈ (runC m c t h7 xs).1, y ∈ pc.1.set :=
  View.cover_of_tiledL (runC m c t h7 xs).1 S1x32x3.size (by sl_kernel_rfl) y

/-- What each case leaves in the scratch: its stores read back. -/
def soutA (c : Dev nD) (t : Fin cfg0.N) (h0 : t.val % 8 = 0) : Vec F S32x3 .f32 :=
  VS.read (Elt F) (VS.writes (Elt F) VS.junk (runA m c t h0).1)
def soutB (c : Dev nD) (t : Fin cfg0.N) (h0 : ¬ t.val % 8 = 0) (h7 : ¬ t.val % 8 = 7) (xs : Vec F S32x3 .f32) : Vec F S32x3 .f32 :=
  VS.read (Elt F) (VS.writes (Elt F) VS.junk (runB m c t h0 h7 xs).1)
def soutC (c : Dev nD) (t : Fin cfg0.N) (h7 : t.val % 8 = 7) (xs : Vec F S32x3 .f32) : Vec F S32x3 .f32 :=
  VS.read (Elt F) (VS.writes (Elt F) VS.junk (runC m c t h7 xs).2.1)
/-- What the case j = 7 leaves in the result's block. -/
def outC (c : Dev nD) (t : Fin cfg0.N) (h7 : t.val % 8 = 7) (xs : Vec F S32x3 .f32) : Vec F S1x32x3 .f32 :=
  VO8.read (Elt F) (VO8.writes (Elt F) VO8.junk (runC m c t h7 xs).1)

/-! ## The accumulation, point by point -/

/-- The scratch after point `n`: overwritten where j = 0, else the case's result over what the point before left. -/
def accAt (c : Dev nD) : (n : ℕ) → n < cfg0.N → Vec F S32x3 .f32
  | 0, hn => soutA m c ⟨0, hn⟩ (Nat.zero_mod 8)
  | n + 1, hn =>
    if h0 : (n + 1) % 8 = 0 then soutA m c ⟨n + 1, hn⟩ h0
    else if h7 : (n + 1) % 8 = 7 then soutC m c ⟨n + 1, hn⟩ h7 (accAt c n (Nat.lt_of_succ_lt hn))
    else soutB m c ⟨n + 1, hn⟩ h0 h7 (accAt c n (Nat.lt_of_succ_lt hn))

theorem accAt_A (c : Dev nD) (t : Fin cfg0.N) (h0 : t.val % 8 = 0) : accAt m c t.val t.isLt = soutA m c t h0 := by
  obtain ⟨n, hn⟩ := t
  cases n with
  | zero => rfl
  | succ n => exact dif_pos h0

theorem accAt_B (c : Dev nD) (t : Fin cfg0.N) (h0 : ¬ t.val % 8 = 0) (h7 : ¬ t.val % 8 = 7) :
    accAt m c t.val t.isLt = soutB m c t h0 h7 (accAt m c (t.val - 1) (Nat.lt_of_le_of_lt (Nat.sub_le _ _) t.isLt)) := by
  obtain ⟨n, hn⟩ := t
  cases n with
  | zero => exact absurd (Nat.zero_mod 8) h0
  | succ n => exact (dif_neg h0).trans (dif_neg h7)

theorem accAt_C (c : Dev nD) (t : Fin cfg0.N) (h7 : t.val % 8 = 7) :
    accAt m c t.val t.isLt = soutC m c t h7 (accAt m c (t.val - 1) (Nat.lt_of_le_of_lt (Nat.sub_le _ _) t.isLt)) := by
  obtain ⟨n, hn⟩ := t
  cases n with
  | zero => exact absurd h7 (by intro h; dsimp only at h; omega)
  | succ n => exact (dif_neg (by dsimp only at h7; omega)).trans (dif_pos h7)

/-- The result's staging block after point `n`: at j = 7 the copy of the scratch; elsewhere it is neither stored
    into nor written back, and nothing reads this value. -/
def out8At (c : Dev nD) (n : ℕ) (hn : n < cfg0.N) : Vec F S1x32x3 .f32 :=
  if h7 : n % 8 = 7 then outC m c ⟨n, hn⟩ h7 (accAt m c (n - 1) (Nat.lt_of_le_of_lt (Nat.sub_le _ _) hn))
  else VO8.read (Elt F) VO8.junk

theorem out8At_C (c : Dev nD) (t : Fin cfg0.N) (h7 : t.val % 8 = 7) :
    out8At m c t.val t.isLt = outC m c t h7 (accAt m c (t.val - 1) (Nat.lt_of_le_of_lt (Nat.sub_le _ _) t.isLt)) := dif_pos h7

/-! ## The invariant between points -/

/-- Before point `n`: at the start the scratch holds anything; afterwards what the point before left. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_zero (c : Dev nD) (n : ℕ) (h : n ≤ cfg0.N) (hz : n = 0) :
    PhiS m c n h = iprop(∃ d, owns (c : Thread nD τ) scM fullShare d) := by subst hz; rfl
theorem PhiS_succ (c : Dev nD) (n : ℕ) (hn : n < cfg0.N) :
    PhiS m c (n + 1) hn = owns (c : Thread nD τ) scM fullShare (accAt m c n hn) := rfl
theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The arrays as the region finds them; each input's staging buffer at its block; the result's at `out8At`; the
    invariant `PhiS`. The positions array is read through two windows, each holding half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8At m c t.val t.isLt
    | ⟨_ + 9, h⟩ => absurd h (Nat.not_lt.2 (Nat.le_add_left _ _))
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨_ + 9, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out8At m c t.val t.isLt := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d
theorem before7 (c : Dev nD) (t : Fin cfg0.N) (d) : (dats m 0 c).before 7 t d = iblk m c 7 t :=
  before_in7 m (dats m 0 c) (A_eq m c 7) (after7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0 (c : Dev nD) (t : Fin cfg0.N) :
    (dats m 0 c).leavesExact 0 t = owns (c : Thread nD τ) (ms0 t) fullShare (iblk m c 0 t) := by
  unfold Dat.leavesExact; rw [liveAt0 t, after0]
theorem leaves1 (c : Dev nD) (t : Fin cfg0.N) :
    (dats m 0 c).leavesExact 1 t = owns (c : Thread nD τ) (ms1 t) fullShare (iblk m c 1 t) := by
  unfold Dat.leavesExact; rw [liveAt1 t, after1]
theorem leaves2 (c : Dev nD) (t : Fin cfg0.N) :
    (dats m 0 c).leavesExact 2 t = owns (c : Thread nD τ) (ms2 t) fullShare (iblk m c 2 t) := by
  unfold Dat.leavesExact; rw [liveAt2 t, after2]
theorem leaves3 (c : Dev nD) (t : Fin cfg0.N) :
    (dats m 0 c).leavesExact 3 t = owns (c : Thread nD τ) (ms3 t) fullShare (iblk m c 3 t) := by
  unfold Dat.leavesExact; rw [liveAt3 t, after3]
theorem leaves4 (c : Dev nD) (t : Fin cfg0.N) :
    (dats m 0 c).leavesExact 4 t = owns (c : Thread nD τ) (ms4 t) fullShare (iblk m c 4 t) := by
  unfold Dat.leavesExact; rw [liveAt4 t, after4]
theorem leaves5 (c : Dev nD) (t : Fin cfg0.N) :
    (dats m 0 c).leavesExact 5 t = owns (c : Thread nD τ) (ms5 t) fullShare (iblk m c 5 t) := by
  unfold Dat.leavesExact; rw [liveAt5 t, after5]
theorem leaves6 (c : Dev nD) (t : Fin cfg0.N) :
    (dats m 0 c).leavesExact 6 t = owns (c : Thread nD τ) (ms6 t) fullShare (iblk m c 6 t) := by
  unfold Dat.leavesExact; rw [liveAt6 t, after6]
theorem leaves7 (c : Dev nD) (t : Fin cfg0.N) :
    (dats m 0 c).leavesExact 7 t = owns (c : Thread nD τ) (ms7 t) fullShare (iblk m c 7 t) := by
  unfold Dat.leavesExact; rw [liveAt7 t, after7]

end Cert.Kernel.Frm

end
-- ==== Proof.FrameK.Body.lean ====
/-
  The body's obligation to the pipeline at every grid point, by the case of the point; and the two ends of the
  invariant (at entry the scratch holds anything; after the last point its named contents are forgotten).
-/
import proofs.«179601_j54778012893568_2_alg».proof.Proof.FrameK.Acc

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- The body at any point: every input's staging buffer holds its block; the residue of the point modulo 8 says
    which case it is in, and that case's run applies. The invariant hands the body the scratch at what the point
    before left (at anything at the very first point) and takes it back at this point's contents; away from j = 7
    the result's block is handed back untouched, and at j = 7 it is left at the copy of the scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7]
  have hN : t.val < 512 := lt_of_lt_of_eq t.isLt (show cfg0.N = 512 from N_0)
  by_cases h0 : t.val % 8 = 0
  · have h7 : ¬ t.val % 8 = 7 := by omega
    rw [Dat.leavesExact_idle (dats m 0 c) 8 t (idleAt8 t (nC_of t h7)) (noFlush8 t (nC_of t h7))]
    rw [accAt_A m c t h0]
    unfold soutA; (try dsimp only)
    by_cases hz : t.val = 0
    · rw [PhiS_castSucc m c t, PhiS_zero m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA m c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HS]
      · unfold owns; iexists _; isplitr
        swap; · iexact HS
        ipureintro; exact View.read_writes_of_cover _ _ _ _ _ (scoverA m c t h0)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA m c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexists _; iexact HS
      iintro ⟨H0, H1, H2, H3, H4, H5, H6, H7, H8, ⟨%es, HS⟩⟩
      isplitl [HS]
      · unfold owns; iexists _; isplitr
        swap; · iexact HS
        ipureintro; exact View.read_writes_of_cover _ _ _ _ _ (scoverA m c t h0)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := fun e => h0 (by rw [e])
    by_cases h7 : t.val % 8 = 7
    · rw [show (dats m 0 c).leavesExact 8 t = owns (c : Thread nD τ) (ms8 t) fullShare ((dats m 0 c).after 8 t) from by
        unfold Dat.leavesExact; rw [liveAt8 t (hC_of t h7)], after8, out8At_C m c t h7]
      rw [accAt_C m c t h7]
      unfold outC soutC; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runC m c t h7 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, ⟨%e8, H8⟩, ⟨%es, HS⟩⟩
      isplitl [HS]
      · unfold owns; iexists _; isplitr
        swap; · iexact HS
        ipureintro; exact View.read_writes_of_cover _ _ _ _ _ (scoverC m c t h7 _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (ocoverC m c t h7 _)
    · rw [Dat.leavesExact_idle (dats m 0 c) 8 t (idleAt8 t (nC_of t h7)) (noFlush8 t (nC_of t h7))]
      rw [accAt_B m c t h0 h7]
      unfold soutB; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runB m c t h0 h7 _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HS]
      · unfold owns; iexists _; isplitr
        swap; · iexact HS
        ipureintro; exact View.read_writes_of_cover _ _ _ _ _ (scoverB m c t h0 h7 _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- At entry the region's scoped buffers other than the staging ones — the scratch alone — at some contents are
    the invariant before the first point. -/
theorem hin (c : Dev nD) : iprop((BI.emp : sProp 𝕄) ∗ Pipeline.scopedRest spec0 c) ⊢ (dats m 0 c).Φ 0 := by
  rw [show (dats m 0 c).Φ 0 = PhiS m c 0 (Nat.zero_le _) from rfl, PhiS_zero m c 0 _ rfl, scopedRest0_eq]
  simp only [scM, owns_whole]
  iintro ⟨-, H⟩; iexact H

/-- After the last point the scratch's named contents are forgotten. -/
theorem hout (c : Dev nD) : (dats m 0 c).Φ (Fin.last cfg0.N) ⊢ iprop((BI.emp : sProp 𝕄) ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 512 := N_0; omega), scopedRest0_eq]
  iintro HS
  isplitr; · iempintro
  iexists _
  iapply (show owns (c : Thread nD τ) scM fullShare _ ⊢ _ from by simp only [scM, owns_whole]; exact Idealize.SL.BI.Entails.refl _)
  iexact HS

end Cert.Kernel.Frm

end
-- ==== Proof.FrameK.Main.lean ====
/-
  The launch. The positions array is handed to the region once and read through two windows, so at entry its
  full share is cut in two halves, one per window; every other array is held whole by its one window. After the
  last point every window's array holds what the pipeline's write-backs made of it: the inputs what they held, the
  result the blocks written at the points with j = 7.
-/
import proofs.«179601_j54778012893568_2_alg».proof.Proof.FrameK.Body
import Idealize.ShloMosaic.Lib.Pipeline.Launch
import Idealize.ShloMosaic.Lib.Pipeline.Kit

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A window's array, whole, at the share the proof data names, is its buffer at that share. -/
theorem arr_eq (c : Dev nD) (w : Fin 9) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := by
  rw [(arr_whole0 w).set_eq_univ]; rfl

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl
theorem share8 (c : Dev nD) : (dats m 0 c).share 8 = fullShare := rfl

/-- The buffers behind the windows' arrays, each whole at the full share, are the windows' arrays at the shares
    the proof data names: the positions array's share is halved between its two windows. -/
theorem hsplit (c : Dev nD) : (Pipeline.arrBufs spec0 c (V m c) : sProp 𝕄) ⊢ (dats m 0 c).arrays ((dats m 0 c).arrAt · 0) := by
  have e : (Pipeline.arrBufs spec0 c (V m c) : sProp 𝕄)
      = iprop((((c.tc : Thread nD τ).loc main_arg0) ↦{fullShare} V m c main_arg0) ∗ (((c.tc : Thread nD τ).loc main_arg1) ↦{fullShare} V m c main_arg1) ∗ (((c.tc : Thread nD τ).loc main_arg2) ↦{fullShare} V m c main_arg2) ∗ (((c.tc : Thread nD τ).loc main_arg3) ↦{fullShare} V m c main_arg3) ∗ (((c.tc : Thread nD τ).loc main_arg4) ↦{fullShare} V m c main_arg4) ∗ (((c.tc : Thread nD τ).loc main_arg5) ↦{fullShare} V m c main_arg5) ∗ (((c.tc : Thread nD τ).loc main_arg6) ↦{fullShare} V m c main_arg6) ∗ (((c.tc : Thread nD τ).loc main_v0) ↦{fullShare} V m c main_v0)) := by
    unfold Pipeline.arrBufs
    exact bigSep_eq_bigSepL_of_eq [main_arg0, main_arg1, main_arg2, main_arg3, main_arg4, main_arg5, main_arg6, main_v0] (by decide) (by decide) _
  rw [e]
  unfold Dat.arrays
  rw [bigSep_W0]
  rw [arr_eq m c 0, arr_eq m c 1, arr_eq m c 2, arr_eq m c 3, arr_eq m c 4, arr_eq m c 5, arr_eq m c 6, arr_eq m c 7, arr_eq m c 8]
  rw [share0, share1, share2, share3, share4, share5, share6, share7, share8]
  iintro ⟨H0, H1, H2, H3, H4, H5, H6, H7⟩
  ihave Hs := (pointsTo_share (PosShare.mem_left_op_right fullShare)).1 $$ H0
  icases Hs with ⟨Ha, Hb⟩
  isplitl [Ha]; · iexact Ha
  isplitl [Hb]; · iexact Hb
  isplitl [H1]; · iexact H1
  isplitl [H2]; · iexact H2
  isplitl [H3]; · iexact H3
  isplitl [H4]; · iexact H4
  isplitl [H5]; · iexact H5
  isplitl [H6]; · iexact H6
  iexact H7

set_option backward.isDefEq.respectTransparency.types false in
/-- From any memory with zero counters every weakly fair execution of the program terminates without a fault, and
    in every final state each window's array holds what the write-backs made of its entry contents. -/
theorem run_main : θ_run defs (onTc (τ := τ) (main (F := F))) ⟨m, fun _ => 0, ρ⟩
    (fun r => ∀ c : Dev nD, ∀ w : Fin 9, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl) (u₀ := _) (hu₀ := Idealize.SL.BI.Entails.refl _)
    (V := V m) (hmain := hmain m Variants.none) (hsplit := hsplit m)
    (X := fun _ => BI.emp) (Y := fun _ => BI.emp) (Z := fun c => Pipeline.unscopedRest spec0 c (V m c))
    (hX := fun c => by iintro H; isplitr; · iempintro
                       iexact H)
    (hin := hin m) (hout := hout m)
    (QY := fun _ _ => True)
    (hY := fun c s' => by
      iintro ⟨-, -, HSI⟩; imodintro
      isplitr; · ipureintro; trivial
      iexact HSI)
    (hQ := fun s h c w => (h c).1 w)

/-- The frame: the program runs to the end without a fault and its seven argument arrays end as they began (an
    input window's array is never written back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c 0).trans (((dats m 0 c).arrAt_in 0 rfl _).trans (A_eq m c 0)),
     (h c 2).trans (((dats m 0 c).arrAt_in 2 rfl _).trans (A_eq m c 2)),
     (h c 3).trans (((dats m 0 c).arrAt_in 3 rfl _).trans (A_eq m c 3)),
     (h c 4).trans (((dats m 0 c).arrAt_in 4 rfl _).trans (A_eq m c 4)),
     (h c 5).trans (((dats m 0 c).arrAt_in 5 rfl _).trans (A_eq m c 5)),
     (h c 6).trans (((dats m 0 c).arrAt_in 6 rfl _).trans (A_eq m c 6)),
     (h c 7).trans (((dats m 0 c).arrAt_in 7 rfl _).trans (A_eq m c 7))⟩) (run_main m ρ)

end Cert.Kernel.Frm

end
-- ==== Proof.FrameKI.Base.lean ====
/-
  What the three runs of the kernel body share.

  The grid is 2 × 32 × 8: a batch b, a block i of 32 query points, a block j of 128 partner points; the point
  number is t = (b·32 + i)·8 + j, so j = t mod 8. Windows 0 and 1 are BOTH cut out of the positions array (the
  query block and the partner block), windows 2–7 are the six parameter arrays whole, window 8 is the result's
  block (b, i). A scratch of 32 × 3 numbers is carried from one point to the next: it is overwritten at j = 0,
  added to at j ≠ 0, and copied to the result's block at j = 7 — the only points at which that block is written back.
-/
import proofs.«179601_j54778012893568_2_alg».proof.Proof.Gen.KernelIdeal.Launch
import proofs.«179601_j54778012893568_2_alg».proof.Proof.Gen.KernelIdeal.Skeleton
import proofs.«179601_j54778012893568_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region is all of the program -/

/-- The buffers as the region finds them: as launched (no host operation precedes the region). -/
abbrev V (c : Dev nD) (b : Ref sig .tc) : Buf (Elt F) ((c : Thread nD τ).loc b) := m ((c : Thread nD τ).loc b)

/-- The program is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not: where it is not
    fetched its block index has not moved. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not: where it is not
    fetched its block index has not moved. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not: where it is not
    fetched its block index has not moved. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not: where it is not
    fetched its block index has not moved. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not: where it is not
    fetched its block index has not moved. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not: where it is not
    fetched its block index has not moved. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not: where it is not
    fetched its block index has not moved. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not: where it is not
    fetched its block index has not moved. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The three branch conditions, as functions of the point -/

/-- "j = 0": the scratch is overwritten. -/
abbrev condA (i : grid0.Coords) : Prop := (Scalar.cmpi .ne (Scalar.extui (Scalar.cmpi .eq (BitVec.ofNat 32 (i 2).val) 0#32)) 0#32) = 1#1
/-- "j ≠ 0": the scratch is added to. -/
abbrev condB (i : grid0.Coords) : Prop := (Scalar.cmpi .ne (Scalar.extui (Scalar.cmpi .ne (BitVec.ofNat 32 (i 2).val) 0#32)) 0#32) = 1#1
/-- "j = 7": the scratch is copied to the result's block. -/
abbrev condC (i : grid0.Coords) : Prop := k0_cond3 i = 1#1

theorem hcondA : ∀ t : Fin cfg0.N, condA (grid0.coords t) ↔ t.val % 8 = 0 :=
  (by decide +kernel : ∀ t : Fin grid0.N, condA (grid0.coords t) ↔ t.val % 8 = 0)
theorem hcondB : ∀ t : Fin cfg0.N, condB (grid0.coords t) ↔ ¬ t.val % 8 = 0 :=
  (by decide +kernel : ∀ t : Fin grid0.N, condB (grid0.coords t) ↔ ¬ t.val % 8 = 0)
theorem hcondC : ∀ t : Fin cfg0.N, condC (grid0.coords t) ↔ t.val % 8 = 7 :=
  (by decide +kernel : ∀ t : Fin grid0.N, condC (grid0.coords t) ↔ t.val % 8 = 7)

/-! ## Where the result's window is idle -/

theorem liveAt0 : ∀ t : Fin cfg0.N, cfg0.idle 0 (grid0.coords t) = false := fun _ => rfl
theorem liveAt1 : ∀ t : Fin cfg0.N, cfg0.idle 1 (grid0.coords t) = false := fun _ => rfl
theorem liveAt2 : ∀ t : Fin cfg0.N, cfg0.idle 2 (grid0.coords t) = false := fun _ => rfl
theorem liveAt3 : ∀ t : Fin cfg0.N, cfg0.idle 3 (grid0.coords t) = false := fun _ => rfl
theorem liveAt4 : ∀ t : Fin cfg0.N, cfg0.idle 4 (grid0.coords t) = false := fun _ => rfl
theorem liveAt5 : ∀ t : Fin cfg0.N, cfg0.idle 5 (grid0.coords t) = false := fun _ => rfl
theorem liveAt6 : ∀ t : Fin cfg0.N, cfg0.idle 6 (grid0.coords t) = false := fun _ => rfl
theorem liveAt7 : ∀ t : Fin cfg0.N, cfg0.idle 7 (grid0.coords t) = false := fun _ => rfl
/-- Away from j = 7 nothing is stored into the result's block, -/
theorem idleAt8 : ∀ t : Fin cfg0.N, ¬condC (grid0.coords t) → cfg0.idle 8 (grid0.coords t) = true := by decide +kernel
/-- and it is not written back there. -/
theorem noFlush8 : ∀ t : Fin cfg0.N, ¬condC (grid0.coords t) → (cfg0.win 8).flush t = false := by decide +kernel
/-- At j = 7 it is stored whole. -/
theorem liveAt8 : ∀ t : Fin cfg0.N, condC (grid0.coords t) → cfg0.idle 8 (grid0.coords t) = false := by decide +kernel

/-! ## The memrefs the body is called with -/

abbrev ms0 (t : Fin cfg0.N) : Memref sig .tc .vmem S1x32x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S7x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x3 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S3 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x32x3 .f32 := win0_8.stage (cfg0.slots t 8)
abbrev hs8 (t : Fin cfg0.N) : (ms8 t).IsWhole := hstage0_8 ((cfg0.slots t 8).cast nbuf0_8)
/-- The carried scratch. -/
abbrev scM : Memref sig .tc .vmem S32x3 .f32 := Memref.whole cc0_scratch0
/-- The scratch as a view: its contents are stated through it. -/
abbrev VS : View sig .tc .vmem S32x3 .f32 := scM.view
/-- One staging buffer of the result's window, through which its contents are stated. -/
abbrev VO8 : View sig .tc .vmem S1x32x3 .f32 := (Memref.whole cc0_stg8_0 : Memref sig .tc .vmem S1x32x3 .f32).view

/-- Between points the region keeps the scratch at some contents and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Frm

end
-- ==== Proof.FrameKI.RunA.lean ====
/-
  The body at a point with j = 0: the block's partial sums overwrite the scratch, whatever it held; the result's block is not touched.
-/
import proofs.«179601_j54778012893568_2_alg».proof.Proof.FrameKI.Base

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a point with j = 0: the block's partial sums overwrite the scratch, whatever it held; the result's block is not touched. The pieces the scratch ends with are found by the run. -/
noncomputable def kernelRunA (c : Dev nD) (i : grid0.Coords) (arg3 : Memref sig .tc .vmem S1x32x3 .f32) (harg3 : arg3.IsWhole) (arg4 : Memref sig .tc .vmem S1x128x3 .f32) (harg4 : arg4.IsWhole) (arg5 : Memref sig .tc .vmem S7x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x3 .f32) (harg9 : arg9.IsWhole) (arg10 : Memref sig .tc .vmem S3 .f32) (harg10 : arg10.IsWhole) (arg11 : Memref sig .tc .vmem S1x32x3 .f32) (harg11 : arg11.IsWhole) (arg12 : Memref sig .tc .vmem S32x3 .f32) (harg12 : arg12.IsWhole) (hcA : condA i) (hcB : ¬condB i) (hcC : ¬condC i)
    (x0 : Vec F S1x32x3 .f32) (x1 : Vec F S1x128x3 .f32) (x2 : Vec F S7x64 .f32) (x3 : Vec F S64 .f32) (x4 : Vec F S64x64 .f32) (x5 : Vec F S64 .f32) (x6 : Vec F S64x3 .f32) (x7 : Vec F S3 .f32) :
    { LS : List (View.Piece (Elt F) S32x3 .f32) //
      ∀ (xi8 : Vec F S1x32x3 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ f, arg12.view.loc (c : Thread nD τ) ↦[arg12.view.set]{fullShare} arg12.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12) K } := by
  refine ⟨?_, fun xi8 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | exact hcA | exact hcB | exact hcC)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact HS

end Cert.KernelIdeal.Frm

end
-- ==== Proof.FrameKI.RunB.lean ====
/-
  The body at a point with 0 < j < 7: the block's partial sums are added to the scratch; the result's block is not touched.
-/
import proofs.«179601_j54778012893568_2_alg».proof.Proof.FrameKI.RunA

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a point with 0 < j < 7: the block's partial sums are added to the scratch; the result's block is not touched. The pieces the scratch ends with are found by the run. -/
noncomputable def kernelRunB (c : Dev nD) (i : grid0.Coords) (arg3 : Memref sig .tc .vmem S1x32x3 .f32) (harg3 : arg3.IsWhole) (arg4 : Memref sig .tc .vmem S1x128x3 .f32) (harg4 : arg4.IsWhole) (arg5 : Memref sig .tc .vmem S7x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x3 .f32) (harg9 : arg9.IsWhole) (arg10 : Memref sig .tc .vmem S3 .f32) (harg10 : arg10.IsWhole) (arg11 : Memref sig .tc .vmem S1x32x3 .f32) (harg11 : arg11.IsWhole) (arg12 : Memref sig .tc .vmem S32x3 .f32) (harg12 : arg12.IsWhole) (hcA : ¬condA i) (hcB : condB i) (hcC : ¬condC i)
    (x0 : Vec F S1x32x3 .f32) (x1 : Vec F S1x128x3 .f32) (x2 : Vec F S7x64 .f32) (x3 : Vec F S64 .f32) (x4 : Vec F S64x64 .f32) (x5 : Vec F S64 .f32) (x6 : Vec F S64x3 .f32) (x7 : Vec F S3 .f32) (xs : Vec F S32x3 .f32) :
    { LS : List (View.Piece (Elt F) S32x3 .f32) //
      ∀ (xi8 : Vec F S1x32x3 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ f, arg12.view.loc (c : Thread nD τ) ↦[arg12.view.set]{fullShare} arg12.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12) K } := by
  refine ⟨?_, fun xi8 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs
    sl_exec (disch := first | exact hcA | exact hcB | exact hcC)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact HS

end Cert.KernelIdeal.Frm

end
-- ==== Proof.FrameKI.RunC.lean ====
/-
  The body at a point with j = 7: the block's partial sums are added to the scratch, and the scratch is then copied to the result's block.
-/
import proofs.«179601_j54778012893568_2_alg».proof.Proof.FrameKI.RunB

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a point with j = 7: the block's partial sums are added to the scratch, and the scratch is then copied to the result's block. The pieces the result's block and the scratch end with are found by the run. -/
noncomputable def kernelRunC (c : Dev nD) (i : grid0.Coords) (arg3 : Memref sig .tc .vmem S1x32x3 .f32) (harg3 : arg3.IsWhole) (arg4 : Memref sig .tc .vmem S1x128x3 .f32) (harg4 : arg4.IsWhole) (arg5 : Memref sig .tc .vmem S7x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x3 .f32) (harg9 : arg9.IsWhole) (arg10 : Memref sig .tc .vmem S3 .f32) (harg10 : arg10.IsWhole) (arg11 : Memref sig .tc .vmem S1x32x3 .f32) (harg11 : arg11.IsWhole) (arg12 : Memref sig .tc .vmem S32x3 .f32) (harg12 : arg12.IsWhole) (hcA : ¬condA i) (hcB : condB i) (hcC : condC i)
    (x0 : Vec F S1x32x3 .f32) (x1 : Vec F S1x128x3 .f32) (x2 : Vec F S7x64 .f32) (x3 : Vec F S64 .f32) (x4 : Vec F S64x64 .f32) (x5 : Vec F S64 .f32) (x6 : Vec F S64x3 .f32) (x7 : Vec F S3 .f32) (xs : Vec F S32x3 .f32) :
    Σ' (L8 : List (View.Piece (Elt F) S1x32x3 .f32)), { LS : List (View.Piece (Elt F) S32x3 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hfs
    sl_exec (disch := first | exact hcA | exact hcB | exact hcC)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS

end Cert.KernelIdeal.Frm

end
-- ==== Proof.FrameKI.Acc.lean ====
/-
  What the scratch and the result's block hold after each grid point, and the body's obligation to the pipeline.

  After the point t = (b·32 + i)·8 + j the scratch holds the sum, over the partner blocks 0 … j of the row (b, i),
  of the block's partial sums; at j = 7 the result's block receives a copy of it. The invariant between points is
  "the scratch holds exactly that", so that at j = 7 the copied value is the whole row's sum.
-/
import proofs.«179601_j54778012893568_2_alg».proof.Proof.FrameKI.RunC

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The case of a point, from its residue modulo 8 -/

theorem hA_of (t : Fin cfg0.N) (h0 : t.val % 8 = 0) : condA (grid0.coords t) := (hcondA t).mpr h0
theorem nA_of (t : Fin cfg0.N) (h0 : ¬ t.val % 8 = 0) : ¬condA (grid0.coords t) := fun h => h0 ((hcondA t).mp h)
theorem hB_of (t : Fin cfg0.N) (h0 : ¬ t.val % 8 = 0) : condB (grid0.coords t) := (hcondB t).mpr h0
theorem nB_of (t : Fin cfg0.N) (h0 : t.val % 8 = 0) : ¬condB (grid0.coords t) := fun h => (hcondB t).mp h h0
theorem hC_of (t : Fin cfg0.N) (h7 : t.val % 8 = 7) : condC (grid0.coords t) := (hcondC t).mpr h7
theorem nC_of (t : Fin cfg0.N) (h7 : ¬ t.val % 8 = 7) : ¬condC (grid0.coords t) := fun h => h7 ((hcondC t).mp h)

/-! ## The three runs at a point's memrefs and input blocks -/

/-- The run at a point with j = 0. -/
abbrev runA (c : Dev nD) (t : Fin cfg0.N) (h0 : t.val % 8 = 0) :=
  kernelRunA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (hA_of t h0) (nB_of t h0) (nC_of t (by omega)) (iblk m c 0 t) (iblk m c 1 t) (iblk m c 2 t) (iblk m c 3 t) (iblk m c 4 t) (iblk m c 5 t) (iblk m c 6 t) (iblk m c 7 t)
/-- The run at a point with 0 < j < 7, the scratch found at `xs`. -/
abbrev runB (c : Dev nD) (t : Fin cfg0.N) (h0 : ¬ t.val % 8 = 0) (h7 : ¬ t.val % 8 = 7) (xs : Vec F S32x3 .f32) :=
  kernelRunB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (nA_of t h0) (hB_of t h0) (nC_of t h7) (iblk m c 0 t) (iblk m c 1 t) (iblk m c 2 t) (iblk m c 3 t) (iblk m c 4 t) (iblk m c 5 t) (iblk m c 6 t) (iblk m c 7 t) xs
/-- The run at a point with j = 7, the scratch found at `xs`. -/
abbrev runC (c : Dev nD) (t : Fin cfg0.N) (h7 : t.val % 8 = 7) (xs : Vec F S32x3 .f32) :=
  kernelRunC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (nA_of t (by omega)) (hB_of t (by omega)) (hC_of t h7) (iblk m c 0 t) (iblk m c 1 t) (iblk m c 2 t) (iblk m c 3 t) (iblk m c 4 t) (iblk m c 5 t) (iblk m c 6 t) (iblk m c 7 t) xs

/-- In each case the stores into the scratch cover it (each is a store of the whole 32 × 3 block). -/
theorem scoverA (c : Dev nD) (t : Fin cfg0.N) (h0 : t.val % 8 = 0) (y : S32x3.Idx) : ∃ pc ∈ (runA m c t h0).1, y ∈ pc.1.set :=
  View.cover_of_tiledL (runA m c t h0).1 S32x3.size (by sl_kernel_rfl) y
theorem scoverB (c : Dev nD) (t : Fin cfg0.N) (h0 : ¬ t.val % 8 = 0) (h7 : ¬ t.val % 8 = 7) (xs : Vec F S32x3 .f32) (y : S32x3.Idx) :
    ∃ pc ∈ (runB m c t h0 h7 xs).1, y ∈ pc.1.set :=
  View.cover_of_tiledL (runB m c t h0 h7 xs).1 S32x3.size (by sl_kernel_rfl) y
theorem scoverC (c : Dev nD) (t : Fin cfg0.N) (h7 : t.val % 8 = 7) (xs : Vec F S32x3 .f32) (y : S32x3.Idx) :
    ∃ pc ∈ (runC m c t h7 xs).2.1, y ∈ pc.1.set :=
  View.cover_of_tiledL (runC m c t h7 xs).2.1 S32x3.size (by sl_kernel_rfl) y
/-- At j = 7 the store into the result's block covers it. -/
theorem ocoverC (c : Dev nD) (t : Fin cfg0.N) (h7 : t.val % 8 = 7) (xs : Vec F S32x3 .f32) (y : S1x32x3.Idx) :
    ∃ pc ∈ (runC m c t h7 xs).1, y ∈ pc.1.set :=
  View.cover_of_tiledL (runC m c t h7 xs).1 S1x32x3.size (by sl_kernel_rfl) y

/-- What each case leaves in the scratch: its stores read back. -/
def soutA (c : Dev nD) (t : Fin cfg0.N) (h0 : t.val % 8 = 0) : Vec F S32x3 .f32 :=
  VS.read (Elt F) (VS.writes (Elt F) VS.junk (runA m c t h0).1)
def soutB (c : Dev nD) (t : Fin cfg0.N) (h0 : ¬ t.val % 8 = 0) (h7 : ¬ t.val % 8 = 7) (xs : Vec F S32x3 .f32) : Vec F S32x3 .f32 :=
  VS.read (Elt F) (VS.writes (Elt F) VS.junk (runB m c t h0 h7 xs).1)
def soutC (c : Dev nD) (t : Fin cfg0.N) (h7 : t.val % 8 = 7) (xs : Vec F S32x3 .f32) : Vec F S32x3 .f32 :=
  VS.read (Elt F) (VS.writes (Elt F) VS.junk (runC m c t h7 xs).2.1)
/-- What the case j = 7 leaves in the result's block. -/
def outC (c : Dev nD) (t : Fin cfg0.N) (h7 : t.val % 8 = 7) (xs : Vec F S32x3 .f32) : Vec F S1x32x3 .f32 :=
  VO8.read (Elt F) (VO8.writes (Elt F) VO8.junk (runC m c t h7 xs).1)

/-! ## The accumulation, point by point -/

/-- The scratch after point `n`: overwritten where j = 0, else the case's result over what the point before left. -/
def accAt (c : Dev nD) : (n : ℕ) → n < cfg0.N → Vec F S32x3 .f32
  | 0, hn => soutA m c ⟨0, hn⟩ (Nat.zero_mod 8)
  | n + 1, hn =>
    if h0 : (n + 1) % 8 = 0 then soutA m c ⟨n + 1, hn⟩ h0
    else if h7 : (n + 1) % 8 = 7 then soutC m c ⟨n + 1, hn⟩ h7 (accAt c n (Nat.lt_of_succ_lt hn))
    else soutB m c ⟨n + 1, hn⟩ h0 h7 (accAt c n (Nat.lt_of_succ_lt hn))

theorem accAt_A (c : Dev nD) (t : Fin cfg0.N) (h0 : t.val % 8 = 0) : accAt m c t.val t.isLt = soutA m c t h0 := by
  obtain ⟨n, hn⟩ := t
  cases n with
  | zero => rfl
  | succ n => exact dif_pos h0

theorem accAt_B (c : Dev nD) (t : Fin cfg0.N) (h0 : ¬ t.val % 8 = 0) (h7 : ¬ t.val % 8 = 7) :
    accAt m c t.val t.isLt = soutB m c t h0 h7 (accAt m c (t.val - 1) (Nat.lt_of_le_of_lt (Nat.sub_le _ _) t.isLt)) := by
  obtain ⟨n, hn⟩ := t
  cases n with
  | zero => exact absurd (Nat.zero_mod 8) h0
  | succ n => exact (dif_neg h0).trans (dif_neg h7)

theorem accAt_C (c : Dev nD) (t : Fin cfg0.N) (h7 : t.val % 8 = 7) :
    accAt m c t.val t.isLt = soutC m c t h7 (accAt m c (t.val - 1) (Nat.lt_of_le_of_lt (Nat.sub_le _ _) t.isLt)) := by
  obtain ⟨n, hn⟩ := t
  cases n with
  | zero => exact absurd h7 (by intro h; dsimp only at h; omega)
  | succ n => exact (dif_neg (by dsimp only at h7; omega)).trans (dif_pos h7)

/-- The result's staging block after point `n`: at j = 7 the copy of the scratch; elsewhere it is neither stored
    into nor written back, and nothing reads this value. -/
def out8At (c : Dev nD) (n : ℕ) (hn : n < cfg0.N) : Vec F S1x32x3 .f32 :=
  if h7 : n % 8 = 7 then outC m c ⟨n, hn⟩ h7 (accAt m c (n - 1) (Nat.lt_of_le_of_lt (Nat.sub_le _ _) hn))
  else VO8.read (Elt F) VO8.junk

theorem out8At_C (c : Dev nD) (t : Fin cfg0.N) (h7 : t.val % 8 = 7) :
    out8At m c t.val t.isLt = outC m c t h7 (accAt m c (t.val - 1) (Nat.lt_of_le_of_lt (Nat.sub_le _ _) t.isLt)) := dif_pos h7

/-! ## The invariant between points -/

/-- Before point `n`: at the start the scratch holds anything; afterwards what the point before left. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_zero (c : Dev nD) (n : ℕ) (h : n ≤ cfg0.N) (hz : n = 0) :
    PhiS m c n h = iprop(∃ d, owns (c : Thread nD τ) scM fullShare d) := by subst hz; rfl
theorem PhiS_succ (c : Dev nD) (n : ℕ) (hn : n < cfg0.N) :
    PhiS m c (n + 1) hn = owns (c : Thread nD τ) scM fullShare (accAt m c n hn) := rfl
theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The arrays as the region finds them; each input's staging buffer at its block; the result's at `out8At`; the
    invariant `PhiS`. The positions array is read through two windows, each holding half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8At m c t.val t.isLt
    | ⟨_ + 9, h⟩ => absurd h (Nat.not_lt.2 (Nat.le_add_left _ _))
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨_ + 9, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out8At m c t.val t.isLt := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d
theorem before7 (c : Dev nD) (t : Fin cfg0.N) (d) : (dats m 0 c).before 7 t d = iblk m c 7 t :=
  before_in7 m (dats m 0 c) (A_eq m c 7) (after7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0 (c : Dev nD) (t : Fin cfg0.N) :
    (dats m 0 c).leavesExact 0 t = owns (c : Thread nD τ) (ms0 t) fullShare (iblk m c 0 t) := by
  unfold Dat.leavesExact; rw [liveAt0 t, after0]
theorem leaves1 (c : Dev nD) (t : Fin cfg0.N) :
    (dats m 0 c).leavesExact 1 t = owns (c : Thread nD τ) (ms1 t) fullShare (iblk m c 1 t) := by
  unfold Dat.leavesExact; rw [liveAt1 t, after1]
theorem leaves2 (c : Dev nD) (t : Fin cfg0.N) :
    (dats m 0 c).leavesExact 2 t = owns (c : Thread nD τ) (ms2 t) fullShare (iblk m c 2 t) := by
  unfold Dat.leavesExact; rw [liveAt2 t, after2]
theorem leaves3 (c : Dev nD) (t : Fin cfg0.N) :
    (dats m 0 c).leavesExact 3 t = owns (c : Thread nD τ) (ms3 t) fullShare (iblk m c 3 t) := by
  unfold Dat.leavesExact; rw [liveAt3 t, after3]
theorem leaves4 (c : Dev nD) (t : Fin cfg0.N) :
    (dats m 0 c).leavesExact 4 t = owns (c : Thread nD τ) (ms4 t) fullShare (iblk m c 4 t) := by
  unfold Dat.leavesExact; rw [liveAt4 t, after4]
theorem leaves5 (c : Dev nD) (t : Fin cfg0.N) :
    (dats m 0 c).leavesExact 5 t = owns (c : Thread nD τ) (ms5 t) fullShare (iblk m c 5 t) := by
  unfold Dat.leavesExact; rw [liveAt5 t, after5]
theorem leaves6 (c : Dev nD) (t : Fin cfg0.N) :
    (dats m 0 c).leavesExact 6 t = owns (c : Thread nD τ) (ms6 t) fullShare (iblk m c 6 t) := by
  unfold Dat.leavesExact; rw [liveAt6 t, after6]
theorem leaves7 (c : Dev nD) (t : Fin cfg0.N) :
    (dats m 0 c).leavesExact 7 t = owns (c : Thread nD τ) (ms7 t) fullShare (iblk m c 7 t) := by
  unfold Dat.leavesExact; rw [liveAt7 t, after7]

end Cert.KernelIdeal.Frm

end
-- ==== Proof.FrameKI.Body.lean ====
/-
  The body's obligation to the pipeline at every grid point, by the case of the point; and the two ends of the
  invariant (at entry the scratch holds anything; after the last point its named contents are forgotten).
-/
import proofs.«179601_j54778012893568_2_alg».proof.Proof.FrameKI.Acc

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- The body at any point: every input's staging buffer holds its block; the residue of the point modulo 8 says
    which case it is in, and that case's run applies. The invariant hands the body the scratch at what the point
    before left (at anything at the very first point) and takes it back at this point's contents; away from j = 7
    the result's block is handed back untouched, and at j = 7 it is left at the copy of the scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7]
  have hN : t.val < 512 := lt_of_lt_of_eq t.isLt (show cfg0.N = 512 from N_0)
  by_cases h0 : t.val % 8 = 0
  · have h7 : ¬ t.val % 8 = 7 := by omega
    rw [Dat.leavesExact_idle (dats m 0 c) 8 t (idleAt8 t (nC_of t h7)) (noFlush8 t (nC_of t h7))]
    rw [accAt_A m c t h0]
    unfold soutA; (try dsimp only)
    by_cases hz : t.val = 0
    · rw [PhiS_castSucc m c t, PhiS_zero m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA m c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HS]
      · unfold owns; iexists _; isplitr
        swap; · iexact HS
        ipureintro; exact View.read_writes_of_cover _ _ _ _ _ (scoverA m c t h0)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA m c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexists _; iexact HS
      iintro ⟨H0, H1, H2, H3, H4, H5, H6, H7, H8, ⟨%es, HS⟩⟩
      isplitl [HS]
      · unfold owns; iexists _; isplitr
        swap; · iexact HS
        ipureintro; exact View.read_writes_of_cover _ _ _ _ _ (scoverA m c t h0)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := fun e => h0 (by rw [e])
    by_cases h7 : t.val % 8 = 7
    · rw [show (dats m 0 c).leavesExact 8 t = owns (c : Thread nD τ) (ms8 t) fullShare ((dats m 0 c).after 8 t) from by
        unfold Dat.leavesExact; rw [liveAt8 t (hC_of t h7)], after8, out8At_C m c t h7]
      rw [accAt_C m c t h7]
      unfold outC soutC; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runC m c t h7 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, ⟨%e8, H8⟩, ⟨%es, HS⟩⟩
      isplitl [HS]
      · unfold owns; iexists _; isplitr
        swap; · iexact HS
        ipureintro; exact View.read_writes_of_cover _ _ _ _ _ (scoverC m c t h7 _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (ocoverC m c t h7 _)
    · rw [Dat.leavesExact_idle (dats m 0 c) 8 t (idleAt8 t (nC_of t h7)) (noFlush8 t (nC_of t h7))]
      rw [accAt_B m c t h0 h7]
      unfold soutB; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runB m c t h0 h7 _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HS]
      · unfold owns; iexists _; isplitr
        swap; · iexact HS
        ipureintro; exact View.read_writes_of_cover _ _ _ _ _ (scoverB m c t h0 h7 _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- At entry the region's scoped buffers other than the staging ones — the scratch alone — at some contents are
    the invariant before the first point. -/
theorem hin (c : Dev nD) : iprop((BI.emp : sProp 𝕄) ∗ Pipeline.scopedRest spec0 c) ⊢ (dats m 0 c).Φ 0 := by
  rw [show (dats m 0 c).Φ 0 = PhiS m c 0 (Nat.zero_le _) from rfl, PhiS_zero m c 0 _ rfl, scopedRest0_eq]
  simp only [scM, owns_whole]
  iintro ⟨-, H⟩; iexact H

/-- After the last point the scratch's named contents are forgotten. -/
theorem hout (c : Dev nD) : (dats m 0 c).Φ (Fin.last cfg0.N) ⊢ iprop((BI.emp : sProp 𝕄) ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 512 := N_0; omega), scopedRest0_eq]
  iintro HS
  isplitr; · iempintro
  iexists _
  iapply (show owns (c : Thread nD τ) scM fullShare _ ⊢ _ from by simp only [scM, owns_whole]; exact Idealize.SL.BI.Entails.refl _)
  iexact HS

end Cert.KernelIdeal.Frm

end
-- ==== Proof.FrameKI.Main.lean ====
/-
  The launch. The positions array is handed to the region once and read through two windows, so at entry its
  full share is cut in two halves, one per window; every other array is held whole by its one window. After the
  last point every window's array holds what the pipeline's write-backs made of it: the inputs what they held, the
  result the blocks written at the points with j = 7.
-/
import proofs.«179601_j54778012893568_2_alg».proof.Proof.FrameKI.Body
import Idealize.ShloMosaic.Lib.Pipeline.Launch
import Idealize.ShloMosaic.Lib.Pipeline.Kit

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A window's array, whole, at the share the proof data names, is its buffer at that share. -/
theorem arr_eq (c : Dev nD) (w : Fin 9) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := by
  rw [(arr_whole0 w).set_eq_univ]; rfl

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl
theorem share8 (c : Dev nD) : (dats m 0 c).share 8 = fullShare := rfl

/-- The buffers behind the windows' arrays, each whole at the full share, are the windows' arrays at the shares
    the proof data names: the positions array's share is halved between its two windows. -/
theorem hsplit (c : Dev nD) : (Pipeline.arrBufs spec0 c (V m c) : sProp 𝕄) ⊢ (dats m 0 c).arrays ((dats m 0 c).arrAt · 0) := by
  have e : (Pipeline.arrBufs spec0 c (V m c) : sProp 𝕄)
      = iprop((((c.tc : Thread nD τ).loc main_arg0) ↦{fullShare} V m c main_arg0) ∗ (((c.tc : Thread nD τ).loc main_arg1) ↦{fullShare} V m c main_arg1) ∗ (((c.tc : Thread nD τ).loc main_arg2) ↦{fullShare} V m c main_arg2) ∗ (((c.tc : Thread nD τ).loc main_arg3) ↦{fullShare} V m c main_arg3) ∗ (((c.tc : Thread nD τ).loc main_arg4) ↦{fullShare} V m c main_arg4) ∗ (((c.tc : Thread nD τ).loc main_arg5) ↦{fullShare} V m c main_arg5) ∗ (((c.tc : Thread nD τ).loc main_arg6) ↦{fullShare} V m c main_arg6) ∗ (((c.tc : Thread nD τ).loc main_v0) ↦{fullShare} V m c main_v0)) := by
    unfold Pipeline.arrBufs
    exact bigSep_eq_bigSepL_of_eq [main_arg0, main_arg1, main_arg2, main_arg3, main_arg4, main_arg5, main_arg6, main_v0] (by decide) (by decide) _
  rw [e]
  unfold Dat.arrays
  rw [bigSep_W0]
  rw [arr_eq m c 0, arr_eq m c 1, arr_eq m c 2, arr_eq m c 3, arr_eq m c 4, arr_eq m c 5, arr_eq m c 6, arr_eq m c 7, arr_eq m c 8]
  rw [share0, share1, share2, share3, share4, share5, share6, share7, share8]
  iintro ⟨H0, H1, H2, H3, H4, H5, H6, H7⟩
  ihave Hs := (pointsTo_share (PosShare.mem_left_op_right fullShare)).1 $$ H0
  icases Hs with ⟨Ha, Hb⟩
  isplitl [Ha]; · iexact Ha
  isplitl [Hb]; · iexact Hb
  isplitl [H1]; · iexact H1
  isplitl [H2]; · iexact H2
  isplitl [H3]; · iexact H3
  isplitl [H4]; · iexact H4
  isplitl [H5]; · iexact H5
  isplitl [H6]; · iexact H6
  iexact H7

set_option backward.isDefEq.respectTransparency.types false in
/-- From any memory with zero counters every weakly fair execution of the program terminates without a fault, and
    in every final state each window's array holds what the write-backs made of its entry contents. -/
theorem run_main : θ_run defs (onTc (τ := τ) (main (F := F))) ⟨m, fun _ => 0, ρ⟩
    (fun r => ∀ c : Dev nD, ∀ w : Fin 9, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl) (u₀ := _) (hu₀ := Idealize.SL.BI.Entails.refl _)
    (V := V m) (hmain := hmain m Variants.none) (hsplit := hsplit m)
    (X := fun _ => BI.emp) (Y := fun _ => BI.emp) (Z := fun c => Pipeline.unscopedRest spec0 c (V m c))
    (hX := fun c => by iintro H; isplitr; · iempintro
                       iexact H)
    (hin := hin m) (hout := hout m)
    (QY := fun _ _ => True)
    (hY := fun c s' => by
      iintro ⟨-, -, HSI⟩; imodintro
      isplitr; · ipureintro; trivial
      iexact HSI)
    (hQ := fun s h c w => (h c).1 w)

/-- The frame: the program runs to the end without a fault and its seven argument arrays end as they began (an
    input window's array is never written back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c 0).trans (((dats m 0 c).arrAt_in 0 rfl _).trans (A_eq m c 0)),
     (h c 2).trans (((dats m 0 c).arrAt_in 2 rfl _).trans (A_eq m c 2)),
     (h c 3).trans (((dats m 0 c).arrAt_in 3 rfl _).trans (A_eq m c 3)),
     (h c 4).trans (((dats m 0 c).arrAt_in 4 rfl _).trans (A_eq m c 4)),
     (h c 5).trans (((dats m 0 c).arrAt_in 5 rfl _).trans (A_eq m c 5)),
     (h c 6).trans (((dats m 0 c).arrAt_in 6 rfl _).trans (A_eq m c 6)),
     (h c 7).trans (((dats m 0 c).arrAt_in 7 rfl _).trans (A_eq m c 7))⟩) (run_main m ρ)

end Cert.KernelIdeal.Frm

end
-- ==== Proof.KIAcc.lean ====
/-
  The scratch after a grid point, in closed form.

  Write P(t) for the 32 × 3 block of partial sums the body computes at point t (the sum, over the 128 partners of
  the point's partner block, of the half-differences of messages). A point with j = 0 leaves P(t) in the scratch
  and every other point adds P(t) to what it found, so after the point t = 8·ρ + j of row ρ the scratch holds
  P(8ρ) + P(8ρ + 1) + … + P(8ρ + j): by induction along the row.
-/
import proofs.«179601_j54778012893568_2_alg».proof.Proof.FrameKI.Acc
import Idealize.ShloMosaic.PureOps.Ideal

noncomputable section

open scoped BigOperators

namespace Cert.KernelIdeal.Frm

open Idealize.ShloMosaic Idealize.ShloMosaic.TcCoe Idealize.SL.Sem
open Cert.KernelIdeal Cert.KernelIdeal.Gen

variable (m : (ℓ : Loc nD τ sig) → Buf (Elt Ideal) ℓ)

/-- The block of partial sums the body computes at point `t`, from the point's input blocks. -/
def part (c : Dev nD) (t : Fin cfg0.N) : S32x3.Idx → EReal :=
  Gen.k0_pay12 (F := Ideal) (Gen.k0_pay6 (iblk m c 0 t) (iblk m c 1 t)) (Gen.k0_pay7 (iblk m c 2 t)) (Gen.k0_pay8 (iblk m c 4 t))
    (Gen.k0_pay9 (iblk m c 6 t)) (iblk m c 3 t) (iblk m c 5 t) (iblk m c 7 t)
    (Gen.k0_pay10 (iblk m c 0 t) (iblk m c 1 t) (iblk m c 2 t)) (Gen.k0_pay11 (iblk m c 3 t))

/-- The same at a point number, zero past the grid. -/
def partN (c : Dev nD) (n : ℕ) : S32x3.Idx → EReal := fun y => if h : n < cfg0.N then part m c ⟨n, h⟩ y else 0

theorem partN_of_lt (c : Dev nD) (n : ℕ) (h : n < cfg0.N) : partN m c n = part m c ⟨n, h⟩ := by
  funext y; exact dif_pos h

/-- Given what each case leaves in the scratch — the block's partial sums at j = 0, the scratch as found plus the
    block's partial sums elsewhere —, the scratch after point `n` is the sum of the partial sums of its row's
    points up to `n`. -/
theorem accAt_closed (c : Dev nD)
    (hA : ∀ (t : Fin cfg0.N) (h0 : t.val % 8 = 0), soutA m c t h0 = part m c t)
    (hB : ∀ (t : Fin cfg0.N) (h0 : ¬ t.val % 8 = 0) (h7 : ¬ t.val % 8 = 7) (xs : Vec Ideal S32x3 .f32),
      soutB m c t h0 h7 xs = fun y => xs y + part m c t y)
    (hC : ∀ (t : Fin cfg0.N) (h7 : t.val % 8 = 7) (xs : Vec Ideal S32x3 .f32),
      soutC m c t h7 xs = fun y => xs y + part m c t y) :
    ∀ (n : ℕ) (hn : n < cfg0.N), accAt m c n hn = fun y => ∑ k ∈ Finset.range (n % 8 + 1), partN m c (n - n % 8 + k) y := by
  intro n
  induction n with
  | zero =>
    intro hn
    rw [show accAt m c 0 hn = soutA m c ⟨0, hn⟩ (Nat.zero_mod 8) from rfl, hA]
    funext y
    rw [show (0 % 8 + 1) = 1 from rfl, Finset.sum_range_one, show (0 - 0 % 8 + 0) = 0 from rfl, partN_of_lt m c 0 hn]
  | succ n ih =>
    intro hn
    have hn' : n < cfg0.N := Nat.lt_of_succ_lt hn
    by_cases h0 : (n + 1) % 8 = 0
    · rw [accAt_A m c ⟨n + 1, hn⟩ h0, hA]
      funext y
      rw [h0, show (0 + 1) = 1 from rfl, Finset.sum_range_one, show (n + 1 - 0 + 0) = n + 1 from rfl, partN_of_lt m c (n + 1) hn]
    · have hmod : (n + 1) % 8 = n % 8 + 1 := by omega
      have hbase : n + 1 - (n % 8 + 1) = n - n % 8 := by omega
      have hlast : n - n % 8 + (n % 8 + 1) = n + 1 := by have := Nat.mod_le n 8; omega
      have step : (fun y => accAt m c n hn' y + part m c ⟨n + 1, hn⟩ y)
          = fun y => ∑ k ∈ Finset.range ((n + 1) % 8 + 1), partN m c (n + 1 - (n + 1) % 8 + k) y := by
        funext y
        rw [hmod, hbase, Finset.sum_range_succ, hlast, partN_of_lt m c (n + 1) hn, congrFun (ih hn') y]
      by_cases h7 : (n + 1) % 8 = 7
      · rw [accAt_C m c ⟨n + 1, hn⟩ h7, hC]
        exact step
      · rw [accAt_B m c ⟨n + 1, hn⟩ h0 h7, hB]
        exact step

end Cert.KernelIdeal.Frm

end
-- ==== Proof.KIPieces.lean ====
import proofs.«179601_j54778012893568_2_alg».proof.Proof.FrameKI.Acc
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## What each case's stores leave, as the named payloads of the body

The body loads the eight input blocks whole (each staging buffer at zero offsets is its block), computes the block's
partial sums, and stores them whole. So the piece list of each case is one whole-block store (two at j = 7: the
scratch, then the result's block), and the contents it leaves are the store's payload over the input blocks. -/

/-- Zero offsets at rank 1, 2 and 3. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- At j = 0 the scratch is left holding the block pair's partial sums. -/
theorem soutA_eq (c : Dev nD) (t : Fin cfg0.N) (h0 : t.val % 8 = 0) :
    soutA m c t h0 = Gen.k0_pay13 (Gen.k0_pay6 (iblk m c 0 t) (iblk m c 1 t)) (Gen.k0_pay7 (iblk m c 2 t)) (Gen.k0_pay8 (iblk m c 4 t)) (Gen.k0_pay9 (iblk m c 6 t)) (iblk m c 3 t) (iblk m c 5 t) (iblk m c 7 t) (Gen.k0_pay10 (iblk m c 0 t) (iblk m c 1 t) (iblk m c 2 t)) (Gen.k0_pay11 (iblk m c 3 t)) := by
  unfold soutA
  rw [View.read_writes_eq_canon _ _ _ (scoverA m c t h0)]
  unfold runA kernelRunA
  dsimp only
  sl_unfold_words
  rw [View.canon_unit_zero (S := S32x3) hz2]
  simp only [View.readAt_eq_ld, (hs0 t).read_unread, (hs1 t).read_unread, (hs2 t).read_unread, (hs3 t).read_unread,
    (hs4 t).read_unread, (hs5 t).read_unread, (hs6 t).read_unread, (hs7 t).read_unread,
    View.ld_unit_zero (S := S1x32x3) hz3, View.ld_unit_zero (S := S1x128x3) hz3, View.ld_unit_zero (S := S7x64) hz2,
    View.ld_unit_zero (S := S64x64) hz2, View.ld_unit_zero (S := S64x3) hz2, View.ld_unit_zero (S := S64) hz1,
    View.ld_unit_zero (S := S3) hz1]

/-- At 0 < j < 7 the scratch is left holding what it held plus the block pair's partial sums. -/
theorem soutB_eq (c : Dev nD) (t : Fin cfg0.N) (h0 : ¬ t.val % 8 = 0) (h7 : ¬ t.val % 8 = 7) (xs : Vec F S32x3 .f32) :
    soutB m c t h0 h7 xs = Gen.k0_pay1 (Gen.k0_pay12 (Gen.k0_pay6 (iblk m c 0 t) (iblk m c 1 t)) (Gen.k0_pay7 (iblk m c 2 t)) (Gen.k0_pay8 (iblk m c 4 t)) (Gen.k0_pay9 (iblk m c 6 t)) (iblk m c 3 t) (iblk m c 5 t) (iblk m c 7 t) (Gen.k0_pay10 (iblk m c 0 t) (iblk m c 1 t) (iblk m c 2 t)) (Gen.k0_pay11 (iblk m c 3 t))) xs := by
  unfold soutB
  rw [View.read_writes_eq_canon _ _ _ (scoverB m c t h0 h7 xs)]
  unfold runB kernelRunB
  dsimp only
  sl_unfold_words
  rw [View.canon_unit_zero (S := S32x3) hz2]
  simp only [View.readAt_eq_ld, (hs0 t).read_unread, (hs1 t).read_unread, (hs2 t).read_unread, (hs3 t).read_unread,
    (hs4 t).read_unread, (hs5 t).read_unread, (hs6 t).read_unread, (hs7 t).read_unread,
    View.ld_unit_zero (S := S1x32x3) hz3, View.ld_unit_zero (S := S1x128x3) hz3, View.ld_unit_zero (S := S7x64) hz2,
    View.ld_unit_zero (S := S64x64) hz2, View.ld_unit_zero (S := S64x3) hz2, View.ld_unit_zero (S := S64) hz1,
    View.ld_unit_zero (S := S3) hz1, (Memref.isWhole_whole cc0_scratch0 : (scM).IsWhole).read_unread, View.ld_unit_zero (S := S32x3) hz2]

/-- At j = 7 the scratch is left holding the same sum, -/
theorem soutC_eq (c : Dev nD) (t : Fin cfg0.N) (h7 : t.val % 8 = 7) (xs : Vec F S32x3 .f32) :
    soutC m c t h7 xs = Gen.k0_pay1 (Gen.k0_pay12 (Gen.k0_pay6 (iblk m c 0 t) (iblk m c 1 t)) (Gen.k0_pay7 (iblk m c 2 t)) (Gen.k0_pay8 (iblk m c 4 t)) (Gen.k0_pay9 (iblk m c 6 t)) (iblk m c 3 t) (iblk m c 5 t) (iblk m c 7 t) (Gen.k0_pay10 (iblk m c 0 t) (iblk m c 1 t) (iblk m c 2 t)) (Gen.k0_pay11 (iblk m c 3 t))) xs := by
  unfold soutC
  rw [View.read_writes_eq_canon _ _ _ (scoverC m c t h7 xs)]
  unfold runC kernelRunC
  dsimp only
  sl_unfold_words
  rw [View.canon_unit_zero (S := S32x3) hz2]
  simp only [View.readAt_eq_ld, (hs0 t).read_unread, (hs1 t).read_unread, (hs2 t).read_unread, (hs3 t).read_unread,
    (hs4 t).read_unread, (hs5 t).read_unread, (hs6 t).read_unread, (hs7 t).read_unread,
    View.ld_unit_zero (S := S1x32x3) hz3, View.ld_unit_zero (S := S1x128x3) hz3, View.ld_unit_zero (S := S7x64) hz2,
    View.ld_unit_zero (S := S64x64) hz2, View.ld_unit_zero (S := S64x3) hz2, View.ld_unit_zero (S := S64) hz1,
    View.ld_unit_zero (S := S3) hz1, (Memref.isWhole_whole cc0_scratch0 : (scM).IsWhole).read_unread, View.ld_unit_zero (S := S32x3) hz2]

/-- and the result's block a copy of it: the copy reads the scratch back after its one covering store. -/
theorem outC_eq (c : Dev nD) (t : Fin cfg0.N) (h7 : t.val % 8 = 7) (xs : Vec F S32x3 .f32) :
    outC m c t h7 xs = Gen.k0_pay2 (Gen.k0_pay1 (Gen.k0_pay12 (Gen.k0_pay6 (iblk m c 0 t) (iblk m c 1 t)) (Gen.k0_pay7 (iblk m c 2 t)) (Gen.k0_pay8 (iblk m c 4 t)) (Gen.k0_pay9 (iblk m c 6 t)) (iblk m c 3 t) (iblk m c 5 t) (iblk m c 7 t) (Gen.k0_pay10 (iblk m c 0 t) (iblk m c 1 t) (iblk m c 2 t)) (Gen.k0_pay11 (iblk m c 3 t))) xs) := by
  unfold outC
  rw [View.read_writes_eq_canon _ _ _ (ocoverC m c t h7 xs)]
  unfold runC kernelRunC
  dsimp only
  sl_unfold_words
  rw [View.canon_unit_zero (S := S1x32x3) hz3, View.readCov_unit_zero (S := S32x3) _ hz2]
  simp only [View.readAt_eq_ld, (hs0 t).read_unread, (hs1 t).read_unread, (hs2 t).read_unread, (hs3 t).read_unread,
    (hs4 t).read_unread, (hs5 t).read_unread, (hs6 t).read_unread, (hs7 t).read_unread,
    View.ld_unit_zero (S := S1x32x3) hz3, View.ld_unit_zero (S := S1x128x3) hz3, View.ld_unit_zero (S := S7x64) hz2,
    View.ld_unit_zero (S := S64x64) hz2, View.ld_unit_zero (S := S64x3) hz2, View.ld_unit_zero (S := S64) hz1,
    View.ld_unit_zero (S := S3) hz1, (Memref.isWhole_whole cc0_scratch0 : (scM).IsWhole).read_unread, View.ld_unit_zero (S := S32x3) hz2]

end Cert.KernelIdeal.Frm

end
-- ==== Proof.Spec.lean ====
/-
  The mathematics both programs compute, as functions on the extended reals with no program in sight.

  A point cloud `pos b n : ℝ³` (two batches of 1024 points) and a three-layer perceptron 7 → 64 → 64 → 3 with
  ReLU after the first two layers. For an ordered pair of points (x, y) the EDGE FEATURES are the seven numbers
  (δ, δ / ρ, d) with δ = y − x, d = |δ|² + ε and ρ = d^{3/2}; the edge's message is the perceptron of its features,
  and a point's result is half the sum, over all partners y, of (message of (x, y) − message of (y, x)).

  The two programs differ in three ways, all of which are identities of real numbers once every input is finite:
  * ρ is `d · √d` on one side and the real power `d ^ (3/2)` on the other (equal for d > 0, and d ≥ ε > 0);
  * the reversed edge's features are obtained by NEGATING δ and δ/ρ on one side and by recomputing them from
    (y, x) on the other (x − y = −(y − x), and d is even in δ);
  * the partner y = x contributes an explicit 0 on one side, and on the other the difference of two equal
    finite messages (δ = 0 makes both feature vectors (0, 0, ε)).
  The literals ε, ½, 0 and 3/2 are kept as the binary words the programs print.
-/
import Idealize.ShloMosaic.PureOps.Ideal
import Idealize.ShloMosaic.Lib.ValueIdx

noncomputable section

open scoped BigOperators

namespace Cert.PairNet

open Idealize.ShloMosaic

/-- The softening constant ε added to every squared distance: the single-precision word both programs print. -/
abbrev epsW : EReal := Ideal.ofBits .f32 0x38D1B717#32
/-- The factor ½ of the antisymmetrisation. -/
abbrev halfW : EReal := Ideal.ofBits .f32 0x3F000000#32
/-- The word of 0. -/
abbrev zeroW : EReal := Ideal.ofBits .f32 0x00000000#32
/-- The exponent 3/2. -/
abbrev threeHalvesW : EReal := Ideal.ofBits .f32 0x3FC00000#32

/-- The softened squared distance of two points: |y − x|² + ε. -/
def dsq (x y : Fin 3 → EReal) : EReal := (∑ k : Fin 3, (y k - x k) * (y k - x k)) + epsW

/-- Edge features with ρ = d · √d: (δ, δ/ρ, d). -/
def featMul (x y : Fin 3 → EReal) : Fin 7 → EReal := fun k =>
  if h : k.val < 3 then y ⟨k.val, h⟩ - x ⟨k.val, h⟩
  else if h' : k.val < 6 then
    Ideal.div (y ⟨k.val - 3, by omega⟩ - x ⟨k.val - 3, by omega⟩) (dsq x y * Ideal.sqrt (dsq x y))
  else dsq x y

/-- The reversed edge's features obtained by negation: (0 − δ, 0 − δ/ρ, d), ρ = d · √d. -/
def featMulNeg (x y : Fin 3 → EReal) : Fin 7 → EReal := fun k =>
  if h : k.val < 3 then zeroW - (y ⟨k.val, h⟩ - x ⟨k.val, h⟩)
  else if h' : k.val < 6 then
    zeroW - Ideal.div (y ⟨k.val - 3, by omega⟩ - x ⟨k.val - 3, by omega⟩) (dsq x y * Ideal.sqrt (dsq x y))
  else dsq x y

/-- Edge features with ρ = d ^ (3/2) as a real power: (δ, δ/ρ, d). -/
def featPow (x y : Fin 3 → EReal) : Fin 7 → EReal := fun k =>
  if h : k.val < 3 then y ⟨k.val, h⟩ - x ⟨k.val, h⟩
  else if h' : k.val < 6 then
    Ideal.div (y ⟨k.val - 3, by omega⟩ - x ⟨k.val - 3, by omega⟩) (Ideal.pow (dsq x y) threeHalvesW)
  else dsq x y

/-- The perceptron's parameters. -/
structure Params where
  W1 : Fin 7 → Fin 64 → EReal
  b1 : Fin 64 → EReal
  W2 : Fin 64 → Fin 64 → EReal
  b2 : Fin 64 → EReal
  W3 : Fin 64 → Fin 3 → EReal
  b3 : Fin 3 → EReal

/-- First hidden layer: relu (e · W1 + b1). -/
def hid1 (P : Params) (e : Fin 7 → EReal) : Fin 64 → EReal := fun h => max ((∑ k : Fin 7, e k * P.W1 k h) + P.b1 h) zeroW
/-- Second hidden layer: relu (h₁ · W2 + b2). -/
def hid2 (P : Params) (e : Fin 7 → EReal) : Fin 64 → EReal := fun g => max ((∑ h : Fin 64, hid1 P e h * P.W2 h g) + P.b2 g) zeroW
/-- The message of an edge: h₂ · W3 + b3. -/
def mlp (P : Params) (e : Fin 7 → EReal) : Fin 3 → EReal := fun c => (∑ g : Fin 64, hid2 P e g * P.W3 g c) + P.b3 c

/-- One partner's contribution on the side that negates: ½ · (message(δ-features) − message(negated features)). -/
def termMul (P : Params) (x y : Fin 3 → EReal) (c : Fin 3) : EReal :=
  halfW * (mlp P (featMul x y) c - mlp P (featMulNeg x y) c)

/-- The result as a sum over all 1024 partners, negation form. -/
def resultMul (P : Params) (pos : Fin 2 → Fin 1024 → Fin 3 → EReal) (b : Fin 2) (n : Fin 1024) (c : Fin 3) : EReal :=
  ∑ j : Fin 1024, termMul P (pos b n) (pos b j) c

/-- One partner's contribution on the side that recomputes the reversed edge and masks the diagonal. -/
def termPow (P : Params) (pos : Fin 2 → Fin 1024 → Fin 3 → EReal) (b : Fin 2) (n j : Fin 1024) (c : Fin 3) : EReal :=
  if n = j then zeroW
  else halfW * (mlp P (featPow (pos b n) (pos b j)) c - mlp P (featPow (pos b j) (pos b n)) c)

/-- The result as a sum over all 1024 partners, recomputing form. -/
def resultPow (P : Params) (pos : Fin 2 → Fin 1024 → Fin 3 → EReal) (b : Fin 2) (n : Fin 1024) (c : Fin 3) : EReal :=
  ∑ j : Fin 1024, termPow P pos b n j c

/-! ## The programs' argument arrays as the functions above -/

open Idealize.ShloMosaic.ValueIdx

/-- The positions array f32[2, 1024, 3] by coordinates. -/
def posOf (a : (⟨3, ![2, 1024, 3]⟩ : Shape).Idx → EReal) : Fin 2 → Fin 1024 → Fin 3 → EReal := fun b n c => a (ix3 b n c)

/-- The six parameter arrays by coordinates. -/
def paramsOf (w1 : (⟨2, ![7, 64]⟩ : Shape).Idx → EReal) (b1 : (⟨1, ![64]⟩ : Shape).Idx → EReal)
    (w2 : (⟨2, ![64, 64]⟩ : Shape).Idx → EReal) (b2 : (⟨1, ![64]⟩ : Shape).Idx → EReal)
    (w3 : (⟨2, ![64, 3]⟩ : Shape).Idx → EReal) (b3 : (⟨1, ![3]⟩ : Shape).Idx → EReal) : Params where
  W1 := fun k h => w1 (ix2 k h)
  b1 := fun h => b1 (ix1 h)
  W2 := fun h g => w2 (ix2 h g)
  b2 := fun g => b2 (ix1 g)
  W3 := fun g c => w3 (ix2 g c)
  b3 := fun c => b3 (ix1 c)

/-- Every entry of the positions is a real number. -/
def PosFinite (pos : Fin 2 → Fin 1024 → Fin 3 → EReal) : Prop := ∀ b n c, ∃ r : ℝ, pos b n c = (r : EReal)

/-- Every parameter is a real number. -/
structure Params.Finite (P : Params) : Prop where
  W1 : ∀ k h, ∃ r : ℝ, P.W1 k h = (r : EReal)
  b1 : ∀ h, ∃ r : ℝ, P.b1 h = (r : EReal)
  W2 : ∀ h g, ∃ r : ℝ, P.W2 h g = (r : EReal)
  b2 : ∀ g, ∃ r : ℝ, P.b2 g = (r : EReal)
  W3 : ∀ g c, ∃ r : ℝ, P.W3 g c = (r : EReal)
  b3 : ∀ c, ∃ r : ℝ, P.b3 c = (r : EReal)

end Cert.PairNet

end
-- ==== Proof.PayloadSpecLayout.lean ====
/-
  Layout operations of the pairwise-network kernel read at an index given by coordinates.

  The body works on a block of 32 query points against 128 partner points. Pairs (r, q) are laid out as the rows
  r · 128 + q of 4096-row matrices; the lemmas below say what each reshape, broadcast and concatenation of the body
  reads at an index written by its coordinates, over any element type.
-/
import proofs.«179601_j54778012893568_2_alg».proof.Proof.Gen.KernelIdeal.Skeleton
import proofs.«179601_j54778012893568_2_alg».proof.Proof.Spec
import Idealize.ShloMosaic.PureOps.Ideal.Laws
import Idealize.ShloMosaic.Lib.ValueLayout

noncomputable section

open scoped BigOperators

namespace Cert.KernelIdeal.PayValue

open Idealize.ShloMosaic Idealize.ShloMosaic.ValueIdx

variable {α : Type}

/-- The row of the 4096-row matrices that holds the pair (r, q): r · 128 + q. -/
def row (r : Fin 32) (q : Fin 128) : Fin 4096 := ⟨r.val * 128 + q.val, by have := r.isLt; have := q.isLt; omega⟩

theorem row_val (r : Fin 32) (q : Fin 128) : (row r q).val = r.val * 128 + q.val := rfl

/-- A [32, 128, n] array viewed as [4096, n] reads, at (r · 128 + q, k), the array at (r, q, k). -/
theorem cast_pairs_rows {n : Nat} (x : (⟨3, ![32, 128, n]⟩ : Shape).Idx → α)
    (h : (⟨3, ![32, 128, n]⟩ : Shape).ShapeCasts ⟨2, ![4096, n]⟩) (r : Fin 32) (q : Fin 128) (k : Fin n) :
    shapeCast ⟨2, ![4096, n]⟩ x h (ix2 (row r q) k) = x (ix3 r q k) :=
  shapeCast_apply x h _ _ (by
    rw [Shape.rowMajor_val_three, Shape.rowMajor_val_two]
    rfl)

/-- A [4096, n] array viewed as [32, 128, n] reads, at (r, q, k), the array at (r · 128 + q, k). -/
theorem cast_rows_pairs {n : Nat} (x : (⟨2, ![4096, n]⟩ : Shape).Idx → α)
    (h : (⟨2, ![4096, n]⟩ : Shape).ShapeCasts ⟨3, ![32, 128, n]⟩) (r : Fin 32) (q : Fin 128) (k : Fin n) :
    shapeCast ⟨3, ![32, 128, n]⟩ x h (ix3 r q k) = x (ix2 (row r q) k) :=
  shapeCast_apply x h _ _ (by
    rw [Shape.rowMajor_val_three, Shape.rowMajor_val_two]
    rfl)

/-- A [a, b] array viewed as [a, 1, b] reads, at (i, u, j), the array at (i, j). -/
theorem cast_ab_a1b {a b : Nat} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A [a, b] array viewed as [a, b, 1] reads, at (i, j, u), the array at (i, j). -/
theorem cast_ab_ab1 {a b : Nat} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- One [1, b, c] slab broadcast over a leading axis reads, at (p, i, j), the slab at (0, i, j). -/
theorem bcast_1bc_abc {a b c : Nat} (hb : b ≠ 1) (hc : c ≠ 1) (x : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ x h (ix3 p i j) = x (ix3 (0 : Fin 1) i j) := by
  refine broadcastTo_apply x h (ix3 p i j) (ix3 (0 : Fin 1) i j) fun ax => ?_
  match ax with
  | ⟨0, _⟩ => rfl
  | ⟨1, _⟩ =>
    show i.val = if b = 1 then 0 else i.val
    rw [if_neg hb]
  | ⟨2, _⟩ =>
    show j.val = if c = 1 then 0 else j.val
    rw [if_neg hc]

/-- An [a, 1, c] array broadcast along its middle axis reads, at (p, i, j), the array at (p, 0, j). -/
theorem bcast_a1c_abc {a b c : Nat} (ha : a ≠ 1) (hc : c ≠ 1) (x : (⟨3, ![a, 1, c]⟩ : Shape).Idx → α)
    (h : (⟨3, ![a, 1, c]⟩ : Shape).Broadcasts ⟨3, ![a, b, c]⟩) (p : Fin a) (i : Fin b) (j : Fin c) :
    broadcastTo ⟨3, ![a, b, c]⟩ x h (ix3 p i j) = x (ix3 p (0 : Fin 1) j) := by
  refine broadcastTo_apply x h (ix3 p i j) (ix3 p (0 : Fin 1) j) fun ax => ?_
  match ax with
  | ⟨0, _⟩ =>
    show p.val = if a = 1 then 0 else p.val
    rw [if_neg ha]
  | ⟨1, _⟩ => rfl
  | ⟨2, _⟩ =>
    show j.val = if c = 1 then 0 else j.val
    rw [if_neg hc]

/-- An [a, b, 1] array broadcast along its last axis reads, at (p, i, j), the array at (p, i, 0). -/
theorem bcast_ab1_abc {a b c : Nat} (ha : a ≠ 1) (hb : b ≠ 1) (x : (⟨3, ![a, b, 1]⟩ : Shape).Idx → α)
    (h : (⟨3, ![a, b, 1]⟩ : Shape).Broadcasts ⟨3, ![a, b, c]⟩) (p : Fin a) (i : Fin b) (j : Fin c) :
    broadcastTo ⟨3, ![a, b, c]⟩ x h (ix3 p i j) = x (ix3 p i (0 : Fin 1)) := by
  refine broadcastTo_apply x h (ix3 p i j) (ix3 p i (0 : Fin 1)) fun ax => ?_
  match ax with
  | ⟨0, _⟩ =>
    show p.val = if a = 1 then 0 else p.val
    rw [if_neg ha]
  | ⟨1, _⟩ =>
    show i.val = if b = 1 then 0 else i.val
    rw [if_neg hb]
  | ⟨2, _⟩ => rfl

/-- A bias vector [n] viewed as one row [1, n] and broadcast over the rows of [m, n] reads, at (p, c), the vector at c. -/
theorem bias_row {m n : Nat} (x : (⟨1, ![n]⟩ : Shape).Idx → α) (h1 : (⟨1, ![n]⟩ : Shape).ShapeCasts ⟨2, ![1, n]⟩)
    (h2 : (⟨2, ![1, n]⟩ : Shape).Broadcasts ⟨2, ![m, n]⟩) (p : Fin m) (c : Fin n) :
    broadcastTo ⟨2, ![m, n]⟩ (shapeCast ⟨2, ![1, n]⟩ x h1) h2 (ix2 p c) = x (ix1 c) :=
  (broadcastTo_1b_ab_apply _ h2 p c).trans (shapeCast_a_1a_apply x h1 0 c)

end Cert.KernelIdeal.PayValue

end
-- ==== Proof.PayloadSpecMatmul.lean ====
/-
  The three matrix products of the perceptron, read at an entry: over the extended reals a product into a zero
  accumulator is the plain sum over the contraction index, with no rounding and no order.
-/
import proofs.«179601_j54778012893568_2_alg».proof.Proof.Gen.KernelIdeal.Skeleton
import proofs.«179601_j54778012893568_2_alg».proof.Proof.Spec
import Idealize.ShloMosaic.PureOps.Ideal.Laws
import Idealize.ShloMosaic.Lib.ValueLayout
import proofs.«179601_j54778012893568_2_alg».proof.Proof.PayloadSpecLayout

noncomputable section

open scoped BigOperators

namespace Cert.KernelIdeal.PayValue

open Idealize.ShloMosaic Idealize.ShloMosaic.ValueIdx

/-- The product 4096×7 by 7×64: the left operand's row is the output's row. -/
theorem mm1_lhs0 (j : S4096x64.Idx) (q : dot_S4096x7_S7x64_S4096x64_1_0_0_1_n_n.contr.Idx) : (dot_S4096x7_S7x64_S4096x64_1_0_0_1_n_n.lhsIdx j q 0).val = (j 0).val := by
  unfold DotDims.lhsIdx
  rw [dif_neg (show ¬(0 : Fin S4096x7.rank) ∈ dot_S4096x7_S7x64_S4096x64_1_0_0_1_n_n.lhsBatch by decide),
    dif_pos (show (0 : Fin S4096x7.rank) ∈ dot_S4096x7_S7x64_S4096x64_1_0_0_1_n_n.lhsNonContracting by decide)]
  rfl

/-- The right operand's column is the output's column. -/
theorem mm1_rhs1 (j : S4096x64.Idx) (q : dot_S4096x7_S7x64_S4096x64_1_0_0_1_n_n.contr.Idx) : (dot_S4096x7_S7x64_S4096x64_1_0_0_1_n_n.rhsIdx j q 1).val = (j 1).val := by
  unfold DotDims.rhsIdx
  rw [dif_neg (show ¬(1 : Fin S7x64.rank) ∈ dot_S4096x7_S7x64_S4096x64_1_0_0_1_n_n.rhsBatch by decide),
    dif_pos (show (1 : Fin S7x64.rank) ∈ dot_S4096x7_S7x64_S4096x64_1_0_0_1_n_n.rhsNonContracting by decide)]
  rfl

/-- Left operand index at output (p, c) and contraction position k: (p, k). -/
theorem mm1_lhs (p : Fin 4096) (c : Fin 64) (k : Fin 7) :
    dot_S4096x7_S7x64_S4096x64_1_0_0_1_n_n.lhsIdx (ix2 p c) ((contrEquiv1 dot_S4096x7_S7x64_S4096x64_1_0_0_1_n_n 7 rfl rfl).symm k) = ix2 p k := by
  have hk := contrEquiv1_symm_val dot_S4096x7_S7x64_S4096x64_1_0_0_1_n_n 7 rfl rfl k
  exact funext fun a => Fin.ext (by
    match a with
    | ⟨0, _⟩ => exact mm1_lhs0 _ _
    | ⟨1, _⟩ => exact (dot_S4096x7_S7x64_S4096x64_1_0_0_1_n_n.lhsIdx_val_of_single rfl _ _).trans hk)

/-- Right operand index there: (k, c). -/
theorem mm1_rhs (p : Fin 4096) (c : Fin 64) (k : Fin 7) :
    dot_S4096x7_S7x64_S4096x64_1_0_0_1_n_n.rhsIdx (ix2 p c) ((contrEquiv1 dot_S4096x7_S7x64_S4096x64_1_0_0_1_n_n 7 rfl rfl).symm k) = ix2 k c := by
  have hk := contrEquiv1_symm_val dot_S4096x7_S7x64_S4096x64_1_0_0_1_n_n 7 rfl rfl k
  exact funext fun a => Fin.ext (by
    match a with
    | ⟨0, _⟩ => exact (dot_S4096x7_S7x64_S4096x64_1_0_0_1_n_n.rhsIdx_val_of_single rfl _ _).trans hk
    | ⟨1, _⟩ => exact mm1_rhs1 _ _)

/-- The product into a zero accumulator, at the extended reals: entry (p, c) is the sum over k of lhs (p, k) · rhs (k, c). -/
theorem mm1_apply {φ₁ φ₂ : FTy} (lhs : FVec Ideal S4096x7 φ₁) (rhs : FVec Ideal S7x64 φ₂) (p : Fin 4096) (c : Fin 64) :
    matmul dot_S4096x7_S7x64_S4096x64_1_0_0_1_n_n none lhs rhs (constant (F := Ideal) S4096x64 .f32 0x00000000#32) (ix2 p c)
      = ∑ k : Fin 7, lhs (ix2 p k) * rhs (ix2 k c) := by
  refine (Ideal.matmul_constant_zero_apply dot_S4096x7_S7x64_S4096x64_1_0_0_1_n_n none lhs rhs (ix2 p c)).trans ?_
  rw [← Equiv.sum_comp (contrEquiv1 dot_S4096x7_S7x64_S4096x64_1_0_0_1_n_n 7 rfl rfl).symm]
  refine Finset.sum_congr rfl fun k _ => ?_
  rw [mm1_lhs, mm1_rhs]

/-- The product 4096×64 by 64×64: the left operand's row is the output's row. -/
theorem mm2_lhs0 (j : S4096x64.Idx) (q : dot_S4096x64_S64x64_S4096x64_1_0_0_1_n_n.contr.Idx) : (dot_S4096x64_S64x64_S4096x64_1_0_0_1_n_n.lhsIdx j q 0).val = (j 0).val := by
  unfold DotDims.lhsIdx
  rw [dif_neg (show ¬(0 : Fin S4096x64.rank) ∈ dot_S4096x64_S64x64_S4096x64_1_0_0_1_n_n.lhsBatch by decide),
    dif_pos (show (0 : Fin S4096x64.rank) ∈ dot_S4096x64_S64x64_S4096x64_1_0_0_1_n_n.lhsNonContracting by decide)]
  rfl

/-- The right operand's column is the output's column. -/
theorem mm2_rhs1 (j : S4096x64.Idx) (q : dot_S4096x64_S64x64_S4096x64_1_0_0_1_n_n.contr.Idx) : (dot_S4096x64_S64x64_S4096x64_1_0_0_1_n_n.rhsIdx j q 1).val = (j 1).val := by
  unfold DotDims.rhsIdx
  rw [dif_neg (show ¬(1 : Fin S64x64.rank) ∈ dot_S4096x64_S64x64_S4096x64_1_0_0_1_n_n.rhsBatch by decide),
    dif_pos (show (1 : Fin S64x64.rank) ∈ dot_S4096x64_S64x64_S4096x64_1_0_0_1_n_n.rhsNonContracting by decide)]
  rfl

/-- Left operand index at output (p, c) and contraction position k: (p, k). -/
theorem mm2_lhs (p : Fin 4096) (c : Fin 64) (k : Fin 64) :
    dot_S4096x64_S64x64_S4096x64_1_0_0_1_n_n.lhsIdx (ix2 p c) ((contrEquiv1 dot_S4096x64_S64x64_S4096x64_1_0_0_1_n_n 64 rfl rfl).symm k) = ix2 p k := by
  have hk := contrEquiv1_symm_val dot_S4096x64_S64x64_S4096x64_1_0_0_1_n_n 64 rfl rfl k
  exact funext fun a => Fin.ext (by
    match a with
    | ⟨0, _⟩ => exact mm2_lhs0 _ _
    | ⟨1, _⟩ => exact (dot_S4096x64_S64x64_S4096x64_1_0_0_1_n_n.lhsIdx_val_of_single rfl _ _).trans hk)

/-- Right operand index there: (k, c). -/
theorem mm2_rhs (p : Fin 4096) (c : Fin 64) (k : Fin 64) :
    dot_S4096x64_S64x64_S4096x64_1_0_0_1_n_n.rhsIdx (ix2 p c) ((contrEquiv1 dot_S4096x64_S64x64_S4096x64_1_0_0_1_n_n 64 rfl rfl).symm k) = ix2 k c := by
  have hk := contrEquiv1_symm_val dot_S4096x64_S64x64_S4096x64_1_0_0_1_n_n 64 rfl rfl k
  exact funext fun a => Fin.ext (by
    match a with
    | ⟨0, _⟩ => exact (dot_S4096x64_S64x64_S4096x64_1_0_0_1_n_n.rhsIdx_val_of_single rfl _ _).trans hk
    | ⟨1, _⟩ => exact mm2_rhs1 _ _)

/-- The product into a zero accumulator, at the extended reals: entry (p, c) is the sum over k of lhs (p, k) · rhs (k, c). -/
theorem mm2_apply {φ₁ φ₂ : FTy} (lhs : FVec Ideal S4096x64 φ₁) (rhs : FVec Ideal S64x64 φ₂) (p : Fin 4096) (c : Fin 64) :
    matmul dot_S4096x64_S64x64_S4096x64_1_0_0_1_n_n none lhs rhs (constant (F := Ideal) S4096x64 .f32 0x00000000#32) (ix2 p c)
      = ∑ k : Fin 64, lhs (ix2 p k) * rhs (ix2 k c) := by
  refine (Ideal.matmul_constant_zero_apply dot_S4096x64_S64x64_S4096x64_1_0_0_1_n_n none lhs rhs (ix2 p c)).trans ?_
  rw [← Equiv.sum_comp (contrEquiv1 dot_S4096x64_S64x64_S4096x64_1_0_0_1_n_n 64 rfl rfl).symm]
  refine Finset.sum_congr rfl fun k _ => ?_
  rw [mm2_lhs, mm2_rhs]

/-- The product 4096×64 by 64×3: the left operand's row is the output's row. -/
theorem mm3_lhs0 (j : S4096x3.Idx) (q : dot_S4096x64_S64x3_S4096x3_1_0_0_1_n_n.contr.Idx) : (dot_S4096x64_S64x3_S4096x3_1_0_0_1_n_n.lhsIdx j q 0).val = (j 0).val := by
  unfold DotDims.lhsIdx
  rw [dif_neg (show ¬(0 : Fin S4096x64.rank) ∈ dot_S4096x64_S64x3_S4096x3_1_0_0_1_n_n.lhsBatch by decide),
    dif_pos (show (0 : Fin S4096x64.rank) ∈ dot_S4096x64_S64x3_S4096x3_1_0_0_1_n_n.lhsNonContracting by decide)]
  rfl

/-- The right operand's column is the output's column. -/
theorem mm3_rhs1 (j : S4096x3.Idx) (q : dot_S4096x64_S64x3_S4096x3_1_0_0_1_n_n.contr.Idx) : (dot_S4096x64_S64x3_S4096x3_1_0_0_1_n_n.rhsIdx j q 1).val = (j 1).val := by
  unfold DotDims.rhsIdx
  rw [dif_neg (show ¬(1 : Fin S64x3.rank) ∈ dot_S4096x64_S64x3_S4096x3_1_0_0_1_n_n.rhsBatch by decide),
    dif_pos (show (1 : Fin S64x3.rank) ∈ dot_S4096x64_S64x3_S4096x3_1_0_0_1_n_n.rhsNonContracting by decide)]
  rfl

/-- Left operand index at output (p, c) and contraction position k: (p, k). -/
theorem mm3_lhs (p : Fin 4096) (c : Fin 3) (k : Fin 64) :
    dot_S4096x64_S64x3_S4096x3_1_0_0_1_n_n.lhsIdx (ix2 p c) ((contrEquiv1 dot_S4096x64_S64x3_S4096x3_1_0_0_1_n_n 64 rfl rfl).symm k) = ix2 p k := by
  have hk := contrEquiv1_symm_val dot_S4096x64_S64x3_S4096x3_1_0_0_1_n_n 64 rfl rfl k
  exact funext fun a => Fin.ext (by
    match a with
    | ⟨0, _⟩ => exact mm3_lhs0 _ _
    | ⟨1, _⟩ => exact (dot_S4096x64_S64x3_S4096x3_1_0_0_1_n_n.lhsIdx_val_of_single rfl _ _).trans hk)

/-- Right operand index there: (k, c). -/
theorem mm3_rhs (p : Fin 4096) (c : Fin 3) (k : Fin 64) :
    dot_S4096x64_S64x3_S4096x3_1_0_0_1_n_n.rhsIdx (ix2 p c) ((contrEquiv1 dot_S4096x64_S64x3_S4096x3_1_0_0_1_n_n 64 rfl rfl).symm k) = ix2 k c := by
  have hk := contrEquiv1_symm_val dot_S4096x64_S64x3_S4096x3_1_0_0_1_n_n 64 rfl rfl k
  exact funext fun a => Fin.ext (by
    match a with
    | ⟨0, _⟩ => exact (dot_S4096x64_S64x3_S4096x3_1_0_0_1_n_n.rhsIdx_val_of_single rfl _ _).trans hk
    | ⟨1, _⟩ => exact mm3_rhs1 _ _)

/-- The product into a zero accumulator, at the extended reals: entry (p, c) is the sum over k of lhs (p, k) · rhs (k, c). -/
theorem mm3_apply {φ₁ φ₂ : FTy} (lhs : FVec Ideal S4096x64 φ₁) (rhs : FVec Ideal S64x3 φ₂) (p : Fin 4096) (c : Fin 3) :
    matmul dot_S4096x64_S64x3_S4096x3_1_0_0_1_n_n none lhs rhs (constant (F := Ideal) S4096x3 .f32 0x00000000#32) (ix2 p c)
      = ∑ k : Fin 64, lhs (ix2 p k) * rhs (ix2 k c) := by
  refine (Ideal.matmul_constant_zero_apply dot_S4096x64_S64x3_S4096x3_1_0_0_1_n_n none lhs rhs (ix2 p c)).trans ?_
  rw [← Equiv.sum_comp (contrEquiv1 dot_S4096x64_S64x3_S4096x3_1_0_0_1_n_n 64 rfl rfl).symm]
  refine Finset.sum_congr rfl fun k _ => ?_
  rw [mm3_lhs, mm3_rhs]

end Cert.KernelIdeal.PayValue

end
-- ==== Proof.PayloadSpecFeat.lean ====
/-
  The edge features of the kernel's body at an index.

  For the query point x = row r of the block of 32 and the partner point y = row q of the block of 128 the body forms
  δ = y − x, d = |δ|² + ε, δ / (d · √d), and lays (δ, δ/ρ, d) and (0 − δ, 0 − δ/ρ, d) out as the seven columns of two
  feature arrays; the first layer's product is taken on the first of them inside the same part of the body.
-/
import proofs.«179601_j54778012893568_2_alg».proof.Proof.Gen.KernelIdeal.Skeleton
import proofs.«179601_j54778012893568_2_alg».proof.Proof.Spec
import Idealize.ShloMosaic.PureOps.Ideal.Laws
import Idealize.ShloMosaic.Lib.ValueLayout
import proofs.«179601_j54778012893568_2_alg».proof.Proof.PayloadSpecLayout
import proofs.«179601_j54778012893568_2_alg».proof.Proof.PayloadSpecMatmul

noncomputable section

open scoped BigOperators

namespace Cert.KernelIdeal.PayValue

open Idealize.ShloMosaic Idealize.ShloMosaic.ValueIdx Cert.PairNet

/-- A sum over the last axis of a [32, 128, 3] array, at (r, q): the sum over the three coordinates. -/
theorem sum_coords (src : FVec Ideal S32x128x3 .f32) (h : S32x128x3.Reduces [2] S32x128) (hφ : FKind.Formats .f32)
    (hacc : (0x00000000#32 : BitVec 32) = 0x00000000#32) (r : Fin 32) (q : Fin 128) :
    multiReduction (F := Ideal) .add [2] S32x128 src 0x00000000#32 h hφ hacc (ix2 r q) = ∑ k : Fin 3, src (ix3 r q k) := by
  refine (Ideal.multiReduction_add_single src 0x00000000#32 h hφ hacc (ix2 r q)).trans ?_
  exact Finset.sum_congr rfl fun k _ => congrArg src (funext fun a => Fin.ext (by
    match a with
    | ⟨0, _⟩ => rfl
    | ⟨1, _⟩ => rfl
    | ⟨2, _⟩ => rfl))

/-- A sum over the middle axis of a [32, 128, 3] array, at (r, c): the sum over the 128 partners. -/
theorem sum_partners (src : FVec Ideal S32x128x3 .f32) (h : S32x128x3.Reduces [1] S32x3) (hφ : FKind.Formats .f32)
    (hacc : (0x00000000#32 : BitVec 32) = 0x00000000#32) (r : Fin 32) (c : Fin 3) :
    multiReduction (F := Ideal) .add [1] S32x3 src 0x00000000#32 h hφ hacc (ix2 r c) = ∑ q : Fin 128, src (ix3 r q c) := by
  refine (Ideal.multiReduction_add_single src 0x00000000#32 h hφ hacc (ix2 r c)).trans ?_
  exact Finset.sum_congr rfl fun q _ => congrArg src (funext fun a => Fin.ext (by
    match a with
    | ⟨0, _⟩ => rfl
    | ⟨1, _⟩ => rfl
    | ⟨2, _⟩ => rfl))

/-- Three pieces of 3, 3 and 1 columns laid side by side read, at column k, the first below 3, the second below 6,
    the third at 6. -/
theorem concat7_apply {α : Type} (A B : S32x128x3.Idx → α) (C : S32x128x1.Idx → α)
    (h : Shape.Concatenates [S32x128x3, S32x128x3, S32x128x1] S32x128x7 2) (r : Fin 32) (q : Fin 128) (k : Fin 7) :
    concatenate S32x128x7 2 [⟨S32x128x3, A⟩, ⟨S32x128x3, B⟩, ⟨S32x128x1, C⟩] h (ix3 r q k)
      = if h1 : k.val < 3 then A (ix3 r q ⟨k.val, h1⟩)
        else if h2 : k.val < 6 then B (ix3 r q ⟨k.val - 3, by omega⟩) else C (ix3 r q (0 : Fin 1)) := by
  by_cases h1 : k.val < 3
  · rw [dif_pos h1]
    exact concatenate_apply_piece (t := S32x128x7) 2 [⟨S32x128x3, A⟩, ⟨S32x128x3, B⟩, ⟨S32x128x1, C⟩] h (ix3 r q k) 0
      (Nat.zero_lt_succ _) S32x128x3 A rfl rfl 0 rfl
      (ix3 r q ⟨k.val, h1⟩)
      (fun b hb => by
        match b with
        | ⟨0, _⟩ => rfl
        | ⟨1, _⟩ => rfl
        | ⟨2, _⟩ => exact absurd (Fin.ext rfl) hb)
      (by show 0 + k.val = k.val; omega)
  · rw [dif_neg h1]
    by_cases h2 : k.val < 6
    · rw [dif_pos h2]
      exact concatenate_apply_piece (t := S32x128x7) 2 [⟨S32x128x3, A⟩, ⟨S32x128x3, B⟩, ⟨S32x128x1, C⟩] h (ix3 r q k) 1
        (Nat.succ_lt_succ (Nat.zero_lt_succ _)) S32x128x3 B rfl rfl 3 rfl
        (ix3 r q ⟨k.val - 3, by omega⟩)
        (fun b hb => by
          match b with
          | ⟨0, _⟩ => rfl
          | ⟨1, _⟩ => rfl
          | ⟨2, _⟩ => exact absurd (Fin.ext rfl) hb)
        (by show 3 + (k.val - 3) = k.val; omega)
    · rw [dif_neg h2]
      exact concatenate_apply_piece (t := S32x128x7) 2 [⟨S32x128x3, A⟩, ⟨S32x128x3, B⟩, ⟨S32x128x1, C⟩] h (ix3 r q k) 2
        (Nat.succ_lt_succ (Nat.succ_lt_succ (Nat.zero_lt_succ _))) S32x128x1 C rfl rfl 6 rfl
        (ix3 r q (0 : Fin 1))
        (fun b hb => by
          match b with
          | ⟨0, _⟩ => rfl
          | ⟨1, _⟩ => rfl
          | ⟨2, _⟩ => exact absurd (Fin.ext rfl) hb)
        (by show 6 + 0 = k.val; have := k.isLt; omega)

section
variable (v0 : Vec Ideal S1x32x3 .f32) (v2 : Vec Ideal S1x128x3 .f32)

/-- The difference array at (r, q, k): partner q minus query r, coordinate k. -/
theorem pay3_apply (r : Fin 32) (q : Fin 128) (k : Fin 3) :
    Gen.k0_pay3 (F := Ideal) v0 v2 (ix3 r q k) = v2 (ix3 0 q k) - v0 (ix3 0 r k) := by
  unfold Gen.k0_pay3
  refine (subf_apply _ _ _).trans ?_
  exact congrArg₂ (fun a b : EReal => a - b)
    ((bcast_1bc_abc (by decide) (by decide) _ _ r q k).trans
      ((shapeCast_ab_1ab_apply _ _ 0 q k).trans (shapeCast_1ab_ab_apply v2 _ q k)))
    ((bcast_a1c_abc (by decide) (by decide) _ _ r q k).trans
      ((cast_ab_a1b _ _ r 0 k).trans (shapeCast_1ab_ab_apply v0 _ r k)))

/-- The softened squared distance at (r, q). -/
theorem pay4_apply (r : Fin 32) (q : Fin 128) (u : Fin 1) :
    Gen.k0_pay4 (F := Ideal) v0 v2 (ix3 r q u)
      = dsq (fun k => v0 (ix3 0 r k)) (fun k => v2 (ix3 0 q k)) := by
  unfold Gen.k0_pay4
  refine (addf_apply _ _ _).trans ?_
  refine congrArg₂ (fun a b : EReal => a + b) ?_ rfl
  refine (cast_ab_ab1 _ _ r q u).trans ?_
  refine (sum_coords _ _ _ _ r q).trans ?_
  exact Finset.sum_congr rfl fun k _ => by rw [mulf_apply, pay3_apply]

/-- The scaled difference δ / (d · √d) at (r, q, k). -/
theorem pay5_apply (r : Fin 32) (q : Fin 128) (k : Fin 3) :
    Gen.k0_pay5 (F := Ideal) v0 v2 (ix3 r q k)
      = Ideal.div (v2 (ix3 0 q k) - v0 (ix3 0 r k))
          (dsq (fun k => v0 (ix3 0 r k)) (fun k => v2 (ix3 0 q k))
            * Ideal.sqrt (dsq (fun k => v0 (ix3 0 r k)) (fun k => v2 (ix3 0 q k)))) := by
  unfold Gen.k0_pay5
  refine (divf_apply _ _ _).trans ?_
  refine congrArg₂ Ideal.div (pay3_apply v0 v2 r q k) ?_
  refine (bcast_ab1_abc (by decide) (by decide) _ _ r q k).trans ?_
  refine (mulf_apply _ _ _).trans ?_
  exact congrArg₂ (fun a b : EReal => a * b) (pay4_apply v0 v2 r q 0) (congrArg Ideal.sqrt (pay4_apply v0 v2 r q 0))

/-- The seven feature columns (δ, δ/ρ, d) at (r, q, k). -/
theorem feat_apply (h : Shape.Concatenates [S32x128x3, S32x128x3, S32x128x1] S32x128x7 2)
    (r : Fin 32) (q : Fin 128) (k : Fin 7) :
    concatenate S32x128x7 2 [⟨S32x128x3, Gen.k0_pay3 (F := Ideal) v0 v2⟩, ⟨S32x128x3, Gen.k0_pay5 (F := Ideal) v0 v2⟩,
        ⟨S32x128x1, Gen.k0_pay4 (F := Ideal) v0 v2⟩] h (ix3 r q k)
      = featMul (fun k => v0 (ix3 0 r k)) (fun k => v2 (ix3 0 q k)) k := by
  refine (concat7_apply _ _ _ h r q k).trans ?_
  unfold featMul
  by_cases h1 : k.val < 3
  · rw [dif_pos h1, dif_pos h1]
    exact pay3_apply v0 v2 r q _
  · rw [dif_neg h1, dif_neg h1]
    by_cases h2 : k.val < 6
    · rw [dif_pos h2, dif_pos h2]
      exact pay5_apply v0 v2 r q _
    · rw [dif_neg h2, dif_neg h2]
      exact pay4_apply v0 v2 r q 0

/-- The negated feature columns (0 − δ, 0 − δ/ρ, d) at (r, q, k). -/
theorem pay6_apply (r : Fin 32) (q : Fin 128) (k : Fin 7) :
    Gen.k0_pay6 (F := Ideal) v0 v2 (ix3 r q k)
      = featMulNeg (fun k => v0 (ix3 0 r k)) (fun k => v2 (ix3 0 q k)) k := by
  unfold Gen.k0_pay6
  refine (concat7_apply _ _ _ _ r q k).trans ?_
  unfold featMulNeg
  by_cases h1 : k.val < 3
  · rw [dif_pos h1, dif_pos h1]
    refine (subf_apply _ _ _).trans ?_
    exact congrArg (fun a : EReal => zeroW - a) (pay3_apply v0 v2 r q _)
  · rw [dif_neg h1, dif_neg h1]
    by_cases h2 : k.val < 6
    · rw [dif_pos h2, dif_pos h2]
      refine (subf_apply _ _ _).trans ?_
      exact congrArg (fun a : EReal => zeroW - a) (pay5_apply v0 v2 r q _)
    · rw [dif_neg h2, dif_neg h2]
      exact pay4_apply v0 v2 r q 0

/-- The first layer's product on the feature columns, at row r · 128 + q and hidden unit h. -/
theorem pay10_apply (v24 : Vec Ideal S7x64 .f32) (r : Fin 32) (q : Fin 128) (h : Fin 64) :
    Gen.k0_pay10 (F := Ideal) v0 v2 v24 (ix2 (row r q) h)
      = ∑ k : Fin 7, featMul (fun k => v0 (ix3 0 r k)) (fun k => v2 (ix3 0 q k)) k * v24 (ix2 k h) := by
  unfold Gen.k0_pay10
  refine (mm1_apply _ _ (row r q) h).trans ?_
  refine Finset.sum_congr rfl fun k _ => ?_
  refine congrArg₂ (fun a b : EReal => a * b) ?_ rfl
  refine (truncf_apply (ψ := .bf16) (φ := .f32) _ _ _).trans ?_
  refine (cast_pairs_rows _ _ r q k).trans ?_
  exact feat_apply v0 v2 _ r q k

end

/-- The first bias as one row, at (0, h). -/
theorem pay11_apply (v30 : Vec Ideal S64 .f32) (u : Fin 1) (h : Fin 64) :
    Gen.k0_pay11 (F := Ideal) v30 (ix2 u h) = v30 (ix1 h) := by
  unfold Gen.k0_pay11
  exact shapeCast_a_1a_apply v30 _ u h

end Cert.KernelIdeal.PayValue

end
-- ==== Proof.PayloadSpecLayers.lean ====
/-
  The perceptron's layers in the kernel's body, at an index, and the body's partial result as the specification's sum.

  Rows of the 4096-row matrices are pairs (r, q). From a first-layer pre-activation matrix the body applies ReLU, the
  second layer, ReLU and the third layer; it does so twice, once on the δ-features' pre-activation (whose product was
  formed before) and once on the negated features', takes half the difference and sums over the 128 partners q.
-/
import proofs.«179601_j54778012893568_2_alg».proof.Proof.Gen.KernelIdeal.Skeleton
import proofs.«179601_j54778012893568_2_alg».proof.Proof.Spec
import Idealize.ShloMosaic.PureOps.Ideal.Laws
import Idealize.ShloMosaic.Lib.ValueLayout
import proofs.«179601_j54778012893568_2_alg».proof.Proof.PayloadSpecLayout
import proofs.«179601_j54778012893568_2_alg».proof.Proof.PayloadSpecMatmul
import proofs.«179601_j54778012893568_2_alg».proof.Proof.PayloadSpecFeat

noncomputable section

open scoped BigOperators

namespace Cert.KernelIdeal.PayValue

open Idealize.ShloMosaic Idealize.ShloMosaic.ValueIdx Cert.PairNet

/-- Layers two and three of the perceptron on a first-layer pre-activation row a:
    relu(relu(a) · W2 + b2) · W3 + b3, at output coordinate c. -/
def tailOf (W2 : Fin 64 → Fin 64 → EReal) (b2 : Fin 64 → EReal) (W3 : Fin 64 → Fin 3 → EReal) (b3 : Fin 3 → EReal)
    (a : Fin 64 → EReal) (c : Fin 3) : EReal :=
  (∑ g : Fin 64, max ((∑ h : Fin 64, max (a h) zeroW * W2 h g) + b2 g) zeroW * W3 g c) + b3 c

/-- The specification's message is layers two and three on the first layer's pre-activation. -/
theorem mlp_eq_tailOf (P : Params) (e : Fin 7 → EReal) (c : Fin 3) :
    mlp P e c = tailOf P.W2 P.b2 P.W3 P.b3 (fun h => (∑ k : Fin 7, e k * P.W1 k h) + P.b1 h) c := rfl

/-- ReLU, the product with the 64 × 64 matrix and the bias, at (p, g). -/
theorem layer2_apply (A : FVec Ideal S4096x64 .f32) (W : FVec Ideal S64x64 .bf16) (b : Vec Ideal S64 .f32)
    (hb : FTy.bits .bf16 < FTy.bits .f32) (h1 : S64.ShapeCasts S1x64) (h2 : S1x64.Broadcasts S4096x64)
    (p : Fin 4096) (g : Fin 64) :
    addf (matmul dot_S4096x64_S64x64_S4096x64_1_0_0_1_n_n none
          (truncf .bf16 (maximumf A (broadcast S4096x64 (Scalar.ofBits (F := Ideal) .f32 0x00000000#32))) hb) W
          (constant (F := Ideal) S4096x64 .f32 0x00000000#32))
        (broadcastTo S4096x64 (shapeCast S1x64 b h1) h2) (ix2 p g)
      = (∑ h : Fin 64, max (A (ix2 p h)) zeroW * W (ix2 h g)) + b (ix1 g) := by
  refine (addf_apply _ _ _).trans ?_
  refine congrArg₂ (fun x y : EReal => x + y) ?_ (bias_row b h1 h2 p g)
  exact mm2_apply _ W p g

/-- ReLU, the product with the 64 × 3 matrix and the bias, at (p, c). -/
theorem layer3_apply (A : FVec Ideal S4096x64 .f32) (W : FVec Ideal S64x3 .bf16) (b : Vec Ideal S3 .f32)
    (hb : FTy.bits .bf16 < FTy.bits .f32) (h1 : S3.ShapeCasts S1x3) (h2 : S1x3.Broadcasts S4096x3)
    (p : Fin 4096) (c : Fin 3) :
    addf (matmul dot_S4096x64_S64x3_S4096x3_1_0_0_1_n_n none
          (truncf .bf16 (maximumf A (broadcast S4096x64 (Scalar.ofBits (F := Ideal) .f32 0x00000000#32))) hb) W
          (constant (F := Ideal) S4096x3 .f32 0x00000000#32))
        (broadcastTo S4096x3 (shapeCast S1x3 b h1) h2) (ix2 p c)
      = (∑ g : Fin 64, max (A (ix2 p g)) zeroW * W (ix2 g c)) + b (ix1 c) := by
  refine (addf_apply _ _ _).trans ?_
  refine congrArg₂ (fun x y : EReal => x + y) ?_ (bias_row b h1 h2 p c)
  exact mm3_apply _ W p c

/-- Layers two and three as the body writes them, from a first-layer pre-activation matrix A, at (p, c). -/
theorem tail_apply (A : FVec Ideal S4096x64 .f32) (v27 : FVec Ideal S64x64 .bf16) (v29 : FVec Ideal S64x3 .bf16)
    (v31 : Vec Ideal S64 .f32) (v32 : Vec Ideal S3 .f32)
    (hb : FTy.bits .bf16 < FTy.bits .f32) (h1 : S64.ShapeCasts S1x64) (h2 : S1x64.Broadcasts S4096x64)
    (h3 : S3.ShapeCasts S1x3) (h4 : S1x3.Broadcasts S4096x3) (p : Fin 4096) (c : Fin 3) :
    addf (matmul dot_S4096x64_S64x3_S4096x3_1_0_0_1_n_n none
          (truncf .bf16 (maximumf
            (addf (matmul dot_S4096x64_S64x64_S4096x64_1_0_0_1_n_n none
                (truncf .bf16 (maximumf A (broadcast S4096x64 (Scalar.ofBits (F := Ideal) .f32 0x00000000#32))) hb) v27
                (constant (F := Ideal) S4096x64 .f32 0x00000000#32))
              (broadcastTo S4096x64 (shapeCast S1x64 v31 h1) h2))
            (broadcast S4096x64 (Scalar.ofBits (F := Ideal) .f32 0x00000000#32))) hb) v29
          (constant (F := Ideal) S4096x3 .f32 0x00000000#32))
        (broadcastTo S4096x3 (shapeCast S1x3 v32 h3) h4) (ix2 p c)
      = tailOf (fun h g => v27 (ix2 h g)) (fun g => v31 (ix1 g)) (fun g c => v29 (ix2 g c)) (fun c => v32 (ix1 c))
          (fun h => A (ix2 p h)) c := by
  refine (layer3_apply _ v29 v32 hb h3 h4 p c).trans ?_
  unfold tailOf
  refine congrArg (fun x : EReal => x + v32 (ix1 c)) ?_
  refine Finset.sum_congr rfl fun g _ => ?_
  refine congrArg (fun x : EReal => max x zeroW * v29 (ix2 g c)) ?_
  exact layer2_apply A v27 v31 hb h1 h2 p g

/-- The body's partial result at (r, c), for any values of what the first part of the body hands over: the sum over the
    partners q of half the difference of the two messages, each layers two and three on its first-layer
    pre-activation — the one formed before plus its bias row, and the negated features' product plus the bias. -/
theorem pay12_apply (v23 : FVec Ideal S32x128x7 .f32) (v25 : FVec Ideal S7x64 .bf16) (v27 : FVec Ideal S64x64 .bf16)
    (v29 : FVec Ideal S64x3 .bf16) (v30 v31 : Vec Ideal S64 .f32) (v32 : Vec Ideal S3 .f32)
    (v35 : FVec Ideal S4096x64 .f32) (v36 : FVec Ideal S1x64 .f32) (r : Fin 32) (c : Fin 3) :
    Gen.k0_pay12 (F := Ideal) v23 v25 v27 v29 v30 v31 v32 v35 v36 (ix2 r c)
      = ∑ q : Fin 128, halfW *
          (tailOf (fun h g => v27 (ix2 h g)) (fun g => v31 (ix1 g)) (fun g c => v29 (ix2 g c)) (fun c => v32 (ix1 c))
              (fun h => v35 (ix2 (row r q) h) + v36 (ix2 (0 : Fin 1) h)) c
            - tailOf (fun h g => v27 (ix2 h g)) (fun g => v31 (ix1 g)) (fun g c => v29 (ix2 g c)) (fun c => v32 (ix1 c))
              (fun h => (∑ k : Fin 7, v23 (ix3 r q k) * v25 (ix2 k h)) + v30 (ix1 h)) c) := by
  unfold Gen.k0_pay12
  refine (sum_partners _ _ _ _ r c).trans ?_
  refine Finset.sum_congr rfl fun q _ => ?_
  refine (mulf_apply _ _ _).trans ?_
  refine congrArg (fun a : EReal => halfW * a) ?_
  refine (subf_apply _ _ _).trans ?_
  refine congrArg₂ (fun a b : EReal => a - b) ?_ ?_
  · refine (cast_rows_pairs _ _ r q c).trans ?_
    refine (tail_apply _ v27 v29 v31 v32 _ _ _ _ _ (row r q) c).trans ?_
    refine congrArg (fun a : Fin 64 → EReal => tailOf (fun h g => v27 (ix2 h g)) (fun g => v31 (ix1 g))
      (fun g c => v29 (ix2 g c)) (fun c => v32 (ix1 c)) a c) (funext fun h => ?_)
    refine (addf_apply _ _ _).trans ?_
    exact congrArg (fun y : EReal => v35 (ix2 (row r q) h) + y) (broadcastTo_1b_ab_apply v36 _ (row r q) h)
  · refine (cast_rows_pairs _ _ r q c).trans ?_
    refine (tail_apply _ v27 v29 v31 v32 _ _ _ _ _ (row r q) c).trans ?_
    refine congrArg (fun a : Fin 64 → EReal => tailOf (fun h g => v27 (ix2 h g)) (fun g => v31 (ix1 g))
      (fun g c => v29 (ix2 g c)) (fun c => v32 (ix1 c)) a c) (funext fun h => ?_)
    refine (addf_apply _ _ _).trans ?_
    refine congrArg₂ (fun x y : EReal => x + y) ?_ (bias_row v30 _ _ (row r q) h)
    refine (mm1_apply _ v25 (row r q) h).trans ?_
    refine Finset.sum_congr rfl fun k _ => ?_
    refine congrArg (fun x : EReal => x * v25 (ix2 k h)) ?_
    refine (truncf_apply (ψ := .bf16) (φ := .f32) _ _ _).trans ?_
    exact cast_pairs_rows v23 _ r q k

end Cert.KernelIdeal.PayValue

end
-- ==== Proof.PayloadSpec.lean ====
/-
  The kernel's arithmetic at the extended reals is the specification's: at one grid point, with a block of 32 query
  points and a block of 128 partner points, the body's partial result at (r, c) is the sum over the 128 partners of the
  specification's term on the negation side; the running sum adds that partial to the old value; the final store
  copies the running sum.
-/
import proofs.«179601_j54778012893568_2_alg».proof.Proof.Gen.KernelIdeal.Skeleton
import proofs.«179601_j54778012893568_2_alg».proof.Proof.Spec
import Idealize.ShloMosaic.PureOps.Ideal.Laws
import Idealize.ShloMosaic.Lib.ValueLayout
import proofs.«179601_j54778012893568_2_alg».proof.Proof.PayloadSpecLayout
import proofs.«179601_j54778012893568_2_alg».proof.Proof.PayloadSpecMatmul
import proofs.«179601_j54778012893568_2_alg».proof.Proof.PayloadSpecFeat
import proofs.«179601_j54778012893568_2_alg».proof.Proof.PayloadSpecLayers

noncomputable section

open scoped BigOperators

namespace Cert.KernelIdeal.PayValue

open Idealize.ShloMosaic Idealize.ShloMosaic.ValueIdx Cert.PairNet

/-- The body's partial result at (r, c): the sum, over the 128 partners of the block, of half the difference of the
    message of the edge (x, y) and the message of its negated features. -/
theorem partial_apply (v0 : Vec Ideal S1x32x3 .f32) (v2 : Vec Ideal S1x128x3 .f32) (v24 : Vec Ideal S7x64 .f32)
    (v26 : Vec Ideal S64x64 .f32) (v28 : Vec Ideal S64x3 .f32) (v30 v31 : Vec Ideal S64 .f32) (v32 : Vec Ideal S3 .f32)
    (r : Fin 32) (c : Fin 3) :
    Gen.k0_pay12 (F := Ideal) (Gen.k0_pay6 v0 v2) (Gen.k0_pay7 v24) (Gen.k0_pay8 v26) (Gen.k0_pay9 v28) v30 v31 v32
        (Gen.k0_pay10 v0 v2 v24) (Gen.k0_pay11 v30) (ix2 r c)
      = ∑ q : Fin 128, termMul (paramsOf v24 v30 v26 v31 v28 v32) (fun k => v0 (ix3 0 r k)) (fun k => v2 (ix3 0 q k)) c := by
  refine (pay12_apply _ _ _ _ v30 v31 v32 _ _ r c).trans ?_
  refine Finset.sum_congr rfl fun q _ => ?_
  unfold termMul
  rw [mlp_eq_tailOf, mlp_eq_tailOf]
  refine congrArg (fun a : EReal => halfW * a) ?_
  refine congrArg₂ (fun a b : EReal => a - b) ?_ ?_
  · refine congrArg (fun a : Fin 64 → EReal => tailOf (paramsOf v24 v30 v26 v31 v28 v32).W2
      (paramsOf v24 v30 v26 v31 v28 v32).b2 (paramsOf v24 v30 v26 v31 v28 v32).W3 (paramsOf v24 v30 v26 v31 v28 v32).b3 a c)
      (funext fun h => ?_)
    exact congrArg₂ (fun x y : EReal => x + y) (pay10_apply v0 v2 v24 r q h) (pay11_apply v30 0 h)
  · refine congrArg (fun a : Fin 64 → EReal => tailOf (paramsOf v24 v30 v26 v31 v28 v32).W2
      (paramsOf v24 v30 v26 v31 v28 v32).b2 (paramsOf v24 v30 v26 v31 v28 v32).W3 (paramsOf v24 v30 v26 v31 v28 v32).b3 a c)
      (funext fun h => ?_)
    refine congrArg (fun x : EReal => x + v30 (ix1 h)) ?_
    exact Finset.sum_congr rfl fun k _ =>
      congrArg (fun x : EReal => x * v24 (ix2 k h)) (pay6_apply v0 v2 r q k)

/-- The value stored at the first partner block is the partial result itself: a shape cast of a shape to itself. -/
theorem pay13_eq (v23 : FVec Ideal S32x128x7 .f32) (v25 : FVec Ideal S7x64 .bf16) (v27 : FVec Ideal S64x64 .bf16)
    (v29 : FVec Ideal S64x3 .bf16) (v30 v31 : Vec Ideal S64 .f32) (v32 : Vec Ideal S3 .f32)
    (v35 : FVec Ideal S4096x64 .f32) (v36 : FVec Ideal S1x64 .f32) :
    Gen.k0_pay13 (F := Ideal) v23 v25 v27 v29 v30 v31 v32 v35 v36
      = Gen.k0_pay12 (F := Ideal) v23 v25 v27 v29 v30 v31 v32 v35 v36 := by
  unfold Gen.k0_pay13
  exact shapeCast_self _ _

/-- The running sum: the old value plus this block's partial result. -/
theorem pay1_eq (v78 : FVec Ideal S32x3 .f32) (v88 : Vec Ideal S32x3 .f32) :
    Gen.k0_pay1 (F := Ideal) v78 v88 = fun i => v88 i + v78 i := by
  unfold Gen.k0_pay1
  exact shapeCast_self _ _

/-- The final store copies the running sum under a leading unit axis. -/
theorem pay2_apply (v88 : Vec Ideal S32x3 .f32) (r : Fin 32) (c : Fin 3) :
    Gen.k0_pay2 (F := Ideal) v88 (ix3 0 r c) = v88 (ix2 r c) := by
  unfold Gen.k0_pay2
  exact shapeCast_ab_1ab_apply v88 _ 0 r c

end Cert.KernelIdeal.PayValue

end
-- ==== Proof.KIBlocks.lean ====
/-
  From a window's block at a grid point to the array by coordinates. The grid point number is t = (b·32 + i)·8 + j;
  the query block and the result block of the point are rows 32·i … 32·i + 31 of batch b, the partner block is rows
  128·j … 128·j + 127 of batch b, and the six parameter windows are their arrays whole. A block's coordinate on an
  axis is always (block index) × (block size) + (coordinate inside the block).
-/
import proofs.«179601_j54778012893568_2_alg».proof.Proof.FrameKI.Main
import Idealize.ShloMosaic.Lib.Pipeline.Value
import Idealize.ShloMosaic.Lib.ValueIdx

set_option maxRecDepth 16384

noncomputable section

namespace Cert.KernelIdeal.Frm

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## The printed index maps as functions of the point number -/

/-- The grid has 512 points. -/
theorem N512 : cfg0.N = 512 := N_0

/-- The block indices of the three windows that move, decided over the grid: with t = (b·32 + i)·8 + j the query
    block and the result block are (b, i, 0) = (t/256, t/8 mod 32, 0) and the partner block is (b, j, 0) = (t/256, t mod 8, 0). -/
theorem idx_moving : ∀ t : Fin cfg0.N,
    win0_0.index t (0 : Fin 3) = t.val / 256 ∧ win0_0.index t (1 : Fin 3) = t.val / 8 % 32 ∧ win0_0.index t (2 : Fin 3) = 0
  ∧ win0_1.index t (0 : Fin 3) = t.val / 256 ∧ win0_1.index t (1 : Fin 3) = t.val % 8 ∧ win0_1.index t (2 : Fin 3) = 0
  ∧ win0_8.index t (0 : Fin 3) = t.val / 256 ∧ win0_8.index t (1 : Fin 3) = t.val / 8 % 32 ∧ win0_8.index t (2 : Fin 3) = 0 :=
  (by decide +kernel : ∀ t : Fin grid0.N, _)

/-- The six parameter windows stay at block 0 on every axis: each is its array whole. -/
theorem idx_whole : ∀ t : Fin cfg0.N,
    win0_2.index t (0 : Fin 2) = 0 ∧ win0_2.index t (1 : Fin 2) = 0
  ∧ win0_3.index t (0 : Fin 1) = 0
  ∧ win0_4.index t (0 : Fin 2) = 0 ∧ win0_4.index t (1 : Fin 2) = 0
  ∧ win0_5.index t (0 : Fin 1) = 0
  ∧ win0_6.index t (0 : Fin 2) = 0 ∧ win0_6.index t (1 : Fin 2) = 0
  ∧ win0_7.index t (0 : Fin 1) = 0 :=
  (by decide +kernel : ∀ t : Fin grid0.N, _)

/-! ## A point's batch and the array rows its blocks hold -/

/-- The batch of a grid point. -/
def bOf (t : Fin cfg0.N) : Fin 2 := ⟨t.val / 256, by have := t.isLt; have h := N512; omega⟩
/-- Row r of a point's query block (and of its result block), as a row of the array. -/
def rowOf (t : Fin cfg0.N) (r : Fin 32) : Fin 1024 := ⟨32 * (t.val / 8 % 32) + r.val, by have := r.isLt; omega⟩
/-- Row q of a point's partner block, as a row of the array. -/
def colOf (t : Fin cfg0.N) (q : Fin 128) : Fin 1024 := ⟨128 * (t.val % 8) + q.val, by have := q.isLt; omega⟩

@[simp] theorem bOf_val (t : Fin cfg0.N) : (bOf t).val = t.val / 256 := rfl
@[simp] theorem rowOf_val (t : Fin cfg0.N) (r : Fin 32) : (rowOf t r).val = 32 * (t.val / 8 % 32) + r.val := rfl
@[simp] theorem colOf_val (t : Fin cfg0.N) (q : Fin 128) : (colOf t q).val = 128 * (t.val % 8) + q.val := rfl

/-! ## Block reads by coordinates -/

/-- The query block: entry (0, r, k) is the positions array at (batch, 32·i + r, k). -/
theorem iblk0_apply (c : Dev nD) (t : Fin cfg0.N) (r : Fin 32) (k : Fin 3) :
    (iblk m c 0 t : Vec F S1x32x3 .f32) (ValueIdx.ix3 0 r k)
      = (m ((c.tc : Thread nD τ).loc main_arg0) : S2x1024x3.Idx → Elt F .f32) (ValueIdx.ix3 (bOf t) (rowOf t r) k) := by
  obtain ⟨e0, e1, e2, -⟩ := idx_moving t
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * 0 = t.val / 256; omega
  | ⟨1, _⟩ => show win0_0.index t (1 : Fin 3) * 32 + 1 * r.val = 32 * (t.val / 8 % 32) + r.val; omega
  | ⟨2, _⟩ => show win0_0.index t (2 : Fin 3) * 3 + 1 * k.val = k.val; omega

/-- The partner block: entry (0, q, k) is the positions array at (batch, 128·j + q, k). -/
theorem iblk1_apply (c : Dev nD) (t : Fin cfg0.N) (q : Fin 128) (k : Fin 3) :
    (iblk m c 1 t : Vec F S1x128x3 .f32) (ValueIdx.ix3 0 q k)
      = (m ((c.tc : Thread nD τ).loc main_arg0) : S2x1024x3.Idx → Elt F .f32) (ValueIdx.ix3 (bOf t) (colOf t q) k) := by
  obtain ⟨-, -, -, e0, e1, e2, -⟩ := idx_moving t
  unfold iblk
  rw [View.read_apply]
  show V m c main_arg0 _ = m (c.tc.loc main_arg0) _
  unfold V
  congr 1
  funext a
  apply Fin.ext
  match a with
  | ⟨0, _⟩ => show win0_1.index t (0 : Fin 3) * 1 + 1 * 0 = t.val / 256; omega
  | ⟨1, _⟩ => show win0_1.index t (1 : Fin 3) * 128 + 1 * q.val = 128 * (t.val % 8) + q.val; omega
  | ⟨2, _⟩ => show win0_1.index t (2 : Fin 3) * 3 + 1 * k.val = k.val; omega

/-- Window 2's block is the first weight matrix whole. -/
theorem iblk2_eq (c : Dev nD) (t : Fin cfg0.N) :
    (iblk m c 2 t : Vec F S7x64 .f32) = (m ((c.tc : Thread nD τ).loc main_arg1) : S7x64.Idx → Elt F .f32) := by
  obtain ⟨e0, e1, -⟩ := idx_whole t
  funext j
  unfold iblk
  rw [View.read_apply]
  show V m c main_arg1 _ = m (c.tc.loc main_arg1) _
  unfold V
  congr 1
  funext a
  apply Fin.ext
  match a with
  | ⟨0, _⟩ => show win0_2.index t (0 : Fin 2) * 7 + 1 * (j 0).val = (j 0).val; omega
  | ⟨1, _⟩ => show win0_2.index t (1 : Fin 2) * 64 + 1 * (j 1).val = (j 1).val; omega

/-- Window 3's block is the first bias whole. -/
theorem iblk3_eq (c : Dev nD) (t : Fin cfg0.N) :
    (iblk m c 3 t : Vec F S64 .f32) = (m ((c.tc : Thread nD τ).loc main_arg2) : S64.Idx → Elt F .f32) := by
  obtain ⟨-, -, e0, -⟩ := idx_whole t
  funext j
  unfold iblk
  rw [View.read_apply]
  show V m c main_arg2 _ = m (c.tc.loc main_arg2) _
  unfold V
  congr 1
  funext a
  apply Fin.ext
  match a with
  | ⟨0, _⟩ => show win0_3.index t (0 : Fin 1) * 64 + 1 * (j 0).val = (j 0).val; omega

/-- Window 4's block is the second weight matrix whole. -/
theorem iblk4_eq (c : Dev nD) (t : Fin cfg0.N) :
    (iblk m c 4 t : Vec F S64x64 .f32) = (m ((c.tc : Thread nD τ).loc main_arg3) : S64x64.Idx → Elt F .f32) := by
  obtain ⟨-, -, -, e0, e1, -⟩ := idx_whole t
  funext j
  unfold iblk
  rw [View.read_apply]
  show V m c main_arg3 _ = m (c.tc.loc main_arg3) _
  unfold V
  congr 1
  funext a
  apply Fin.ext
  match a with
  | ⟨0, _⟩ => show win0_4.index t (0 : Fin 2) * 64 + 1 * (j 0).val = (j 0).val; omega
  | ⟨1, _⟩ => show win0_4.index t (1 : Fin 2) * 64 + 1 * (j 1).val = (j 1).val; omega

/-- Window 5's block is the second bias whole. -/
theorem iblk5_eq (c : Dev nD) (t : Fin cfg0.N) :
    (iblk m c 5 t : Vec F S64 .f32) = (m ((c.tc : Thread nD τ).loc main_arg4) : S64.Idx → Elt F .f32) := by
  obtain ⟨-, -, -, -, -, e0, -⟩ := idx_whole t
  funext j
  unfold iblk
  rw [View.read_apply]
  show V m c main_arg4 _ = m (c.tc.loc main_arg4) _
  unfold V
  congr 1
  funext a
  apply Fin.ext
  match a with
  | ⟨0, _⟩ => show win0_5.index t (0 : Fin 1) * 64 + 1 * (j 0).val = (j 0).val; omega

/-- Window 6's block is the third weight matrix whole. -/
theorem iblk6_eq (c : Dev nD) (t : Fin cfg0.N) :
    (iblk m c 6 t : Vec F S64x3 .f32) = (m ((c.tc : Thread nD τ).loc main_arg5) : S64x3.Idx → Elt F .f32) := by
  obtain ⟨-, -, -, -, -, -, e0, e1, -⟩ := idx_whole t
  funext j
  unfold iblk
  rw [View.read_apply]
  show V m c main_arg5 _ = m (c.tc.loc main_arg5) _
  unfold V
  congr 1
  funext a
  apply Fin.ext
  match a with
  | ⟨0, _⟩ => show win0_6.index t (0 : Fin 2) * 64 + 1 * (j 0).val = (j 0).val; omega
  | ⟨1, _⟩ => show win0_6.index t (1 : Fin 2) * 3 + 1 * (j 1).val = (j 1).val; omega

/-- Window 7's block is the third bias whole. -/
theorem iblk7_eq (c : Dev nD) (t : Fin cfg0.N) :
    (iblk m c 7 t : Vec F S3 .f32) = (m ((c.tc : Thread nD τ).loc main_arg6) : S3.Idx → Elt F .f32) := by
  obtain ⟨-, -, -, -, -, -, -, -, e0⟩ := idx_whole t
  funext j
  unfold iblk
  rw [View.read_apply]
  show V m c main_arg6 _ = m (c.tc.loc main_arg6) _
  unfold V
  congr 1
  funext a
  apply Fin.ext
  match a with
  | ⟨0, _⟩ => show win0_7.index t (0 : Fin 1) * 3 + 1 * (j 0).val = (j 0).val; omega

end Cert.KernelIdeal.Frm

end
-- ==== Proof.KIBlocksResult.lean ====
/-
  The result array from the blocks written back. Only the points with j = 7 write the result's block back, and the
  block of the point t = (b·32 + i)·8 + 7 is rows 32·i … 32·i + 31 of batch b; these 64 blocks tile the array, row n
  of batch b lying in the block of the point (b·32 + n/32)·8 + 7. So if at every such point the staged block agrees,
  entry by entry, with a function G of the array's coordinates, the array ends holding G.
-/
import proofs.«179601_j54778012893568_2_alg».proof.Proof.KIBlocks

set_option maxRecDepth 16384

noncomputable section

namespace Cert.KernelIdeal.Frm

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- An index of the result array is in point t's block iff each coordinate is in the block's range on its axis. -/
theorem mem_blk8 (t : Fin cfg0.N) (i : S2x1024x3.Idx) :
    i ∈ ((cfg0.win 8).blk t).view.set ↔ ∀ a : Fin 3, win0_8.index t a * S1x32x3.size a ≤ (i a).val ∧ (i a).val < win0_8.index t a * S1x32x3.size a + S1x32x3.size a := by
  show i ∈ ((View.whole main_v0).slice (win0_8.rect t)).set ↔ _
  rw [View.set_slice_whole, Rect.mem_set_unit]
  exact Iff.rfl

/-- The point whose write-back covers row n of batch b. -/
def coverPt (b : Fin 2) (n : Fin 1024) : Fin cfg0.N :=
  ⟨(b.val * 32 + n.val / 32) * 8 + 7, by have := b.isLt; have := n.isLt; have h := N512; omega⟩

@[simp] theorem coverPt_val (b : Fin 2) (n : Fin 1024) : (coverPt b n).val = (b.val * 32 + n.val / 32) * 8 + 7 := rfl

/-- Every index of the result array is in the block some point writes back. -/
theorem cover8 (i : S2x1024x3.Idx) : ∃ t : Fin cfg0.N, (cfg0.win 8).flush t = true ∧ i ∈ ((cfg0.win 8).blk t).view.set := by
  have hb : (i 0).val < 2 := (i 0).isLt
  have hn : (i 1).val < 1024 := (i 1).isLt
  have hk : (i 2).val < 3 := (i 2).isLt
  refine ⟨coverPt ⟨(i 0).val, hb⟩ ⟨(i 1).val, hn⟩, (flush0_8 _).mpr (by rw [coverPt_val]; omega), ?_⟩
  rw [mem_blk8]
  obtain ⟨-, -, -, -, -, -, e0, e1, e2⟩ := idx_moving (coverPt ⟨(i 0).val, hb⟩ ⟨(i 1).val, hn⟩)
  rw [coverPt_val] at e0 e1
  intro a
  match a with
  | ⟨0, _⟩ =>
    show win0_8.index (coverPt ⟨(i 0).val, hb⟩ ⟨(i 1).val, hn⟩) (0 : Fin 3) * 1 ≤ (i 0).val
      ∧ (i 0).val < win0_8.index (coverPt ⟨(i 0).val, hb⟩ ⟨(i 1).val, hn⟩) (0 : Fin 3) * 1 + 1
    rw [e0]; dsimp only; omega
  | ⟨1, _⟩ =>
    show win0_8.index (coverPt ⟨(i 0).val, hb⟩ ⟨(i 1).val, hn⟩) (1 : Fin 3) * 32 ≤ (i 1).val
      ∧ (i 1).val < win0_8.index (coverPt ⟨(i 0).val, hb⟩ ⟨(i 1).val, hn⟩) (1 : Fin 3) * 32 + 32
    rw [e1]; dsimp only; omega
  | ⟨2, _⟩ =>
    show win0_8.index (coverPt ⟨(i 0).val, hb⟩ ⟨(i 1).val, hn⟩) (2 : Fin 3) * 3 ≤ (i 2).val
      ∧ (i 2).val < win0_8.index (coverPt ⟨(i 0).val, hb⟩ ⟨(i 1).val, hn⟩) (2 : Fin 3) * 3 + 3
    rw [e2]; omega

/-- Where point t's result block sits in the array: entry (0, r, k) of the block is the array's (batch, 32·i + r, k). -/
theorem blk8_emb (t : Fin cfg0.N) (r : Fin 32) (k : Fin 3) :
    ((cfg0.win 8).blk t).view.emb (ValueIdx.ix3 0 r k : S1x32x3.Idx) = (ValueIdx.ix3 (bOf t) (rowOf t r) k : S2x1024x3.Idx) := by
  obtain ⟨-, -, -, -, -, -, e0, e1, e2⟩ := idx_moving t
  funext a
  apply Fin.ext
  match a with
  | ⟨0, _⟩ => show win0_8.index t (0 : Fin 3) * 1 + 1 * 0 = t.val / 256; omega
  | ⟨1, _⟩ => show win0_8.index t (1 : Fin 3) * 32 + 1 * r.val = 32 * (t.val / 8 % 32) + r.val; omega
  | ⟨2, _⟩ => show win0_8.index t (2 : Fin 3) * 3 + 1 * k.val = k.val; omega

/-- What a point with j = 7 writes back is its block of G, when the staged block agrees with G entry by entry. -/
theorem flushed8_eq (c : Dev nD) (G : S2x1024x3.Idx → Elt F .f32) (t : Fin cfg0.N)
    (hG : ∀ (r : Fin 32) (k : Fin 3),
      (out8At m c t.val t.isLt : Vec F S1x32x3 .f32) (ValueIdx.ix3 0 r k) = G (ValueIdx.ix3 (bOf t) (rowOf t r) k)) :
    (dats m 0 c).flushed 8 t = ((cfg0.win 8).blk t).view.read (Elt F) G := by
  show (cfg0.win 8).cut (grid0.coords t) ((dats m 0 c).after 8 t) = _
  rw [after8]
  show (out8At m c t.val t.isLt : Vec F S1x32x3 .f32) = fun j : S1x32x3.Idx => G (((cfg0.win 8).blk t).view.emb j)
  funext j
  obtain ⟨a, r, k, rfl⟩ : ∃ (a : Fin 1) (r : Fin 32) (k : Fin 3), j = ValueIdx.ix3 a r k := ⟨j 0, j 1, j 2, ValueIdx.eq_ix3 j⟩
  obtain rfl : a = 0 := Subsingleton.elim _ _
  rw [hG r k, blk8_emb]

/-- THE RESULT ARRAY: if at every point with j = 7 the staged result block agrees with G at the array's coordinates,
    the array ends holding G. -/
theorem result_of_blocks (c : Dev nD) (G : S2x1024x3.Idx → Elt F .f32)
    (hG : ∀ t : Fin cfg0.N, t.val % 8 = 7 → ∀ (r : Fin 32) (k : Fin 3),
      (out8At m c t.val t.isLt : Vec F S1x32x3 .f32) (ValueIdx.ix3 0 r k) = G (ValueIdx.ix3 (bOf t) (rowOf t r) k)) :
    (dats m 0 c).arrAt 8 cfg0.N = G :=
  (dats m 0 c).arrAt_eq_of_cover 8 G (fun t hf => flushed8_eq m c G t (hG t ((flush0_8 t).mp hf))) cover8

end Cert.KernelIdeal.Frm

end
-- ==== Proof.SumBlocks.lean ====
/-
  A sum over 1024 partners is the sum over 8 blocks of the sums over each block's 128 partners: the partner with
  number j = 128·k + q is partner q of block k. (Only commutativity and associativity of addition are used, which hold
  on the extended reals.)
-/
import Idealize.ShloMosaic.PureOps.Ideal

noncomputable section

open scoped BigOperators

namespace Cert.PairNet

/-- The partner number of partner `q` of block `k`. -/
def partner (k : Fin 8) (q : Fin 128) : Fin 1024 := ⟨128 * k.val + q.val, by omega⟩

theorem sum_blocks {M : Type} [AddCommMonoid M] (f : Fin 1024 → M) :
    ∑ k : Fin 8, ∑ q : Fin 128, f (partner k q) = ∑ j : Fin 1024, f j := by
  rw [← Fintype.sum_prod_type (f := fun p : Fin 8 × Fin 128 => f (partner p.1 p.2))]
  refine Fintype.sum_equiv (finProdFinEquiv (m := 8) (n := 128)) _ _ (fun p => ?_)
  refine congrArg f (Fin.ext ?_)
  show 128 * p.1.val + p.2.val = p.2.val + 128 * p.1.val
  omega

end Cert.PairNet

end
-- ==== Proof.KIValue.lean ====
/-
  The kernel's result array, in closed form.

  At a point of row (b, i) whose partner block is the last one, the scratch — and so the staged result block —
  holds the sum of the eight partner blocks' partial sums; each partial sum is the sum over the block's 128 partners
  of the specification's half-difference term, read at the positions the blocks are cut from; eight blocks of 128
  partners are all 1024 partners. So the result array ends holding `resultMul` of the argument arrays.
-/
import proofs.«179601_j54778012893568_2_alg».proof.Proof.KIAcc
import proofs.«179601_j54778012893568_2_alg».proof.Proof.KIPieces
import proofs.«179601_j54778012893568_2_alg».proof.Proof.PayloadSpec
import proofs.«179601_j54778012893568_2_alg».proof.Proof.KIBlocksResult
import proofs.«179601_j54778012893568_2_alg».proof.Proof.SumBlocks

noncomputable section

open scoped BigOperators

namespace Cert.KernelIdeal.Frm

open Idealize.ShloMosaic Idealize.ShloMosaic.TcCoe Idealize.SL.Sem
open Idealize.ShloMosaic.ValueIdx
open Cert.KernelIdeal Cert.KernelIdeal.Gen Cert.PairNet

variable (m : (ℓ : Loc nD τ sig) → Buf (Elt Ideal) ℓ) (ρ : Dev nD → PrngReg)

/-- The perceptron's parameters as the program is launched with them. -/
abbrev prm (c : Dev nD) : Params := paramsOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
/-- The positions as the program is launched with them. -/
abbrev ps (c : Dev nD) : Fin 2 → Fin 1024 → Fin 3 → EReal := posOf (m ((c.tc : Thread nD τ).loc main_arg0))

/-- At j = 0 the scratch is left at the block's partial sums, -/
theorem left_first (c : Dev nD) (t : Fin cfg0.N) (h0 : t.val % 8 = 0) : soutA m c t h0 = part m c t := by
  rw [soutA_eq, Cert.KernelIdeal.PayValue.pay13_eq]; rfl
/-- at 0 < j < 7 at what it held plus the block's partial sums, -/
theorem left_middle (c : Dev nD) (t : Fin cfg0.N) (h0 : ¬ t.val % 8 = 0) (h7 : ¬ t.val % 8 = 7) (xs : Vec Ideal S32x3 .f32) :
    soutB m c t h0 h7 xs = fun y => xs y + part m c t y := by
  rw [soutB_eq, Cert.KernelIdeal.PayValue.pay1_eq]; rfl
/-- and at j = 7 likewise. -/
theorem left_last (c : Dev nD) (t : Fin cfg0.N) (h7 : t.val % 8 = 7) (xs : Vec Ideal S32x3 .f32) :
    soutC m c t h7 xs = fun y => xs y + part m c t y := by
  rw [soutC_eq, Cert.KernelIdeal.PayValue.pay1_eq]; rfl

/-- A block's partial sums by coordinates: entry (r, k) at point t is the sum, over the 128 partners of the point's
    partner block, of the half-difference term between query point 32·i + r and that partner, in batch b. -/
theorem part_apply (c : Dev nD) (t : Fin cfg0.N) (r : Fin 32) (k : Fin 3) :
    part m c t (ix2 r k) = ∑ q : Fin 128, termMul (prm m c) (ps m c (bOf t) (rowOf t r)) (ps m c (bOf t) (colOf t q)) k := by
  unfold part
  rw [Cert.KernelIdeal.PayValue.partial_apply]
  have e0 : (fun κ => (iblk m c 0 t : Vec Ideal S1x32x3 .f32) (ix3 0 r κ)) = ps m c (bOf t) (rowOf t r) :=
    funext fun κ => iblk0_apply m c t r κ
  have e1 : ∀ q : Fin 128, (fun κ => (iblk m c 1 t : Vec Ideal S1x128x3 .f32) (ix3 0 q κ)) = ps m c (bOf t) (colOf t q) :=
    fun q => funext fun κ => iblk1_apply m c t q κ
  refine Finset.sum_congr rfl fun q _ => ?_
  rw [e0, e1 q, iblk2_eq m c t, iblk3_eq m c t, iblk4_eq m c t, iblk5_eq m c t, iblk6_eq m c t, iblk7_eq m c t]

/-- At a point whose partner block is the last, the staged result block is the specification's result at the rows of
    the point's query block. -/
theorem out8_apply (c : Dev nD) (t : Fin cfg0.N) (h7 : t.val % 8 = 7) (r : Fin 32) (k : Fin 3) :
    (out8At m c t.val t.isLt : Vec Ideal S1x32x3 .f32) (ix3 0 r k) = resultMul (prm m c) (ps m c) (bOf t) (rowOf t r) k := by
  have hN : t.val < 512 := lt_of_lt_of_eq t.isLt N512
  rw [out8At_C m c t h7, outC_eq, Cert.KernelIdeal.PayValue.pay2_apply, ← soutC_eq m c t h7, ← accAt_C m c t h7,
    accAt_closed m c (left_first m c) (left_middle m c) (left_last m c) t.val t.isLt]
  show (∑ k' ∈ Finset.range (t.val % 8 + 1), partN m c (t.val - t.val % 8 + k') (ix2 r k)) = _
  rw [h7, show (7 + 1) = 8 from rfl, Finset.sum_range]
  unfold resultMul
  rw [← sum_blocks]
  refine Finset.sum_congr rfl fun k' _ => ?_
  have hk : k'.val < 8 := k'.isLt
  have hlt : t.val - 7 + k'.val < cfg0.N := lt_of_lt_of_eq (by omega : t.val - 7 + k'.val < 512) N512.symm
  rw [partN_of_lt m c _ hlt, part_apply]
  have eb : bOf ⟨t.val - 7 + k'.val, hlt⟩ = bOf t := Fin.ext (by show (t.val - 7 + k'.val) / 256 = t.val / 256; omega)
  have er : rowOf ⟨t.val - 7 + k'.val, hlt⟩ r = rowOf t r :=
    Fin.ext (by show 32 * ((t.val - 7 + k'.val) / 8 % 32) + r.val = 32 * (t.val / 8 % 32) + r.val; omega)
  have ec : ∀ q : Fin 128, colOf ⟨t.val - 7 + k'.val, hlt⟩ q = partner k' q :=
    fun q => Fin.ext (by show 128 * ((t.val - 7 + k'.val) % 8) + q.val = 128 * k'.val + q.val; omega)
  rw [eb, er]
  exact Finset.sum_congr rfl fun q _ => by rw [ec q]

/-- The result array after the run. -/
theorem final8 (c : Dev nD) :
    (dats m 0 c).arrAt 8 cfg0.N = fun i : S2x1024x3.Idx => resultMul (prm m c) (ps m c) (i 0) (i 1) (i 2) :=
  result_of_blocks m c _ fun t h7 r k => out8_apply m c t h7 r k

/-- The run re-posted: the result array at the specification's function of the arguments, the arguments unchanged. -/
theorem run_value : θ_run defs (onTc (τ := τ) (main (F := Ideal))) ⟨m, fun _ => 0, ρ⟩ (fun r => ∀ c : Dev nD,
      r.2.mem ((c.tc : Thread nD τ).loc main_v0) = (fun i : S2x1024x3.Idx => resultMul (prm m c) (ps m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c 8).trans (final8 m c),
     (h c 0).trans (((dats m 0 c).arrAt_in 0 rfl _).trans (A_eq m c 0)),
     (h c 2).trans (((dats m 0 c).arrAt_in 2 rfl _).trans (A_eq m c 2)),
     (h c 3).trans (((dats m 0 c).arrAt_in 3 rfl _).trans (A_eq m c 3)),
     (h c 4).trans (((dats m 0 c).arrAt_in 4 rfl _).trans (A_eq m c 4)),
     (h c 5).trans (((dats m 0 c).arrAt_in 5 rfl _).trans (A_eq m c 5)),
     (h c 6).trans (((dats m 0 c).arrAt_in 6 rfl _).trans (A_eq m c 6)),
     (h c 7).trans (((dats m 0 c).arrAt_in 7 rfl _).trans (A_eq m c 7))⟩) (run_main m ρ)

end Cert.KernelIdeal.Frm

end
-- ==== Proof.RefSpecFeat.lean ====
import proofs.«179601_j54778012893568_2_alg».proof.Proof.Gen.ReferenceIdeal.Read
import proofs.«179601_j54778012893568_2_alg».proof.Proof.Spec

noncomputable section

open scoped BigOperators

namespace Cert.ReferenceIdeal.RefValue

open Cert.ReferenceIdeal Cert.ReferenceIdeal.Read Idealize.ShloMosaic Idealize.ShloMosaic.ValueIdx Cert.PairNet

/-! ## The edge features of the reference at an index

The reference forms, for every batch `b` and ordered pair of points `(n, j)`, the difference `δ = pos b j − pos b n`
(the first broadcast repeats the positions along axis 1, the second along axis 2), the softened squared distance
`d = |δ|² + ε` with a keep-dims sum over the three coordinates, `ρ = d ^ (3/2)` as a real power, and joins
`(δ, δ / ρ, d)` along the last axis into seven features. Read at the index `(b, n, j, k)` this is the specification's
`featPow (pos b n) (pos b j) k`. -/

/-- The array type of the positions, as the generated reading of the reference spells it. -/
abbrev Pos := (⟨S2x1024x3, .f32⟩ : BufTy).Contents (Elt Ideal)

/-- The first broadcast chain reads the positions at `(b, j, k)`: axis 1 of the pair array is the new one. -/
theorem idx_v0_v2 (b : Fin 2) (n j : Fin 1024) (k : Fin 3) :
    idx_main_v0 (idx_main_v2 (ix4 b n j k)) = ix3 b j k :=
  funext fun a => match a with | ⟨0, _⟩ => rfl | ⟨1, _⟩ => rfl | ⟨2, _⟩ => rfl

/-- The second broadcast chain reads the positions at `(b, n, k)`: axis 2 of the pair array is the new one. -/
theorem idx_v1_v3 (b : Fin 2) (n j : Fin 1024) (k : Fin 3) :
    idx_main_v1 (idx_main_v3 (ix4 b n j k)) = ix3 b n k :=
  funext fun a => match a with | ⟨0, _⟩ => rfl | ⟨1, _⟩ => rfl | ⟨2, _⟩ => rfl

/-- δ at `(b, n, j, k)` is `pos b j k − pos b n k`. -/
theorem dx_apply (a0 : Pos) (b : Fin 2) (n j : Fin 1024) (k : Fin 3) :
    val_main_v4 (F := Ideal) a0 (ix4 b n j k) = posOf a0 b j k - posOf a0 b n k := by
  rw [val_main_v4_apply, val_main_v2_apply, val_main_v0_apply, val_main_v3_apply, val_main_v1_apply, idx_v0_v2, idx_v1_v3]
  rfl

/-- The keep-dims sum's `k`-th summand at `(b, n, j, 0)` sits at `(b, n, j, k)`. -/
theorem idx_v6_v7 (b : Fin 2) (n j : Fin 1024) (z : Fin 1) (k : Fin 3) :
    idx_main_v6 (idx_main_v7 (ix4 b n j z)) k = ix4 b n j k :=
  funext fun a => match a with | ⟨0, _⟩ => rfl | ⟨1, _⟩ => rfl | ⟨2, _⟩ => rfl | ⟨3, _⟩ => rfl

/-- d at `(b, n, j, 0)`: the sum of the squared coordinates of δ (the sum's initial value is the word of 0, which is 0)
    plus ε. -/
theorem dsq_apply (a0 : Pos) (b : Fin 2) (n j : Fin 1024) (z : Fin 1) :
    val_main_v9 (F := Ideal) a0 (ix4 b n j z) = dsq (posOf a0 b n) (posOf a0 b j) := by
  rw [val_main_v9_apply, val_main_v7_apply, val_main_v6_apply, val_main_v8_apply, val_main_cst_0_apply, val_main_cst_apply]
  simp only [idx_v6_v7, val_main_v5_apply, dx_apply, Ideal.ofBits_def, Ideal.addf_def, Ideal.mulf_def]
  rw [Ideal.ofBits_zero_f32, zero_add]
  rfl

/-- The broadcast of ρ back to three coordinates reads it at `(b, n, j, 0)`. -/
theorem idx_v12 (b : Fin 2) (n j : Fin 1024) (k : Fin 3) :
    idx_main_v12 (ix4 b n j k) = ix4 b n j (0 : Fin 1) :=
  funext fun a => match a with | ⟨0, _⟩ => rfl | ⟨1, _⟩ => rfl | ⟨2, _⟩ => rfl | ⟨3, _⟩ => rfl

/-- ρ at `(b, n, j, 0)` is `d ^ (3/2)`, the real power. -/
theorem rho_apply (a0 : Pos) (b : Fin 2) (n j : Fin 1024) (z : Fin 1) :
    val_main_v11 (F := Ideal) a0 (ix4 b n j z) = Ideal.pow (dsq (posOf a0 b n) (posOf a0 b j)) threeHalvesW := by
  rw [val_main_v11_apply, dsq_apply, val_main_v10_apply, val_main_cst_1_apply]
  rfl

/-- δ / ρ at `(b, n, j, k)`. -/
theorem fphys_apply (a0 : Pos) (b : Fin 2) (n j : Fin 1024) (k : Fin 3) :
    val_main_v13 (F := Ideal) a0 (ix4 b n j k)
      = Ideal.div (posOf a0 b j k - posOf a0 b n k) (Ideal.pow (dsq (posOf a0 b n) (posOf a0 b j)) threeHalvesW) := by
  rw [val_main_v13_apply, dx_apply, val_main_v12_apply, idx_v12, rho_apply]
  rfl

/-- The seven features at `(b, n, j, k)`: the joined axis holds δ on `0 ≤ k < 3`, δ / ρ on `3 ≤ k < 6` and d at `k = 6`;
    each element comes from the piece whose span holds `k`, at `k` less the extents before it. -/
theorem feat_apply (a0 : Pos) (b : Fin 2) (n j : Fin 1024) (k : Fin 7) :
    val_main_v14 (F := Ideal) a0 (ix4 b n j k) = featPow (posOf a0 b n) (posOf a0 b j) k := by
  unfold val_main_v14 featPow
  by_cases h3 : k.val < 3
  · rw [dif_pos h3]
    refine (concatenate_apply_piece (3 : Fin S2x1024x1024x7.rank) _ _ (ix4 b n j k) 0 (by show (0 : Nat) < 3; decide) S2x1024x1024x3
      (val_main_v4 (F := Ideal) a0) rfl rfl 0 rfl (ix4 b n j ⟨k.val, h3⟩)
      (fun c hc => match c with | ⟨0, _⟩ => rfl | ⟨1, _⟩ => rfl | ⟨2, _⟩ => rfl | ⟨3, _⟩ => (hc rfl).elim)
      (Nat.zero_add _)).trans ?_
    exact dx_apply a0 b n j ⟨k.val, h3⟩
  · rw [dif_neg h3]
    by_cases h6 : k.val < 6
    · rw [dif_pos h6]
      refine (concatenate_apply_piece (3 : Fin S2x1024x1024x7.rank) _ _ (ix4 b n j k) 1 (by show (1 : Nat) < 3; decide) S2x1024x1024x3
        (val_main_v13 (F := Ideal) a0) rfl rfl 3 rfl (ix4 b n j ⟨k.val - 3, by omega⟩)
        (fun c hc => match c with | ⟨0, _⟩ => rfl | ⟨1, _⟩ => rfl | ⟨2, _⟩ => rfl | ⟨3, _⟩ => (hc rfl).elim)
        (show 3 + (k.val - 3) = k.val by omega)).trans ?_
      exact fphys_apply a0 b n j ⟨k.val - 3, by omega⟩
    · rw [dif_neg h6]
      refine (concatenate_apply_piece (3 : Fin S2x1024x1024x7.rank) _ _ (ix4 b n j k) 2 (by show (2 : Nat) < 3; decide) S2x1024x1024x1
        (val_main_v9 (F := Ideal) a0) rfl rfl 6 rfl (ix4 b n j (0 : Fin 1))
        (fun c hc => match c with | ⟨0, _⟩ => rfl | ⟨1, _⟩ => rfl | ⟨2, _⟩ => rfl | ⟨3, _⟩ => (hc rfl).elim)
        (show 6 + 0 = k.val by have := k.isLt; omega)).trans ?_
      exact dsq_apply a0 b n j 0

end Cert.ReferenceIdeal.RefValue

end
-- ==== Proof.RefSpecMlp.lean ====
import proofs.«179601_j54778012893568_2_alg».proof.Proof.RefSpecFeat

noncomputable section

open scoped BigOperators

namespace Cert.ReferenceIdeal.RefValue

open Cert.ReferenceIdeal Cert.ReferenceIdeal.Read Idealize.ShloMosaic Idealize.ShloMosaic.ValueIdx Cert.PairNet

/-! ## The perceptron of the reference at an index

Each layer is a `dot_general` contracting the last axis of the left operand with axis 0 of the weights, a bias repeated
along the three leading axes, and (for the two hidden layers) a maximum with the word of 0 in that argument order. Read
at `(b, n, j, ·)` the three layers are the specification's `hid1`, `hid2` and `mlp` of the features of the edge
`(pos b n, pos b j)`. -/

/-- The parameter arrays' types, as the generated reading of the reference spells them. -/
abbrev W1T := (⟨S7x64, .f32⟩ : BufTy).Contents (Elt Ideal)
abbrev B64T := (⟨S64, .f32⟩ : BufTy).Contents (Elt Ideal)
abbrev W2T := (⟨S64x64, .f32⟩ : BufTy).Contents (Elt Ideal)
abbrev W3T := (⟨S64x3, .f32⟩ : BufTy).Contents (Elt Ideal)
abbrev B3T := (⟨S3, .f32⟩ : BufTy).Contents (Elt Ideal)

section
variable (a0 : Pos) (a1 : W1T) (a2 : B64T) (a3 : W2T) (a4 : B64T) (a5 : W3T) (a6 : B3T)
variable (b : Fin 2) (n j : Fin 1024)

/-- First contraction: the left operand is read at `(b, n, j, k)`. -/
theorem lidx_v15 (h : Fin 64) (k : Fin 7) : lidx_main_v15 (ix4 b n j h) k = ix4 b n j k :=
  funext fun a => match a with | ⟨0, _⟩ => rfl | ⟨1, _⟩ => rfl | ⟨2, _⟩ => rfl | ⟨3, _⟩ => rfl
/-- First contraction: the weights are read at `(k, h)`. -/
theorem ridx_v15 (h : Fin 64) (k : Fin 7) : ridx_main_v15 (ix4 b n j h) k = ix2 k h :=
  funext fun a => match a with | ⟨0, _⟩ => rfl | ⟨1, _⟩ => rfl
/-- The first bias is read at `h`. -/
theorem idx_v16_v17 (h : Fin 64) : idx_main_v16 (idx_main_v17 (ix4 b n j h)) = ix1 h :=
  funext fun a => match a with | ⟨0, _⟩ => rfl

/-- The first hidden layer at `(b, n, j, h)`. -/
theorem hid1_apply (h : Fin 64) :
    val_main_v19 (F := Ideal) a0 a1 a2 (ix4 b n j h)
      = hid1 (paramsOf a1 a2 a3 a4 a5 a6) (featPow (posOf a0 b n) (posOf a0 b j)) h := by
  rw [val_main_v19_apply, val_main_v18_apply, val_main_v15_apply, val_main_v17_apply, val_main_v16_apply,
    val_main_call0_v0_apply, val_main_call0_cst_apply, idx_v16_v17]
  simp only [lidx_v15, ridx_v15, feat_apply]
  rfl

/-- Second contraction: the left operand is read at `(b, n, j, k)`. -/
theorem lidx_v20 (g : Fin 64) (k : Fin 64) : lidx_main_v20 (ix4 b n j g) k = ix4 b n j k :=
  funext fun a => match a with | ⟨0, _⟩ => rfl | ⟨1, _⟩ => rfl | ⟨2, _⟩ => rfl | ⟨3, _⟩ => rfl
/-- Second contraction: the weights are read at `(k, g)`. -/
theorem ridx_v20 (g : Fin 64) (k : Fin 64) : ridx_main_v20 (ix4 b n j g) k = ix2 k g :=
  funext fun a => match a with | ⟨0, _⟩ => rfl | ⟨1, _⟩ => rfl
/-- The second bias is read at `g`. -/
theorem idx_v21_v22 (g : Fin 64) : idx_main_v21 (idx_main_v22 (ix4 b n j g)) = ix1 g :=
  funext fun a => match a with | ⟨0, _⟩ => rfl

/-- The second hidden layer at `(b, n, j, g)`. -/
theorem hid2_apply (g : Fin 64) :
    val_main_v24 (F := Ideal) a0 a1 a2 a3 a4 (ix4 b n j g)
      = hid2 (paramsOf a1 a2 a3 a4 a5 a6) (featPow (posOf a0 b n) (posOf a0 b j)) g := by
  rw [val_main_v24_apply, val_main_v23_apply, val_main_v20_apply, val_main_v22_apply, val_main_v21_apply,
    val_main_call1_v0_apply, val_main_call1_cst_apply, idx_v21_v22]
  simp only [lidx_v20, ridx_v20, hid1_apply a0 a1 a2 a3 a4 a5 a6]
  rfl

/-- Third contraction: the left operand is read at `(b, n, j, k)`. -/
theorem lidx_v25 (c : Fin 3) (k : Fin 64) : lidx_main_v25 (ix4 b n j c) k = ix4 b n j k :=
  funext fun a => match a with | ⟨0, _⟩ => rfl | ⟨1, _⟩ => rfl | ⟨2, _⟩ => rfl | ⟨3, _⟩ => rfl
/-- Third contraction: the weights are read at `(k, c)`. -/
theorem ridx_v25 (c : Fin 3) (k : Fin 64) : ridx_main_v25 (ix4 b n j c) k = ix2 k c :=
  funext fun a => match a with | ⟨0, _⟩ => rfl | ⟨1, _⟩ => rfl
/-- The third bias is read at `c`. -/
theorem idx_v26_v27 (c : Fin 3) : idx_main_v26 (idx_main_v27 (ix4 b n j c)) = ix1 c :=
  funext fun a => match a with | ⟨0, _⟩ => rfl

/-- The message of the edge `(pos b n, pos b j)` at `(b, n, j, c)`. -/
theorem mlp_apply (c : Fin 3) :
    val_main_v28 (F := Ideal) a0 a1 a2 a3 a4 a5 a6 (ix4 b n j c)
      = mlp (paramsOf a1 a2 a3 a4 a5 a6) (featPow (posOf a0 b n) (posOf a0 b j)) c := by
  rw [val_main_v28_apply, val_main_v25_apply, val_main_v27_apply, val_main_v26_apply, idx_v26_v27]
  simp only [lidx_v25, ridx_v25, hid2_apply a0 a1 a2 a3 a4 a5 a6]
  rfl

end

end Cert.ReferenceIdeal.RefValue

end
-- ==== Proof.RefSpec.lean ====
import proofs.«179601_j54778012893568_2_alg».proof.Proof.RefSpecMlp
import Idealize.ShloMosaic.Lib.Affine

noncomputable section

open scoped BigOperators

namespace Cert.ReferenceIdeal.RefValue

open Cert.ReferenceIdeal Cert.ReferenceIdeal.Read Idealize.ShloMosaic Idealize.ShloMosaic.ValueIdx Cert.PairNet

/-! ## The reference's result is the recomputing form of the specification

The reference subtracts from the message array its transpose in the two point axes (so the entry `(b, n, j, c)` of the
transpose is the message of the reversed edge `(pos b j, pos b n)`), halves the difference, replaces the diagonal
`n = j` by the word of 0 through a mask built from two integer ramps, and sums over the partner axis `j`. -/

/-- The mask is read at `(n, j)`: it is repeated along the batch and the coordinate axes. -/
theorem idx_mask (b : Fin 2) (n j : Fin 1024) (c : Fin 3) :
    idx_main_v38 (idx_main_call2_v1 (ix4 b n j c)) = ix2 n j :=
  funext fun a => match a with | ⟨0, _⟩ => rfl | ⟨1, _⟩ => rfl

/-- The mask at `(b, n, j, c)`: the comparison of the 32-bit words of `n + 0` and `j`. -/
theorem mask_apply (b : Fin 2) (n j : Fin 1024) (c : Fin 3) :
    val_main_call2_v1 (F := Ideal) (ix4 b n j c)
      = IntOp.cmpi .eq (IntOp.addi (BitVec.ofNat 32 n.val) 0#32) (BitVec.ofNat 32 j.val) := by
  rw [val_main_call2_v1_apply, val_main_v38_apply, idx_mask, val_main_v37_apply, val_main_v36_apply,
    val_main_v33_apply, val_main_v34_apply, val_main_v35_apply, val_main_c_apply]

/-- A select on that comparison is a case split on `n = j`: the two words are equal exactly when the numbers are,
    because both are below `1024 < 2 ^ 32`. -/
theorem select_diag {α : Type} (n j : Fin 1024) (A B : α) :
    Scalar.select (IntOp.cmpi .eq (IntOp.addi (BitVec.ofNat 32 n.val) 0#32) (BitVec.ofNat 32 j.val)) A B
      = if n = j then A else B := by
  have hw : IntOp.addi (BitVec.ofNat 32 n.val) 0#32 = BitVec.ofNat 32 n.val := by
    show BitVec.ofNat 32 n.val + 0#32 = _
    exact BitVec.add_zero _
  rw [hw]
  by_cases h : n = j
  · subst h
    rw [if_pos rfl, IntOp.cmpi_eq.mpr rfl, select_one]
  · rw [if_neg h]
    have hne : ¬ IntOp.cmpi .eq (BitVec.ofNat 32 n.val) (BitVec.ofNat 32 j.val) = 1#1 := fun e => by
      have e' := congrArg BitVec.toNat (IntOp.cmpi_eq.mp e)
      simp only [BitVec.toNat_ofNat] at e'
      have hn := n.isLt
      have hj := j.isLt
      exact h (Fin.ext (by omega))
    rw [eq_zero_of_ne_one hne, select_zero]

/-- The transpose swaps the two point axes. -/
theorem idx_v29 (b : Fin 2) (n j : Fin 1024) (c : Fin 3) : idx_main_v29 (ix4 b n j c) = ix4 b j n c :=
  funext fun a => match a with | ⟨0, _⟩ => rfl | ⟨1, _⟩ => rfl | ⟨2, _⟩ => rfl | ⟨3, _⟩ => rfl

/-- The `j`-th summand of the result at `(b, n, c)` sits at `(b, n, j, c)`. -/
theorem idx_v40 (b : Fin 2) (n : Fin 1024) (c : Fin 3) (j : Fin 1024) :
    idx_main_v40 (ix3 b n c) j = ix4 b n j c :=
  funext fun a => match a with | ⟨0, _⟩ => rfl | ⟨1, _⟩ => rfl | ⟨2, _⟩ => rfl | ⟨3, _⟩ => rfl

section
variable (a0 : Pos) (a1 : W1T) (a2 : B64T) (a3 : W2T) (a4 : B64T) (a5 : W3T) (a6 : B3T)

/-- One partner's contribution at `(b, n, j, c)`: 0 on the diagonal, else half the difference of the two messages. -/
theorem term_apply (b : Fin 2) (n j : Fin 1024) (c : Fin 3) :
    val_main_v39 (F := Ideal) a0 a1 a2 a3 a4 a5 a6 (ix4 b n j c)
      = termPow (paramsOf a1 a2 a3 a4 a5 a6) (posOf a0) b n j c := by
  rw [val_main_v39_apply, mask_apply, select_diag, val_main_call2_v2_apply, val_main_call2_v0_apply,
    val_main_cst_3_apply, val_main_v32_apply, val_main_v31_apply, val_main_cst_2_apply, val_main_v30_apply,
    val_main_v29_apply, idx_v29, mlp_apply, mlp_apply]
  rfl

/-- **The reference is the specification's recomputing form**: its result array, as a function of the seven argument
    arrays, is `resultPow` of the parameters and positions, index by index (the final sum's initial value is the word
    of 0, which is 0). -/
theorem reference_eq :
    val_main_v40 (F := Ideal) a0 a1 a2 a3 a4 a5 a6
      = fun i => resultPow (paramsOf a1 a2 a3 a4 a5 a6) (posOf a0) (i 0) (i 1) (i 2) := by
  funext i
  obtain ⟨b, n, c, rfl⟩ : ∃ (b : Fin 2) (n : Fin 1024) (c : Fin 3), i = ix3 b n c := ⟨i 0, i 1, i 2, eq_ix3 i⟩
  rw [val_main_v40_apply, val_main_cst_4_apply]
  simp only [idx_v40, term_apply]
  rw [Ideal.ofBits_def, Ideal.ofBits_zero_f32, zero_add]
  rfl

end

end Cert.ReferenceIdeal.RefValue

end
-- ==== Proof.AlgebraConsts.lean ====
/-
  The four literal words of the specification as real numbers: 0, 1/2, 3/2 and the softening constant
  ε = 13743895 · 2⁻³⁷ > 0 (the single-precision neighbour of 10⁻⁴).
-/
import proofs.«179601_j54778012893568_2_alg».proof.Proof.Spec
import Idealize.ShloMosaic.PureOps.Ideal.Laws

noncomputable section

namespace Cert.PairNet

open Idealize.ShloMosaic

/-- The softening constant as a real number. -/
def epsR : ℝ := (13743895 : ℝ) * (2 : ℝ) ^ (-37 : ℤ)

theorem epsR_pos : 0 < epsR := by
  unfold epsR
  exact mul_pos (by norm_num) (zpow_pos (by norm_num) _)

theorem zeroW_eq : zeroW = ((0 : ℝ) : EReal) := by
  rw [EReal.coe_zero]; exact Ideal.ofBits_zero_f32

theorem halfW_eq : halfW = (((1 / 2 : ℝ)) : EReal) := by
  simp [Ideal.ofBits, Ideal.ieee, -EReal.coe_mul]
  norm_num

theorem threeHalvesW_eq : threeHalvesW = (((3 / 2 : ℝ)) : EReal) := by
  simp [Ideal.ofBits, Ideal.ieee, -EReal.coe_mul]
  norm_num

theorem epsW_eq : epsW = (epsR : EReal) := by
  unfold epsR
  simp [Ideal.ofBits, Ideal.ieee, -EReal.coe_mul]

end Cert.PairNet

end
-- ==== Proof.AlgebraReal.lean ====
/-
  Real-valued twins of the specification's functions, and the proof that each extended-real definition, at
  inputs that are coercions of real numbers, is the coercion of its twin. The twins use the single form
  ρ = d · √d of the edge features; the power form and the negated form of the specification are shown to coerce
  to the same twin (the latter with the two points swapped).
-/
import proofs.«179601_j54778012893568_2_alg».proof.Proof.AlgebraConsts
import Mathlib.Analysis.SpecialFunctions.Pow.Real
import Mathlib.Analysis.SpecialFunctions.Sqrt

noncomputable section

open scoped BigOperators

namespace Cert.PairNet

open Idealize.ShloMosaic

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with max (it is monotone). -/
theorem coe_max (a b : ℝ) : ((max a b : ℝ) : EReal) = max (a : EReal) (b : EReal) :=
  EReal.coe_strictMono.monotone.map_max

/-- Coordinatewise coercion of a real vector. -/
def cv {n : ℕ} (x : Fin n → ℝ) : Fin n → EReal := fun k => (x k : EReal)

@[simp] theorem cv_apply {n : ℕ} (x : Fin n → ℝ) (k : Fin n) : cv x k = (x k : EReal) := rfl

/-! ## The softened squared distance -/

/-- |y − x|² + ε over the reals. -/
def dsqR (x y : Fin 3 → ℝ) : ℝ := (∑ k : Fin 3, (y k - x k) * (y k - x k)) + epsR

theorem dsqR_pos (x y : Fin 3 → ℝ) : 0 < dsqR x y := by
  unfold dsqR
  have h : 0 ≤ ∑ k : Fin 3, (y k - x k) * (y k - x k) :=
    Finset.sum_nonneg (fun k _ => mul_self_nonneg _)
  linarith [epsR_pos]

/-- The squared distance is symmetric: it is even in δ = y − x. -/
theorem dsqR_symm (x y : Fin 3 → ℝ) : dsqR x y = dsqR y x := by
  unfold dsqR
  congr 1
  refine Finset.sum_congr rfl (fun k _ => ?_)
  ring

theorem dsq_coe (x y : Fin 3 → ℝ) : dsq (cv x) (cv y) = (dsqR x y : EReal) := by
  unfold dsq dsqR
  rw [epsW_eq, EReal.coe_add, coe_sum]
  refine congrArg (· + (epsR : EReal)) (Finset.sum_congr rfl (fun k _ => ?_))
  rw [cv_apply, cv_apply, ← EReal.coe_sub, ← EReal.coe_mul]

/-! ## Edge features -/

/-- ρ = d · √d over the reals. -/
def rhoR (x y : Fin 3 → ℝ) : ℝ := dsqR x y * Real.sqrt (dsqR x y)

theorem rhoR_pos (x y : Fin 3 → ℝ) : 0 < rhoR x y :=
  mul_pos (dsqR_pos x y) (Real.sqrt_pos.mpr (dsqR_pos x y))

theorem rhoR_symm (x y : Fin 3 → ℝ) : rhoR x y = rhoR y x := by
  unfold rhoR; rw [dsqR_symm]

/-- For d > 0 the real power d ^ (3/2) is d · √d. -/
theorem rpow_three_halves {d : ℝ} (hd : 0 < d) : Real.rpow d (3 / 2) = d * Real.sqrt d := by
  rw [Real.rpow_eq_pow, Real.sqrt_eq_rpow]
  have h : (3 / 2 : ℝ) = 1 + 1 / 2 := by norm_num
  rw [h, Real.rpow_add hd, Real.rpow_one]

/-- The product form of ρ, coerced. -/
theorem rhoMul_coe (x y : Fin 3 → ℝ) :
    dsq (cv x) (cv y) * Ideal.sqrt (dsq (cv x) (cv y)) = (rhoR x y : EReal) := by
  rw [dsq_coe, Ideal.sqrt_coe, if_neg (not_lt.mpr (dsqR_pos x y).le), ← EReal.coe_mul]
  rfl

/-- The power form of ρ, coerced: the same real number. -/
theorem rhoPow_coe (x y : Fin 3 → ℝ) :
    Ideal.pow (dsq (cv x) (cv y)) threeHalvesW = (rhoR x y : EReal) := by
  rw [dsq_coe, threeHalvesW_eq, Ideal.pow_coe_coe, rpow_three_halves (dsqR_pos x y)]
  rfl

/-- Division of a real by a nonzero real, coerced. -/
theorem div_coe_coe (a : ℝ) {r : ℝ} (hr : r ≠ 0) :
    Ideal.div (a : EReal) (r : EReal) = ((a / r : ℝ) : EReal) := by
  rw [Ideal.div_coe hr, ← EReal.coe_mul, mul_one_div]

/-- Edge features over the reals: (δ, δ/ρ, d) with δ = y − x. -/
def featR (x y : Fin 3 → ℝ) : Fin 7 → ℝ := fun k =>
  if h : k.val < 3 then y ⟨k.val, h⟩ - x ⟨k.val, h⟩
  else if h' : k.val < 6 then
    (y ⟨k.val - 3, by omega⟩ - x ⟨k.val - 3, by omega⟩) / rhoR x y
  else dsqR x y

theorem featMul_coe (x y : Fin 3 → ℝ) : featMul (cv x) (cv y) = cv (featR x y) := by
  funext k
  unfold featMul featR
  rw [cv_apply]
  by_cases h : k.val < 3
  · rw [dif_pos h, dif_pos h, cv_apply, cv_apply, ← EReal.coe_sub]
  · rw [dif_neg h, dif_neg h]
    by_cases h' : k.val < 6
    · rw [dif_pos h', dif_pos h', rhoMul_coe, cv_apply, cv_apply, ← EReal.coe_sub,
        div_coe_coe _ (rhoR_pos x y).ne']
    · rw [dif_neg h', dif_neg h', dsq_coe]

theorem featPow_coe (x y : Fin 3 → ℝ) : featPow (cv x) (cv y) = cv (featR x y) := by
  funext k
  unfold featPow featR
  rw [cv_apply]
  by_cases h : k.val < 3
  · rw [dif_pos h, dif_pos h, cv_apply, cv_apply, ← EReal.coe_sub]
  · rw [dif_neg h, dif_neg h]
    by_cases h' : k.val < 6
    · rw [dif_pos h', dif_pos h', rhoPow_coe, cv_apply, cv_apply, ← EReal.coe_sub,
        div_coe_coe _ (rhoR_pos x y).ne']
    · rw [dif_neg h', dif_neg h', dsq_coe]

/-- Negating δ and δ/ρ gives the features of the reversed edge: 0 − (y − x) = x − y,
    0 − (y − x)/ρ = (x − y)/ρ, and ρ, d are symmetric. -/
theorem featMulNeg_coe (x y : Fin 3 → ℝ) : featMulNeg (cv x) (cv y) = cv (featR y x) := by
  funext k
  unfold featMulNeg featR
  rw [cv_apply]
  by_cases h : k.val < 3
  · rw [dif_pos h, dif_pos h, cv_apply, cv_apply, zeroW_eq, ← EReal.coe_sub, ← EReal.coe_sub]
    congr 1; ring
  · rw [dif_neg h, dif_neg h]
    by_cases h' : k.val < 6
    · rw [dif_pos h', dif_pos h', rhoMul_coe, cv_apply, cv_apply, ← EReal.coe_sub,
        div_coe_coe _ (rhoR_pos x y).ne', zeroW_eq, ← EReal.coe_sub, rhoR_symm y x]
      congr 1; ring
    · rw [dif_neg h', dif_neg h', dsq_coe, dsqR_symm]

end Cert.PairNet

end
-- ==== Proof.AlgebraMlp.lean ====
/-
  The perceptron over the reals, and the proof that the extended-real perceptron at real parameters and real
  features is the coercion of the real one: sums, products, the bias and max(·, 0) all commute with the coercion.
-/
import proofs.«179601_j54778012893568_2_alg».proof.Proof.AlgebraReal

noncomputable section

open scoped BigOperators

namespace Cert.PairNet

open Idealize.ShloMosaic

/-- Real parameters of the perceptron. -/
structure ParamsR where
  W1 : Fin 7 → Fin 64 → ℝ
  b1 : Fin 64 → ℝ
  W2 : Fin 64 → Fin 64 → ℝ
  b2 : Fin 64 → ℝ
  W3 : Fin 64 → Fin 3 → ℝ
  b3 : Fin 3 → ℝ

/-- Real parameters seen as extended-real ones. -/
def ParamsR.toE (Q : ParamsR) : Params where
  W1 := fun k h => (Q.W1 k h : EReal)
  b1 := fun h => (Q.b1 h : EReal)
  W2 := fun h g => (Q.W2 h g : EReal)
  b2 := fun g => (Q.b2 g : EReal)
  W3 := fun g c => (Q.W3 g c : EReal)
  b3 := fun c => (Q.b3 c : EReal)

/-- Finite parameters are the coercion of real ones. -/
theorem Params.Finite.exists_real {P : Params} (hP : P.Finite) : ∃ Q : ParamsR, P = Q.toE := by
  choose W1 hW1 using hP.W1
  choose b1 hb1 using hP.b1
  choose W2 hW2 using hP.W2
  choose b2 hb2 using hP.b2
  choose W3 hW3 using hP.W3
  choose b3 hb3 using hP.b3
  refine ⟨⟨W1, b1, W2, b2, W3, b3⟩, ?_⟩
  cases P with
  | mk PW1 Pb1 PW2 Pb2 PW3 Pb3 =>
    unfold ParamsR.toE
    congr
    · funext k h; exact hW1 k h
    · funext h; exact hb1 h
    · funext h g; exact hW2 h g
    · funext g; exact hb2 g
    · funext g c; exact hW3 g c
    · funext c; exact hb3 c

/-- relu (e · W1 + b1) over the reals. -/
def hid1R (Q : ParamsR) (e : Fin 7 → ℝ) : Fin 64 → ℝ := fun h => max ((∑ k : Fin 7, e k * Q.W1 k h) + Q.b1 h) 0
/-- relu (h₁ · W2 + b2) over the reals. -/
def hid2R (Q : ParamsR) (e : Fin 7 → ℝ) : Fin 64 → ℝ := fun g => max ((∑ h : Fin 64, hid1R Q e h * Q.W2 h g) + Q.b2 g) 0
/-- h₂ · W3 + b3 over the reals. -/
def mlpR (Q : ParamsR) (e : Fin 7 → ℝ) : Fin 3 → ℝ := fun c => (∑ g : Fin 64, hid2R Q e g * Q.W3 g c) + Q.b3 c

/-- An affine form Σ aₖ · wₖ + β of coerced reals is the coercion of the real affine form. -/
theorem affine_coe {n : ℕ} (a w : Fin n → ℝ) (β : ℝ) :
    (∑ k : Fin n, (a k : EReal) * (w k : EReal)) + (β : EReal) = (((∑ k : Fin n, a k * w k) + β : ℝ) : EReal) := by
  rw [EReal.coe_add, coe_sum]
  refine congrArg (· + (β : EReal)) (Finset.sum_congr rfl (fun k _ => ?_))
  rw [EReal.coe_mul]

theorem hid1_coe (Q : ParamsR) (e : Fin 7 → ℝ) : hid1 Q.toE (cv e) = cv (hid1R Q e) := by
  funext h
  unfold hid1 hid1R
  rw [cv_apply, coe_max, zeroW_eq]
  exact congrArg (max · ((0 : ℝ) : EReal)) (affine_coe e (fun k => Q.W1 k h) (Q.b1 h))

theorem hid2_coe (Q : ParamsR) (e : Fin 7 → ℝ) : hid2 Q.toE (cv e) = cv (hid2R Q e) := by
  funext g
  unfold hid2 hid2R
  rw [cv_apply, coe_max, zeroW_eq, hid1_coe]
  exact congrArg (max · ((0 : ℝ) : EReal)) (affine_coe (hid1R Q e) (fun h => Q.W2 h g) (Q.b2 g))

theorem mlp_coe (Q : ParamsR) (e : Fin 7 → ℝ) : mlp Q.toE (cv e) = cv (mlpR Q e) := by
  funext c
  unfold mlp mlpR
  rw [cv_apply, hid2_coe]
  exact affine_coe (hid2R Q e) (fun g => Q.W3 g c) (Q.b3 c)

end Cert.PairNet

end
-- ==== Proof.Algebra.lean ====
/-
  The two forms of the specification agree on finite inputs. With every position and parameter a real number,
  each partner's contribution on either side is the coercion of the same real number
      ½ · (message(features(x, y)) − message(features(y, x))),
  because d · √d = d ^ (3/2) for d > 0, because negating δ and δ/ρ gives the reversed edge's features, and
  because at the partner y = x the difference of two equal real messages is 0. The sums then agree term by term.
-/
import proofs.«179601_j54778012893568_2_alg».proof.Proof.AlgebraMlp

noncomputable section

open scoped BigOperators

namespace Cert.PairNet

open Idealize.ShloMosaic

/-- One partner's contribution over the reals. -/
def termR (Q : ParamsR) (x y : Fin 3 → ℝ) (c : Fin 3) : ℝ :=
  (1 / 2 : ℝ) * (mlpR Q (featR x y) c - mlpR Q (featR y x) c)

/-- At the partner y = x the contribution vanishes. -/
theorem termR_self (Q : ParamsR) (x : Fin 3 → ℝ) (c : Fin 3) : termR Q x x c = 0 := by
  unfold termR
  rw [sub_self, mul_zero]

/-- The negating side's contribution is the coercion of the real one. -/
theorem termMul_coe (Q : ParamsR) (x y : Fin 3 → ℝ) (c : Fin 3) :
    termMul Q.toE (cv x) (cv y) c = (termR Q x y c : EReal) := by
  unfold termMul termR
  rw [featMul_coe, featMulNeg_coe, mlp_coe, mlp_coe, cv_apply, cv_apply, halfW_eq,
    ← EReal.coe_sub, ← EReal.coe_mul]

/-- The recomputing side's contribution is the coercion of the same real number. -/
theorem termPow_coe (Q : ParamsR) (r : Fin 2 → Fin 1024 → Fin 3 → ℝ) (b : Fin 2) (n j : Fin 1024) (c : Fin 3) :
    termPow Q.toE (fun b n => cv (r b n)) b n j c = (termR Q (r b n) (r b j) c : EReal) := by
  unfold termPow
  by_cases hnj : n = j
  · rw [if_pos hnj, hnj, termR_self, zeroW_eq]
  · rw [if_neg hnj]
    unfold termR
    rw [featPow_coe, featPow_coe, mlp_coe, mlp_coe, cv_apply, cv_apply, halfW_eq,
      ← EReal.coe_sub, ← EReal.coe_mul]

/-- Finite positions are the coercion of real ones. -/
theorem PosFinite.exists_real {pos : Fin 2 → Fin 1024 → Fin 3 → EReal} (hpos : PosFinite pos) :
    ∃ r : Fin 2 → Fin 1024 → Fin 3 → ℝ, pos = fun b n => cv (r b n) := by
  choose r hr using hpos
  exact ⟨r, by funext b n c; exact hr b n c⟩

/-- The negation form and the recomputing form of the result agree on finite inputs. -/
theorem resultMul_eq_resultPow (P : Params) (pos : Fin 2 → Fin 1024 → Fin 3 → EReal) (hpos : PosFinite pos)
    (hP : P.Finite) (b : Fin 2) (n : Fin 1024) (c : Fin 3) : resultMul P pos b n c = resultPow P pos b n c := by
  obtain ⟨Q, rfl⟩ := hP.exists_real
  obtain ⟨r, rfl⟩ := hpos.exists_real
  unfold resultMul resultPow
  refine Finset.sum_congr rfl (fun j _ => ?_)
  rw [termMul_coe, termPow_coe]

end Cert.PairNet

end
-- ==== Proof.Finite.lean ====
/-
  What the precondition says of the inputs. The precondition is the conjunction, over the seven float argument
  arrays, of "every entry x has |x| < +∞" (an all-reduction by ∧ of the comparisons max x (−x) < W, W the word of
  +∞). Over the extended reals max x (−x) < ⊤ excludes x = ⊤ and x = ⊥, so every entry is a real number.
-/
import proofs.«179601_j54778012893568_2_alg».proof.Proof.Gen.Pre_finite_inputs
import proofs.«179601_j54778012893568_2_alg».proof.Proof.Spec
import proofs.«179601_j54778012893568_2_alg».proof.Defs
import Idealize.ShloMosaic.PureOps.Ideal.Laws
import Idealize.ShloMosaic.Lib.ReduceAll
import Idealize.ShloMosaic.Lib.ValueIdx

noncomputable section

namespace Cert.PairNet.Fin

open Idealize.ShloMosaic Idealize.ShloMosaic.ValueIdx Idealize.SL.Sem
open Cert.Pre_finite_inputs

/-- The word the precondition compares against denotes +∞. -/
theorem inf_word : Ideal.ofBits .f32 0x7F800000#32 = ⊤ := by
  simp [Ideal.ofBits, Ideal.ieee]

/-- |x| < +∞ over the extended reals makes x a real number. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- The scalar shape has one index. -/
instance : Subsingleton S_.Idx := ⟨fun a b => funext fun d => d.elim0⟩

/-- One conjunct of the precondition: an all-reduction of |a i| < +∞ that is 1 makes every entry of a real. -/
theorem all_real {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi (cmpf .olt (Host.absf a) (broadcastInDim s ![] hb (constant S_ .f32 0x7F800000#32)))
      init hr hu j = 1#1) (i : s.Idx) : ∃ r : ℝ, a i = (r : EReal) := by
  have hi := Host.reduce_andi_all _ init hr hu j e i
  apply real_of_abs_lt_top
  rw [← inf_word]
  exact hi

/-- The precondition, as a statement about the seven arrays: every entry of each is a real number. -/
theorem finite_of_fn (a0 : FVec Ideal S2x1024x3 .f32) (a1 : FVec Ideal S7x64 .f32) (a2 : FVec Ideal S64 .f32)
    (a3 : FVec Ideal S64x64 .f32) (a4 : FVec Ideal S64 .f32) (a5 : FVec Ideal S64x3 .f32) (a6 : FVec Ideal S3 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) := by
  have h0 := congrFun h ix0
  dsimp only [Cert.Pre_finite_inputs.fn, Cert.Pre_finite_inputs.fn_part1] at h0
  obtain ⟨h05, e6⟩ := IntOp.andi_eq_one.1 h0
  obtain ⟨h04, e5⟩ := IntOp.andi_eq_one.1 h05
  obtain ⟨h03, e4⟩ := IntOp.andi_eq_one.1 h04
  obtain ⟨h02, e3⟩ := IntOp.andi_eq_one.1 h03
  obtain ⟨h01, e2⟩ := IntOp.andi_eq_one.1 h02
  obtain ⟨e0, e1⟩ := IntOp.andi_eq_one.1 h01
  exact ⟨all_real a0 _ _ _ _ _ e0, all_real a1 _ _ _ _ _ e1, all_real a2 _ _ _ _ _ e2, all_real a3 _ _ _ _ _ e3,
    all_real a4 _ _ _ _ _ e4, all_real a5 _ _ _ _ _ e5, all_real a6 _ _ _ _ _ e6⟩

/-- The positions are finite in the specification's sense. -/
theorem posFinite_of_fn (a0 : FVec Ideal S2x1024x3 .f32) (a1 : FVec Ideal S7x64 .f32) (a2 : FVec Ideal S64 .f32)
    (a3 : FVec Ideal S64x64 .f32) (a4 : FVec Ideal S64 .f32) (a5 : FVec Ideal S64x3 .f32) (a6 : FVec Ideal S3 .f32)
    (h : Cert.Pre_finite_inputs.fn (F := Ideal) a0 a1 a2 a3 a4 a5 a6 = fun _ => 1#1) : PosFinite (posOf a0) :=
  fun b n c => (finite_of_fn a0 a1 a2 a3 a4 a5 a6 h).1 (ix3 b n c)

/-- The parameters are finite in the specification's sense. -/
theorem paramsFinite_of_fn (a0 : FVec Ideal S2x1024x3 .f32) (a1 : FVec Ideal S7x64 .f32) (a2 : FVec Ideal S64 .f32)
    (a3 : FVec Ideal S64x64 .f32) (a4 : FVec Ideal S64 .f32) (a5 : FVec Ideal S64x3 .f32) (a6 : FVec Ideal S3 .f32)
    (h : Cert.Pre_finite_inputs.fn (F := Ideal) a0 a1 a2 a3 a4 a5 a6 = fun _ => 1#1) :
    (paramsOf a1 a2 a3 a4 a5 a6).Finite := by
  obtain ⟨_, f1, f2, f3, f4, f5, f6⟩ := finite_of_fn a0 a1 a2 a3 a4 a5 a6 h
  exact ⟨fun k h => f1 (ix2 k h), fun h => f2 (ix1 h), fun h g => f3 (ix2 h g), fun g => f4 (ix1 g),
    fun g c => f5 (ix2 g c), fun c => f6 (ix1 c)⟩

/-- The same, read off a memory of the idealized kernel that satisfies the precondition, on every device. -/
theorem of_Pre_KernelIdeal [hPre : Cert.Pre_finite_inputs.Facts]
    (m : (ℓ : Loc Cert.KernelIdeal.nD Cert.KernelIdeal.τ Cert.KernelIdeal.sig) → Buf (Elt Ideal) ℓ)
    (hm : Cert.Pre_KernelIdeal m) (c : Dev Cert.KernelIdeal.nD) :
    PosFinite (posOf (m ((c.tc : Thread Cert.KernelIdeal.nD Cert.KernelIdeal.τ).loc Cert.KernelIdeal.main_arg0)))
    ∧ (paramsOf (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))).Finite :=
  ⟨posFinite_of_fn _ _ _ _ _ _ _ (hm c), paramsFinite_of_fn _ _ _ _ _ _ _ (hm c)⟩

/-- The same, read off a memory of the idealized reference that satisfies the precondition, on every device. -/
theorem of_Pre_ReferenceIdeal [hPre : Cert.Pre_finite_inputs.Facts]
    (m : (ℓ : Loc Cert.ReferenceIdeal.nD Cert.ReferenceIdeal.τ Cert.ReferenceIdeal.sig) → Buf (Elt Ideal) ℓ)
    (hm : Cert.Pre_ReferenceIdeal m) (c : Dev Cert.ReferenceIdeal.nD) :
    PosFinite (posOf (m ((c.tc : Thread Cert.ReferenceIdeal.nD Cert.ReferenceIdeal.τ).loc Cert.ReferenceIdeal.main_arg0)))
    ∧ (paramsOf (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4))
        (m ((c.tc : Thread Cert.ReferenceIdeal.nD Cert.ReferenceIdeal.τ).loc Cert.ReferenceIdeal.main_arg5))
        (m ((c.tc : Thread Cert.ReferenceIdeal.nD Cert.ReferenceIdeal.τ).loc Cert.ReferenceIdeal.main_arg6))).Finite :=
  ⟨posFinite_of_fn _ _ _ _ _ _ _ (hm c), paramsFinite_of_fn _ _ _ _ _ _ _ (hm c)⟩

end Cert.PairNet.Fin

end
-- ==== Proof.lean ====
/-
  The certificate: a tiled kernel for pairwise message passing on a point cloud against its dense reference.

  For two batches of 1024 points the result at a point x is ½ · Σ_y (message(x, y) − message(y, x)), a message being a
  three-layer perceptron of the edge features (δ, δ / d^{3/2}, d), δ = y − x, d = |δ|² + ε. The kernel walks a grid
  (batch, block of 32 points x, block of 128 partners y), sums each block's contributions into a scratch carried
  along the partner axis, and writes the row's block out at the last partner block; it gets the reversed edge by
  negating δ and δ/d^{3/2}, writes d^{3/2} as d · √d, and has no diagonal mask. The reference forms all 1024 × 1024
  messages, transposes, masks the diagonal and sums.

  Frames: both kernel programs run every grid point in one of three cases (first / middle / last partner block);
  the positions array is read through two windows, each holding half of its share. The reference's frame is its run.
  Value: with every input finite, both sides are the same real function (the three identities in Proof/Spec.lean).
-/
import proofs.«179601_j54778012893568_2_alg».proof.Defs
import proofs.«179601_j54778012893568_2_alg».proof.Proof.Gen.Kernel
import proofs.«179601_j54778012893568_2_alg».proof.Proof.Gen.KernelIdeal
import proofs.«179601_j54778012893568_2_alg».proof.Proof.Gen.ReferenceIdeal
import proofs.«179601_j54778012893568_2_alg».proof.Proof.Gen.ReferenceIdeal.Run
import proofs.«179601_j54778012893568_2_alg».proof.Proof.Gen.ReferenceIdeal.Read
import proofs.«179601_j54778012893568_2_alg».proof.Proof.Gen.Pre_finite_inputs
import proofs.«179601_j54778012893568_2_alg».proof.Proof.FrameK.Main
import proofs.«179601_j54778012893568_2_alg».proof.Proof.FrameKI.Main
import proofs.«179601_j54778012893568_2_alg».proof.Proof.KIValue
import proofs.«179601_j54778012893568_2_alg».proof.Proof.RefSpec
import proofs.«179601_j54778012893568_2_alg».proof.Proof.Algebra
import proofs.«179601_j54778012893568_2_alg».proof.Proof.Finite
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_k [Cert.Kernel.Facts] [Cert.Pre_finite_inputs.Facts] : Cert.frame_Kernel := fun m ρ _ => Cert.Kernel.Frm.frame m ρ

/-- So does the idealized kernel. -/
theorem frame_ki [Cert.KernelIdeal.Facts] [Cert.Pre_finite_inputs.Facts] : Cert.frame_KernelIdeal := fun m ρ _ => Cert.KernelIdeal.Frm.frame m ρ

/-- The reference is host operations only: its frame is its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal instance the kernel's result array ends at the specification's negation form of the arguments (its
    frame run, read by coordinates) and the reference's at the recomputing form (its run, read one operation at a
    time); the arguments agree and are finite, so the two forms are one function. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => fun i => Cert.PairNet.resultMul (Cert.KernelIdeal.Frm.prm m c) (Cert.KernelIdeal.Frm.ps m c) (i 0) (i 1) (i 2),
    Cert.KernelIdeal.Frm.run_value m ρ, ?_⟩
  refine (θ_run Cert.ReferenceIdeal.defs _ _).mono (fun _ h c => ⟨?_, (h c).2⟩)
    (Cert.ReferenceIdeal.Value.run (F := Ideal) m' ρ')
  obtain ⟨hpos, hP⟩ := Cert.PairNet.Fin.of_Pre_KernelIdeal m hpre c
  obtain ⟨e0, e1, e2, e3, e4, e5, e6⟩ := hagree c
  rw [(h c).1, Cert.ReferenceIdeal.Read.val_main_v40_eq, Cert.ReferenceIdeal.RefValue.reference_eq, e0, e1, e2, e3, e4, e5, e6]
  funext i
  exact (Cert.PairNet.resultMul_eq_resultPow _ _ hpos hP (i 0) (i 1) (i 2)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
